-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.truncf_extf.Statement Cert.KernelIdeal.S4096x1 .f32 .bf16
  ∧ IdealRules.truncf_extf.Statement Cert.KernelIdeal.S8192x1 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : FVec F S8192x128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  main_v8
-- ==== Kernel.lean ====
abbrev S8192x128 : Shape := ⟨2, ![8192, 128]⟩
abbrev S1x1 : Shape := ⟨2, ![1, 1]⟩
abbrev S_ : Shape := ⟨0, ![]⟩
abbrev S4096x256 : Shape := ⟨2, ![4096, 256]⟩
abbrev S8192x256 : Shape := ⟨2, ![8192, 256]⟩
abbrev S4096x128 : Shape := ⟨2, ![4096, 128]⟩
abbrev S1x8192 : Shape := ⟨2, ![1, 8192]⟩
abbrev S4096x124 : Shape := ⟨2, ![4096, 124]⟩
abbrev S4096 : Shape := ⟨1, ![4096]⟩
abbrev S4096x1 : Shape := ⟨2, ![4096, 1]⟩
abbrev S8192 : Shape := ⟨1, ![8192]⟩
abbrev S8192x1 : Shape := ⟨2, ![8192, 1]⟩
abbrev S8192x124 : Shape := ⟨2, ![8192, 124]⟩
abbrev S512x256 : Shape := ⟨2, ![512, 256]⟩
abbrev S4096x512 : Shape := ⟨2, ![4096, 512]⟩
abbrev S512 : Shape := ⟨1, ![512]⟩
abbrev S1x512 : Shape := ⟨2, ![1, 512]⟩
abbrev S1x4096x1 : Shape := ⟨3, ![1, 4096, 1]⟩
abbrev S1 : Shape := ⟨1, ![1]⟩
abbrev S1x1x1 : Shape := ⟨3, ![1, 1, 1]⟩
abbrev S1x1x8192 : Shape := ⟨3, ![1, 1, 8192]⟩

abbrev nBuf : Space → Nat
  | .hbm => 4
  | .vmem => 8
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S1x1, .f32⟩
  | .hbm, ⟨3, _⟩ => ⟨S_, .f32⟩
  | .local _ .vmem, ⟨0, _⟩ => ⟨S8192x128, .f32⟩
  | .local _ .vmem, ⟨1, _⟩ => ⟨S8192x128, .f32⟩
  | .local _ .vmem, ⟨2, _⟩ => ⟨S1x1, .f32⟩
  | .local _ .vmem, ⟨3, _⟩ => ⟨S4096x256, .bf16⟩
  | .local _ .vmem, ⟨4, _⟩ => ⟨S8192x256, .bf16⟩
  | .local _ .vmem, ⟨5, _⟩ => ⟨S4096x128, .f32⟩
  | .local _ .vmem, ⟨6, _⟩ => ⟨S1x8192, .f32⟩
  | .local _ .vmem, ⟨7, _⟩ => ⟨S1x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![2, 1], ![false, false]⟩

def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v6 : BitVec 32 := Scalar.extui v5
  let c0_i32_3 : BitVec 32 := 0#32
  let v7 : BitVec 1 := Scalar.cmpi .ne v6 c0_i32_3
  v7

def k0_off1 (i : grid0.Coords) : Fin 2 → Nat :=
  let arg0 : BitVec 32 := BitVec.ofNat 32 (i 0).val
  let c4096_i32_112 : BitVec 32 := 4096#32
  let v414 : BitVec 32 := Scalar.muli arg0 c4096_i32_112
  let v415 : Index := Scalar.indexCast v414
  let c0_113 : Index := 0#32
  ![v415.toNat, 0]
def k0_cond3 (i : grid0.Coords) : BitVec 1 :=
  let arg0 : BitVec 32 := BitVec.ofNat 32 (i 0).val
  let c0_i32_4 : BitVec 32 := 0#32
  let v8 : BitVec 1 := Scalar.cmpi .eq arg0 c0_i32_4
  let v9 : BitVec 32 := Scalar.extui v8
  let c0_i32_5 : BitVec 32 := 0#32
  let v10 : BitVec 1 := Scalar.cmpi .ne v9 c0_i32_5
  v10

def k0_off2 (i : grid0.Coords) : Fin 2 → Nat :=
  let arg1 : BitVec 32 := BitVec.ofNat 32 (i 1).val
  let c8192_i32_112 : BitVec 32 := 8192#32
  let v414 : BitVec 32 := Scalar.muli arg1 c8192_i32_112
  let v415 : Index := Scalar.indexCast v414
  let c0_113 : Index := 0#32
  ![v415.toNat, 0]
def k0_off3 (i : grid0.Coords) : Fin 2 → Nat :=
  let arg1 : BitVec 32 := BitVec.ofNat 32 (i 1).val
  let c8192_i32_116 : BitVec 32 := 8192#32
  let v426 : BitVec 32 := Scalar.muli arg1 c8192_i32_116
  let v427 : Index := Scalar.indexCast v426
  let c0_117 : Index := 0#32
  ![v427.toNat, 0]
def k0_off4 (i : grid0.Coords) : Fin 2 → Nat :=
  let arg1 : BitVec 32 := BitVec.ofNat 32 (i 1).val
  let c8192_i32_118 : BitVec 32 := 8192#32
  let v431 : BitVec 32 := Scalar.muli arg1 c8192_i32_118
  let v432 : Index := Scalar.indexCast v431
  let c128 : Index := 128#32
  ![v432.toNat, 128]
def k0_off5 (i : grid0.Coords) : Fin 2 → Nat :=
  let arg1 : BitVec 32 := BitVec.ofNat 32 (i 1).val
  let c8192_i32_119 : BitVec 32 := 8192#32
  let v436 : BitVec 32 := Scalar.muli arg1 c8192_i32_119
  let v437 : Index := Scalar.indexCast v436
  let c129 : Index := 129#32
  ![v437.toNat, 129]
def k0_off6 (i : grid0.Coords) : Fin 2 → Nat :=
  let arg1 : BitVec 32 := BitVec.ofNat 32 (i 1).val
  let c8192_i32_120 : BitVec 32 := 8192#32
  let v441 : BitVec 32 := Scalar.muli arg1 c8192_i32_120
  let v442 : Index := Scalar.indexCast v441
  let c130 : Index := 130#32
  ![v442.toNat, 130]
def k0_off7 (i : grid0.Coords) : Fin 2 → Nat :=
  let arg1 : BitVec 32 := BitVec.ofNat 32 (i 1).val
  let c8192_i32_121 : BitVec 32 := 8192#32
  let v446 : BitVec 32 := Scalar.muli arg1 c8192_i32_121
  let v447 : Index := Scalar.indexCast v446
  let c131 : Index := 131#32
  ![v447.toNat, 131]
def k0_off8 (i : grid0.Coords) : Fin 2 → Nat :=
  let arg1 : BitVec 32 := BitVec.ofNat 32 (i 1).val
  let c8192_i32_123 : BitVec 32 := 8192#32
  let v452 : BitVec 32 := Scalar.muli arg1 c8192_i32_123
  let v453 : Index := Scalar.indexCast v452
  let c132 : Index := 132#32
  ![v453.toNat, 132]
def k0_off9 (i : grid0.Coords) (c0_i32_7 : BitVec 32) : Fin 2 → Nat :=
  let arg1 : BitVec 32 := BitVec.ofNat 32 (i 1).val
  let c8192_i32 : BitVec 32 := 8192#32
  let v12 : BitVec 32 := Scalar.muli arg1 c8192_i32
  let v13 : BitVec 32 := Scalar.addi v12 c0_i32_7
  let v14 : Index := Scalar.indexCast v13
  let c0_8 : Index := 0#32
  ![v14.toNat, 0]
def k0_off10 (i : grid0.Coords) : Fin 2 → Nat :=
  let arg1 : BitVec 32 := BitVec.ofNat 32 (i 1).val
  let v31 : Index := Scalar.indexCast arg1
  let c0_13 : Index := 0#32
  ![v31.toNat, 0]
def k0_off11 (i : grid0.Coords) : Fin 2 → Nat :=
  let arg1 : BitVec 32 := BitVec.ofNat 32 (i 1).val
  let v55 : Index := Scalar.indexCast arg1
  let c512 : Index := 512#32
  ![v55.toNat, 512]
def k0_off12 (i : grid0.Coords) : Fin 2 → Nat :=
  let arg1 : BitVec 32 := BitVec.ofNat 32 (i 1).val
  let v79 : Index := Scalar.indexCast arg1
  let c1024 : Index := 1024#32
  ![v79.toNat, 1024]
def k0_off13 (i : grid0.Coords) : Fin 2 → Nat :=
  let arg1 : BitVec 32 := BitVec.ofNat 32 (i 1).val
  let v103 : Index := Scalar.indexCast arg1
  let c1536 : Index := 1536#32
  ![v103.toNat, 1536]
def k0_off14 (i : grid0.Coords) : Fin 2 → Nat :=
  let arg1 : BitVec 32 := BitVec.ofNat 32 (i 1).val
  let v127 : Index := Scalar.indexCast arg1
  let c2048 : Index := 2048#32
  ![v127.toNat, 2048]
def k0_off15 (i : grid0.Coords) : Fin 2 → Nat :=
  let arg1 : BitVec 32 := BitVec.ofNat 32 (i 1).val
  let v151 : Index := Scalar.indexCast arg1
  let c2560 : Index := 2560#32
  ![v151.toNat, 2560]
def k0_off16 (i : grid0.Coords) : Fin 2 → Nat :=
  let arg1 : BitVec 32 := BitVec.ofNat 32 (i 1).val
  let v175 : Index := Scalar.indexCast arg1
  let c3072 : Index := 3072#32
  ![v175.toNat, 3072]
def k0_off17 (i : grid0.Coords) : Fin 2 → Nat :=
  let arg1 : BitVec 32 := BitVec.ofNat 32 (i 1).val
  let v199 : Index := Scalar.indexCast arg1
  let c3584 : Index := 3584#32
  ![v199.toNat, 3584]
def k0_off18 (i : grid0.Coords) : Fin 2 → Nat :=
  let arg1 : BitVec 32 := BitVec.ofNat 32 (i 1).val
  let v223 : Index := Scalar.indexCast arg1
  let c4096 : Index := 4096#32
  ![v223.toNat, 4096]
def k0_off19 (i : grid0.Coords) : Fin 2 → Nat :=
  let arg1 : BitVec 32 := BitVec.ofNat 32 (i 1).val
  let v247 : Index := Scalar.indexCast arg1
  let c4608 : Index := 4608#32
  ![v247.toNat, 4608]
def k0_off20 (i : grid0.Coords) : Fin 2 → Nat :=
  let arg1 : BitVec 32 := BitVec.ofNat 32 (i 1).val
  let v271 : Index := Scalar.indexCast arg1
  let c5120 : Index := 5120#32
  ![v271.toNat, 5120]
def k0_off21 (i : grid0.Coords) : Fin 2 → Nat :=
  let arg1 : BitVec 32 := BitVec.ofNat 32 (i 1).val
  let v295 : Index := Scalar.indexCast arg1
  let c5632 : Index := 5632#32
  ![v295.toNat, 5632]
def k0_off22 (i : grid0.Coords) : Fin 2 → Nat :=
  let arg1 : BitVec 32 := BitVec.ofNat 32 (i 1).val
  let v319 : Index := Scalar.indexCast arg1
  let c6144 : Index := 6144#32
  ![v319.toNat, 6144]
def k0_off23 (i : grid0.Coords) : Fin 2 → Nat :=
  let arg1 : BitVec 32 := BitVec.ofNat 32 (i 1).val
  let v343 : Index := Scalar.indexCast arg1
  let c6656 : Index := 6656#32
  ![v343.toNat, 6656]
def k0_off24 (i : grid0.Coords) : Fin 2 → Nat :=
  let arg1 : BitVec 32 := BitVec.ofNat 32 (i 1).val
  let v367 : Index := Scalar.indexCast arg1
  let c7168 : Index := 7168#32
  ![v367.toNat, 7168]
def k0_off25 (i : grid0.Coords) : Fin 2 → Nat :=
  let arg1 : BitVec 32 := BitVec.ofNat 32 (i 1).val
  let v386 : Index := Scalar.indexCast arg1
  let c7680 : Index := 7680#32
  ![v386.toNat, 7680]
def k0_cond4 (i : grid0.Coords) : BitVec 1 :=
  let arg0 : BitVec 32 := BitVec.ofNat 32 (i 0).val
  let c1_i32 : BitVec 32 := 1#32
  let v409 : BitVec 1 := Scalar.cmpi .eq arg0 c1_i32
  let arg1 : BitVec 32 := BitVec.ofNat 32 (i 1).val
  let c0_i32_110 : BitVec 32 := 0#32
  let v410 : BitVec 1 := Scalar.cmpi .eq arg1 c0_i32_110
  let v411 : BitVec 1 := Scalar.andi v409 v410
  let v412 : BitVec 32 := Scalar.extui v411
  let c0_i32_111 : BitVec 32 := 0#32
  let v413 : BitVec 1 := Scalar.cmpi .ne v412 c0_i32_111
  v413

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S8192x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S8192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

class Facts₀ : Prop where
  shapeCasts_S1x1_S_ : S1x1.ShapeCasts S_
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S4096x256_S4096x124_0_132 : ∀ a, (![0, 132] : Fin 2 → Nat) a + S4096x124.size a ≤ S4096x256.size a
  h_S4096x124 : 0 < S4096x124.numel
  shapeCasts_S4096x124_S4096x124 : S4096x124.ShapeCasts S4096x124
  packedbf16_S4096x256_S4096x124_0_132 : (Rect.unit (s := S4096x256) ![0, 132] S4096x124.size inb_S4096x256_S4096x124_0_132).PackedRows (EltTy.packing .bf16)
  h_S4096x128 : 0 < S4096x128.numel
  reduces_S4096x128_S4096 : S4096x128.Reduces [1] S4096
  shapeCasts_S4096_S4096x1 : S4096.ShapeCasts S4096x1
  bitsLt_bf16_f32 : FTy.bits .bf16 < FTy.bits .f32
  inb_S4096x256_S4096x128_0_0 : ∀ a, (![0, 0] : Fin 2 → Nat) a + S4096x128.size a ≤ S4096x256.size a
  shapeCasts_S4096x128_S4096x128 : S4096x128.ShapeCasts S4096x128
  packedbf16_S4096x256_S4096x128_0_0 : (Rect.unit (s := S4096x256) ![0, 0] S4096x128.size inb_S4096x256_S4096x128_0_0).PackedRows (EltTy.packing .bf16)
  inb_S4096x256_S4096x1_0_128 : ∀ a, (![0, 128] : Fin 2 → Nat) a + S4096x1.size a ≤ S4096x256.size a
  h_S4096x1 : 0 < S4096x1.numel
  shapeCasts_S4096x1_S4096x1 : S4096x1.ShapeCasts S4096x1
  packedbf16_S4096x256_S4096x1_0_128 : (Rect.unit (s := S4096x256) ![0, 128] S4096x1.size inb_S4096x256_S4096x1_0_128).PackedRows (EltTy.packing .bf16)
  inb_S4096x256_S4096x1_0_129 : ∀ a, (![0, 129] : Fin 2 → Nat) a + S4096x1.size a ≤ S4096x256.size a
  packedbf16_S4096x256_S4096x1_0_129 : (Rect.unit (s := S4096x256) ![0, 129] S4096x1.size inb_S4096x256_S4096x1_0_129).PackedRows (EltTy.packing .bf16)
  inb_S4096x256_S4096x1_0_130 : ∀ a, (![0, 130] : Fin 2 → Nat) a + S4096x1.size a ≤ S4096x256.size a
  packedbf16_S4096x256_S4096x1_0_130 : (Rect.unit (s := S4096x256) ![0, 130] S4096x1.size inb_S4096x256_S4096x1_0_130).PackedRows (EltTy.packing .bf16)
  inb_S4096x256_S4096x1_0_131 : ∀ a, (![0, 131] : Fin 2 → Nat) a + S4096x1.size a ≤ S4096x256.size a
  packedbf16_S4096x256_S4096x1_0_131 : (Rect.unit (s := S4096x256) ![0, 131] S4096x1.size inb_S4096x256_S4096x1_0_131).PackedRows (EltTy.packing .bf16)
  h_S8192x128 : 0 < S8192x128.numel
  reduces_S8192x128_S8192 : S8192x128.Reduces [1] S8192
  shapeCasts_S8192_S8192x1 : S8192.ShapeCasts S8192x1
  shapeCasts_S8192x128_S8192x128 : S8192x128.ShapeCasts S8192x128
  h_S8192x1 : 0 < S8192x1.numel
  shapeCasts_S8192x1_S8192x1 : S8192x1.ShapeCasts S8192x1
  h_S8192x124 : 0 < S8192x124.numel
  shapeCasts_S8192x124_S8192x124 : S8192x124.ShapeCasts S8192x124
  inb_S4096x256_S4096x256_0_0 : ∀ a, (![0, 0] : Fin 2 → Nat) a + S4096x256.size a ≤ S4096x256.size a
  h_S4096x256 : 0 < S4096x256.numel
  h_S512x256 : 0 < S512x256.numel
  slices_S4096x512_o0_0_S4096x128 : S4096x512.Slices ![0, 0] S4096x128
  slices_S4096x512_o0_128_S4096x128 : S4096x512.Slices ![0, 128] S4096x128
  slices_S4096x512_o0_256_S4096x128 : S4096x512.Slices ![0, 256] S4096x128
  slices_S4096x512_o0_384_S4096x128 : S4096x512.Slices ![0, 384] S4096x128
  reduces_S4096x512_S512 : S4096x512.Reduces [0] S512
  shapeCasts_S512_S1x512 : S512.ShapeCasts S1x512
  h_S1x512 : 0 < S1x512.numel
  shapeCasts_S1x512_S1x512 : S1x512.ShapeCasts S1x512
  shapeCasts_S4096x1_S1x4096x1 : S4096x1.ShapeCasts S1x4096x1
  reduces_S1x4096x1_S1 : S1x4096x1.Reduces [1, 2] S1
  shapeCasts_S1_S1x1x1 : S1.ShapeCasts S1x1x1
  inpos_S1x1x1_p0_0_0 : ∀ a, (![0, 0, 0] : Fin 3 → Nat) a < S1x1x1.size a
  inb_S1x8192_S1x8192_0_0 : ∀ a, (![0, 0] : Fin 2 → Nat) a + S1x8192.size a ≤ S1x8192.size a
  h_S1x8192 : 0 < S1x8192.numel
  shapeCasts_S1x8192_S1x1x8192 : S1x8192.ShapeCasts S1x1x8192
  reduces_S1x1x8192_S1 : S1x1x8192.Reduces [1, 2] S1
  dot_S4096x256_S512x256_S4096x512_1_1_0_0_n_n_wf : DotDims.WF S4096x256 S512x256 S4096x512 [1] [1] [0] [0] [] []
  hrank0 : 0 < grid0.rank
  k0_off1_inb : ∀ i : grid0.Coords, ∀ (k0_h2 : k0_cond2 i = 1#1), ∀ a, (k0_off1 i) a + S4096x128.size a ≤ S8192x128.size a
  k0_off2_inb : ∀ i : grid0.Coords, ∀ (k0_h3 : k0_cond3 i = 1#1), ∀ a, (k0_off2 i) a + S8192x128.size a ≤ S8192x128.size a
  k0_off3_inb : ∀ i : grid0.Coords, ∀ (k0_h3 : k0_cond3 i = 1#1), ∀ a, (k0_off3 i) a + S8192x128.size a ≤ S8192x256.size a
  k0_off3_packedbf16 : ∀ i : grid0.Coords, ∀ (k0_h3 : k0_cond3 i = 1#1), (Rect.unit (s := S8192x256) (k0_off3 i) S8192x128.size (k0_off3_inb i k0_h3)).PackedRows (EltTy.packing .bf16)
  k0_off4_inb : ∀ i : grid0.Coords, ∀ (k0_h3 : k0_cond3 i = 1#1), ∀ a, (k0_off4 i) a + S8192x1.size a ≤ S8192x256.size a
  k0_off4_packedbf16 : ∀ i : grid0.Coords, ∀ (k0_h3 : k0_cond3 i = 1#1), (Rect.unit (s := S8192x256) (k0_off4 i) S8192x1.size (k0_off4_inb i k0_h3)).PackedRows (EltTy.packing .bf16)
  k0_off5_inb : ∀ i : grid0.Coords, ∀ (k0_h3 : k0_cond3 i = 1#1), ∀ a, (k0_off5 i) a + S8192x1.size a ≤ S8192x256.size a
  k0_off5_packedbf16 : ∀ i : grid0.Coords, ∀ (k0_h3 : k0_cond3 i = 1#1), (Rect.unit (s := S8192x256) (k0_off5 i) S8192x1.size (k0_off5_inb i k0_h3)).PackedRows (EltTy.packing .bf16)
  k0_off6_inb : ∀ i : grid0.Coords, ∀ (k0_h3 : k0_cond3 i = 1#1), ∀ a, (k0_off6 i) a + S8192x1.size a ≤ S8192x256.size a
  k0_off6_packedbf16 : ∀ i : grid0.Coords, ∀ (k0_h3 : k0_cond3 i = 1#1), (Rect.unit (s := S8192x256) (k0_off6 i) S8192x1.size (k0_off6_inb i k0_h3)).PackedRows (EltTy.packing .bf16)
  k0_off7_inb : ∀ i : grid0.Coords, ∀ (k0_h3 : k0_cond3 i = 1#1), ∀ a, (k0_off7 i) a + S8192x1.size a ≤ S8192x256.size a
  k0_off7_packedbf16 : ∀ i : grid0.Coords, ∀ (k0_h3 : k0_cond3 i = 1#1), (Rect.unit (s := S8192x256) (k0_off7 i) S8192x1.size (k0_off7_inb i k0_h3)).PackedRows (EltTy.packing .bf16)
  k0_off8_inb : ∀ i : grid0.Coords, ∀ (k0_h3 : k0_cond3 i = 1#1), ∀ a, (k0_off8 i) a + S8192x124.size a ≤ S8192x256.size a
  k0_off8_packedbf16 : ∀ i : grid0.Coords, ∀ (k0_h3 : k0_cond3 i = 1#1), (Rect.unit (s := S8192x256) (k0_off8 i) S8192x124.size (k0_off8_inb i k0_h3)).PackedRows (EltTy.packing .bf16)
  k0_off9_inb : ∀ i : grid0.Coords, ∀ (r : Fin 16), ∀ a, (k0_off9 i (BitVec.ofNat 32 (512 * r.val))) a + S512x256.size a ≤ S8192x256.size a
  k0_off10_inb : ∀ i : grid0.Coords, ∀ a, (k0_off10 i) a + S1x512.size a ≤ S1x8192.size a
  k0_off11_inb : ∀ i : grid0.Coords, ∀ a, (k0_off11 i) a + S1x512.size a ≤ S1x8192.size a
  k0_off12_inb : ∀ i : grid0.Coords, ∀ a, (k0_off12 i) a + S1x512.size a ≤ S1x8192.size a
  k0_off13_inb : ∀ i : grid0.Coords, ∀ a, (k0_off13 i) a + S1x512.size a ≤ S1x8192.size a
  k0_off14_inb : ∀ i : grid0.Coords, ∀ a, (k0_off14 i) a + S1x512.size a ≤ S1x8192.size a
  k0_off15_inb : ∀ i : grid0.Coords, ∀ a, (k0_off15 i) a + S1x512.size a ≤ S1x8192.size a
  k0_off16_inb : ∀ i : grid0.Coords, ∀ a, (k0_off16 i) a + S1x512.size a ≤ S1x8192.size a
  k0_off17_inb : ∀ i : grid0.Coords, ∀ a, (k0_off17 i) a + S1x512.size a ≤ S1x8192.size a
  k0_off18_inb : ∀ i : grid0.Coords, ∀ a, (k0_off18 i) a + S1x512.size a ≤ S1x8192.size a
  k0_off19_inb : ∀ i : grid0.Coords, ∀ a, (k0_off19 i) a + S1x512.size a ≤ S1x8192.size a
  k0_off20_inb : ∀ i : grid0.Coords, ∀ a, (k0_off20 i) a + S1x512.size a ≤ S1x8192.size a
  k0_off21_inb : ∀ i : grid0.Coords, ∀ a, (k0_off21 i) a + S1x512.size a ≤ S1x8192.size a
  k0_off22_inb : ∀ i : grid0.Coords, ∀ a, (k0_off22 i) a + S1x512.size a ≤ S1x8192.size a
  k0_off23_inb : ∀ i : grid0.Coords, ∀ a, (k0_off23 i) a + S1x512.size a ≤ S1x8192.size a
  k0_off24_inb : ∀ i : grid0.Coords, ∀ a, (k0_off24 i) a + S1x512.size a ≤ S1x8192.size a
  k0_off25_inb : ∀ i : grid0.Coords, ∀ a, (k0_off25 i) a + S1x512.size a ≤ S1x8192.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S8192x128.size a
  hwx0_0 : ∀ i : grid0.Coords, EltTy.bits .f32 = 32 ∨ (Rect.block (s := S8192x128) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S8192x128.size a
  hwx0_1 : ∀ i : grid0.Coords, EltTy.bits .f32 = 32 ∨ (Rect.block (s := S8192x128) S8192x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)

variable [Facts₀]

def dot_S4096x256_S512x256_S4096x512_1_1_0_0_n_n : DotDims S4096x256 S512x256 S4096x512 where
  lhsContracting := [1]
  rhsContracting := [1]
  lhsNonContracting := [0]
  rhsNonContracting := [0]
  lhsBatch := []
  rhsBatch := []
  wf := dot_S4096x256_S512x256_S4096x512_1_1_0_0_n_n_wf

abbrev win0_0 : Pipeline.Window sig grid0 :=
  Pipeline.Window.ofSpec (Memref.whole main_arg0) S8192x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond4 i == 1#1) | ⟨_ + 3, h⟩ => absurd h (Nat.not_lt.2 (Nat.le_add_left _ _))

class Facts : Prop extends Facts₀ where

variable [Facts]
-- ==== ReferenceIdeal.lean ====
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S128x8192 : Shape := ⟨2, ![128, 8192]⟩

abbrev nBuf : Space → Nat
  | .hbm => 33
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x128, .f32⟩
  | .hbm, ⟨7, _⟩ => ⟨S_, .f32⟩
  | .hbm, ⟨8, _⟩ => ⟨S8192, .f32⟩
  | .hbm, ⟨9, _⟩ => ⟨S1x8192, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S128x8192, .f32⟩
  | .hbm, ⟨14, _⟩ => ⟨S8192x8192, .f32⟩
  | .hbm, ⟨15, _⟩ => ⟨S_, .f32⟩
  | .hbm, ⟨16, _⟩ => ⟨S8192x8192, .f32⟩
  | .hbm, ⟨17, _⟩ => ⟨S8192x8192, .f32⟩
  | .hbm, ⟨18, _⟩ => ⟨S8192x8192, .f32⟩
  | .hbm, ⟨19, _⟩ => ⟨S_, .f32⟩
  | .hbm, ⟨20, _⟩ => ⟨S8192x8192, .f32⟩
  | .hbm, ⟨21, _⟩ => ⟨S8192x8192, .f32⟩
  | .hbm, ⟨22, _⟩ => ⟨S_, .f32⟩
  | .hbm, ⟨23, _⟩ => ⟨S8192, .f32⟩
  | .hbm, ⟨24, _⟩ => ⟨S_, .f32⟩
  | .hbm, ⟨25, _⟩ => ⟨S8192, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_cst_5 : Ref sig .tc := ⟨.hbm, 26, rfl⟩
abbrev main_v18 : Ref sig .tc := ⟨.hbm, 27, rfl⟩
abbrev main_cst_6 : Ref sig .tc := ⟨.hbm, 28, rfl⟩
abbrev main_v19 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x128_S128x8192_1_0 : S8192x128.Transposes [1, 0] S128x8192
  bcast_S_S8192x8192 : S_.BroadcastsInDim S8192x8192 (![] : Fin 0 → Fin S8192x8192.rank)
  reducesTo_S8192x8192_S8192_d1 : S8192x8192.ReducesTo [1] S8192
  reducesTo_S8192x8192_S8192_d0 : S8192x8192.ReducesTo [0] S8192
  reducesTo_S8192_S_d0 : S8192.ReducesTo [0] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.BitsCases.lean ====
/-
  The chamfer kernel's grid has two points, (0,0) and (1,0). This module decides the body's four branch
  conditions over them, records where the one output window (the [1,1] result) is idle, names the staging
  and scratch buffers the body is called with, and opens the launch invariant into the five scratch buffers.
-/
import proofs.«176257_g9887014716187_cont_9to1c4b_714_27_alg».proof.Proof.Gen.Kernel.Frame
import proofs.«176257_g9887014716187_cont_9to1c4b_714_27_alg».proof.Proof.Gen.Kernel.Skeleton

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The four branch conditions, from the grid coordinates -/

/-- "first point of the whole grid": row block 0 and column block 0 (the accumulator and the padding are reset). -/
abbrev cond1 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- "column block 0": the augmented row operand is rebuilt. -/
abbrev cond2 (i : grid0.Coords) : Prop := k0_cond2 i = 1#1
/-- "row block 0": the augmented column operand is built. -/
abbrev cond3 (i : grid0.Coords) : Prop := k0_cond3 i = 1#1
/-- "last point": the mean is emitted. -/
abbrev cond4 (i : grid0.Coords) : Prop := k0_cond4 i = 1#1

theorem hcond1 : ∀ t : Fin cfg0.N, cond1 (grid0.coords t) ↔ t.val % 2 = 0 :=
  (by decide +kernel : ∀ t : Fin grid0.N, cond1 (grid0.coords t) ↔ t.val % 2 = 0)
theorem hcond2 : ∀ t : Fin cfg0.N, cond2 (grid0.coords t) :=
  (by decide +kernel : ∀ t : Fin grid0.N, cond2 (grid0.coords t))
theorem hcond3 : ∀ t : Fin cfg0.N, cond3 (grid0.coords t) ↔ t.val % 2 = 0 :=
  (by decide +kernel : ∀ t : Fin grid0.N, cond3 (grid0.coords t) ↔ t.val % 2 = 0)
theorem hcond4 : ∀ t : Fin cfg0.N, cond4 (grid0.coords t) ↔ t.val % 2 = 1 :=
  (by decide +kernel : ∀ t : Fin grid0.N, cond4 (grid0.coords t) ↔ t.val % 2 = 1)

/-! ## Where the windows are idle -/

theorem liveAt0 : ∀ t : Fin cfg0.N, cfg0.idle 0 (grid0.coords t) = false := by decide +kernel
theorem liveAt1 : ∀ t : Fin cfg0.N, cfg0.idle 1 (grid0.coords t) = false := by decide +kernel
/-- Away from the last point nothing is stored into the result's block: the window is idle -/
theorem idleAt2 : ∀ t : Fin cfg0.N, ¬cond4 (grid0.coords t) → cfg0.idle 2 (grid0.coords t) = true := by decide +kernel
/-- and not written back. -/
theorem noFlush2 : ∀ t : Fin cfg0.N, ¬cond4 (grid0.coords t) → (cfg0.win 2).flush t = false := by decide +kernel
/-- At the last point it is live. -/
theorem liveAt2 : ∀ t : Fin cfg0.N, cond4 (grid0.coords t) → cfg0.idle 2 (grid0.coords t) = false := by decide +kernel

/-! ## The buffers the body is called with -/

abbrev ms0 (t : Fin cfg0.N) : Memref sig .tc .vmem S8192x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8192x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1 .f32 := win0_2.stage (cfg0.slots t 2)
abbrev hs2 (t : Fin cfg0.N) : (ms2 t).IsWhole := hstage0_2 ((cfg0.slots t 2).cast nbuf0_2)
/-- The augmented row operand x~ : [4096, 256]. -/
abbrev scX : Memref sig .tc .vmem S4096x256 .bf16 := Memref.whole cc0_scratch0
/-- The augmented column operand y~ : [8192, 256]. -/
abbrev scY : Memref sig .tc .vmem S8192x256 .bf16 := Memref.whole cc0_scratch1
/-- The lane partial of the row minima (never touched when there is one column block). -/
abbrev scR : Memref sig .tc .vmem S4096x128 .f32 := Memref.whole cc0_scratch2
/-- The running column minima : [1, 8192]. -/
abbrev scC : Memref sig .tc .vmem S1x8192 .f32 := Memref.whole cc0_scratch3
/-- The running sum of the clamped row minima : [1, 1]. -/
abbrev scA : Memref sig .tc .vmem S1x1 .f32 := Memref.whole cc0_scratch4

/-- The launch invariant with the five scratch buffers as owned memrefs at some contents. -/
theorem PhiA_eq (c : Dev nD) :
    (Pipeline.ΦA spec0 c : sProp 𝕄)
      = iprop(iprop((∃ d, owns (c : Thread nD τ) scX fullShare d) ∗ (∃ d, owns (c : Thread nD τ) scY fullShare d)
          ∗ (∃ d, owns (c : Thread nD τ) scR fullShare d) ∗ (∃ d, owns (c : Thread nD τ) scC fullShare d)
          ∗ (∃ d, owns (c : Thread nD τ) scA fullShare d)) ∗ (∃ r, prngReg c r)) := by
  unfold Pipeline.ΦA; rw [scopedRest0_eq]; simp only [scX, scY, scR, scC, scA, owns_whole]; try rfl

end Cert.Kernel.Body

end
-- ==== Proof.BitsRunA.lean ====
/-
  The body at the grid's first point (row block 0, column block 0): every branch but the last is taken.
  On whole buffers — the two inputs at their contents, the result's buffer handed back untouched, the four
  scratch buffers the body uses at ANY contents (it loads each destination rectangle before it stores into it,
  and the running column minima before it selects the fresh ones) — the body runs, and leaves each of the four
  with the stores of this point written over what it held.
-/
import proofs.«176257_g9887014716187_cont_9to1c4b_714_27_alg».proof.Proof.BitsCases

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- The first point's run: the stores into x~, y~, the column minima and the accumulator, as pieces (last first),
    with the proof that the body runs to any continuation that takes the buffers with those pieces written. -/
noncomputable def runA (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S1x1 .f32) (harg4 : arg4.IsWhole) (arg5 : Memref sig .tc .vmem S4096x256 .bf16) (harg5 : arg5.IsWhole) (arg6 : Memref sig .tc .vmem S8192x256 .bf16) (harg6 : arg6.IsWhole) (arg7 : Memref sig .tc .vmem S4096x128 .f32) (harg7 : arg7.IsWhole) (arg8 : Memref sig .tc .vmem S1x8192 .f32) (harg8 : arg8.IsWhole) (arg9 : Memref sig .tc .vmem S1x1 .f32) (harg9 : arg9.IsWhole)
    (hc1 : cond1 i) (hc2 : cond2 i) (hc3 : cond3 i) (hc4 : ¬cond4 i)
    (x0 x1 : Vec F S8192x128 .f32) (d5 : Vec F S4096x256 .bf16) (d6 : Vec F S8192x256 .bf16) (d8 : Vec F S1x8192 .f32) (d9 : Vec F S1x1 .f32) :
    Σ' (L5 : List (View.Piece (Elt F) S4096x256 .bf16)) (L6 : List (View.Piece (Elt F) S8192x256 .bf16)) (L8 : List (View.Piece (Elt F) S1x8192 .f32)),
      { L9 : List (View.Piece (Elt F) S1x1 .f32) //
        ∀ (xi4 : Vec F S1x1 .f32) (E : Set ℕ) (K : PUnit → sProp 𝕄),
          iprop(owns (c : Thread nD τ) arg2 fullShare x0 ∗ owns (c : Thread nD τ) arg3 fullShare x1 ∗ owns (c : Thread nD τ) arg4 fullShare xi4
              ∗ owns (c : Thread nD τ) arg5 fullShare d5 ∗ owns (c : Thread nD τ) arg6 fullShare d6 ∗ (∃ d, owns (c : Thread nD τ) arg7 fullShare d)
              ∗ owns (c : Thread nD τ) arg8 fullShare d8 ∗ owns (c : Thread nD τ) arg9 fullShare d9
              ∗ (iprop(owns (c : Thread nD τ) arg2 fullShare x0 ∗ owns (c : Thread nD τ) arg3 fullShare x1 ∗ owns (c : Thread nD τ) arg4 fullShare xi4
                  ∗ (∃ f, arg5.view.loc (c : Thread nD τ) ↦[arg5.view.set]{fullShare} arg5.view.writes (Elt F) f L5)
                  ∗ (∃ f, arg6.view.loc (c : Thread nD τ) ↦[arg6.view.set]{fullShare} arg6.view.writes (Elt F) f L6)
                  ∗ (∃ d, owns (c : Thread nD τ) arg7 fullShare d)
                  ∗ (∃ f, arg8.view.loc (c : Thread nD τ) ↦[arg8.view.set]{fullShare} arg8.view.writes (Elt F) f L8)
                  ∗ (∃ f, arg9.view.loc (c : Thread nD τ) ↦[arg9.view.set]{fullShare} arg9.view.writes (Elt F) f L9)) -∗ K ⟨⟩))
            ⊢ wp frame (wpE (defs₀ (F := F)) Variants.none c none) E (cc0__chamfer_kernel i arg2 harg2 arg3 harg3 arg4 harg4 arg5 harg5 arg6 harg6 arg7 harg7 arg8 harg8 arg9 harg9) K } := by
  refine ⟨?_, ?_, ?_, ?_, fun xi4 E K => ?run⟩
  case run =>
    simp only [cc0__chamfer_kernel_eq_skeleton]; unfold cc0__chamfer_kernel_skel
    unfold owns
    iintro ⟨⟨%f0, %hf0, H0⟩, ⟨%f1, %hf1, H1⟩, ⟨%f4, %hf4, H4⟩, ⟨%f5, %hf5, H5⟩, ⟨%f6, %hf6, H6⟩, H7, ⟨%f8, %hf8, H8⟩, ⟨%f9, %hf9, H9⟩, Hk⟩
    obtain rfl := harg2.eq_unread hf0; obtain rfl := harg3.eq_unread hf1; obtain rfl := harg4.eq_unread hf4
    obtain rfl := harg5.eq_unread hf5; obtain rfl := harg6.eq_unread hf6; obtain rfl := harg8.eq_unread hf8; obtain rfl := harg9.eq_unread hf9
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr; · ipureintro; exact harg4.read_unread _
      iexact H4
    isplitl [H5]; · iexists _; iexact H5
    isplitl [H6]; · iexists _; iexact H6
    isplitl [H7]; · iexact H7
    isplitl [H8]; · iexists _; iexact H8
    iexists _; iexact H9

end Cert.Kernel.Body

end
-- ==== Proof.BitsRunB.lean ====
/-
  The body at the grid's second and last point (row block 1, column block 0). The augmented row operand is
  rebuilt in its first 132 columns over the zero padding the first point left; the augmented column operand is
  only read; the running column minima and the accumulator are read and replaced; and the mean is stored into
  the result's buffer. So here the scratch buffers are inputs at the contents the first point left.
-/
import proofs.«176257_g9887014716187_cont_9to1c4b_714_27_alg».proof.Proof.BitsCases

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- The last point's run: the stores into the result's buffer, x~, the column minima and the accumulator, as
    pieces (last first), with the proof that the body runs to any continuation that takes the buffers with
    those pieces written and y~ as it was. -/
noncomputable def runB (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S1x1 .f32) (harg4 : arg4.IsWhole) (arg5 : Memref sig .tc .vmem S4096x256 .bf16) (harg5 : arg5.IsWhole) (arg6 : Memref sig .tc .vmem S8192x256 .bf16) (harg6 : arg6.IsWhole) (arg7 : Memref sig .tc .vmem S4096x128 .f32) (harg7 : arg7.IsWhole) (arg8 : Memref sig .tc .vmem S1x8192 .f32) (harg8 : arg8.IsWhole) (arg9 : Memref sig .tc .vmem S1x1 .f32) (harg9 : arg9.IsWhole)
    (hc1 : ¬cond1 i) (hc2 : cond2 i) (hc3 : ¬cond3 i) (hc4 : cond4 i)
    (x0 x1 : Vec F S8192x128 .f32) (xs5 : Vec F S4096x256 .bf16) (xs6 : Vec F S8192x256 .bf16) (xs8 : Vec F S1x8192 .f32) (xs9 : Vec F S1x1 .f32) :
    Σ' (L4 : List (View.Piece (Elt F) S1x1 .f32)) (L5 : List (View.Piece (Elt F) S4096x256 .bf16)) (L8 : List (View.Piece (Elt F) S1x8192 .f32)),
      { L9 : List (View.Piece (Elt F) S1x1 .f32) //
        ∀ (E : Set ℕ) (K : PUnit → sProp 𝕄),
          iprop(owns (c : Thread nD τ) arg2 fullShare x0 ∗ owns (c : Thread nD τ) arg3 fullShare x1 ∗ (∃ d, owns (c : Thread nD τ) arg4 fullShare d)
              ∗ owns (c : Thread nD τ) arg5 fullShare xs5 ∗ owns (c : Thread nD τ) arg6 fullShare xs6 ∗ (∃ d, owns (c : Thread nD τ) arg7 fullShare d)
              ∗ owns (c : Thread nD τ) arg8 fullShare xs8 ∗ owns (c : Thread nD τ) arg9 fullShare xs9
              ∗ (iprop(owns (c : Thread nD τ) arg2 fullShare x0 ∗ owns (c : Thread nD τ) arg3 fullShare x1
                  ∗ (∃ f, arg4.view.loc (c : Thread nD τ) ↦[arg4.view.set]{fullShare} arg4.view.writes (Elt F) f L4)
                  ∗ (∃ f, arg5.view.loc (c : Thread nD τ) ↦[arg5.view.set]{fullShare} arg5.view.writes (Elt F) f L5)
                  ∗ owns (c : Thread nD τ) arg6 fullShare xs6
                  ∗ (∃ d, owns (c : Thread nD τ) arg7 fullShare d)
                  ∗ (∃ f, arg8.view.loc (c : Thread nD τ) ↦[arg8.view.set]{fullShare} arg8.view.writes (Elt F) f L8)
                  ∗ (∃ f, arg9.view.loc (c : Thread nD τ) ↦[arg9.view.set]{fullShare} arg9.view.writes (Elt F) f L9)) -∗ K ⟨⟩))
            ⊢ wp frame (wpE (defs₀ (F := F)) Variants.none c none) E (cc0__chamfer_kernel i arg2 harg2 arg3 harg3 arg4 harg4 arg5 harg5 arg6 harg6 arg7 harg7 arg8 harg8 arg9 harg9) K } := by
  refine ⟨?_, ?_, ?_, ?_, fun E K => ?run⟩
  case run =>
    simp only [cc0__chamfer_kernel_eq_skeleton]; unfold cc0__chamfer_kernel_skel
    unfold owns
    iintro ⟨⟨%f0, %hf0, H0⟩, ⟨%f1, %hf1, H1⟩, ⟨%d4, %f4, -, H4⟩, ⟨%f5, %hf5, H5⟩, ⟨%f6, %hf6, H6⟩, H7, ⟨%f8, %hf8, H8⟩, ⟨%f9, %hf9, H9⟩, Hk⟩
    obtain rfl := harg2.eq_unread hf0; obtain rfl := harg3.eq_unread hf1
    obtain rfl := harg5.eq_unread hf5; obtain rfl := harg6.eq_unread hf6; obtain rfl := harg8.eq_unread hf8; obtain rfl := harg9.eq_unread hf9
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H4]; · iexists _; iexact H4
    isplitl [H5]; · iexists _; iexact H5
    isplitl [H6]
    · iexists _; isplitr; · ipureintro; exact harg6.read_unread _
      iexact H6
    isplitl [H7]; · iexact H7
    isplitl [H8]; · iexists _; iexact H8
    iexists _; iexact H9

end Cert.Kernel.Body

end
-- ==== Proof.BitsFolds.lean ====
/-
  The four recurring pieces of the chamfer body, named once. For a 512-column chunk of the augmented column
  operand: the chunk's distances (the product of x~ with the chunk, contracted over the 256 augmented columns),
  the fold of a chunk's distances over its four 128-lane groups, the minimum of every column of the chunk over the
  4096 rows, and the update of the running column minima — the fresh minima at row block 0, else the smaller of
  the running and the fresh.
-/
import proofs.«176257_g9887014716187_cont_9to1c4b_714_27_alg».proof.Proof.Gen.Kernel.Skeleton

noncomputable section

namespace Cert.Kernel.Body

open Idealize.ShloMosaic Idealize.SL.Sem
open Cert.Kernel Cert.Kernel.Gen

variable {F : FTy → Type} [FloatOps F]

/-- One chunk's distances: x~ · chunkᵀ into a zero accumulator, [4096, 512]. -/
def chunkDist (a : Vec F S4096x256 .bf16) (b : Vec F S512x256 .bf16) : FVec F S4096x512 .f32 :=
  matmul dot_S4096x256_S512x256_S4096x512_1_1_0_0_n_n none a b (constant S4096x512 .f32 0x00000000#32)

/-- A chunk's distances folded over its four lane groups: entry (r, l) is the least of columns l, 128+l, 256+l, 384+l. -/
def laneFold (D : FVec F S4096x512 .f32) : FVec F S4096x128 .f32 :=
  minimumf (minimumf (minimumf (extractStridedSlice S4096x128 ![0, 0] D slices_S4096x512_o0_0_S4096x128)
      (extractStridedSlice S4096x128 ![0, 128] D slices_S4096x512_o0_128_S4096x128))
      (extractStridedSlice S4096x128 ![0, 256] D slices_S4096x512_o0_256_S4096x128))
    (extractStridedSlice S4096x128 ![0, 384] D slices_S4096x512_o0_384_S4096x128)

/-- Every column's minimum over the 4096 rows, from +∞, as a [1, 512] row. -/
def colMin (D : FVec F S4096x512 .f32) : FVec F S1x512 .f32 :=
  shapeCast S1x512 (multiReduction .minimumf [0] S512 D 0x7F800000#32 reduces_S4096x512_S512 (.inl rfl) rfl) shapeCasts_S512_S1x512

/-- The update of a chunk of the running column minima under the bit "row block 0". -/
def updMin (b : BitVec 1) (cm : FVec F S1x512 .f32) (cur : Vec F S1x512 .f32) : FVec F S1x512 .f32 :=
  shapeCast S1x512 (Scalar.select b cm (minimumf cur cm)) shapeCasts_S1x512_S1x512

/-- At row block 0 the running minima are not consulted. -/
theorem updMin_first (cm : FVec F S1x512 .f32) (cur cur' : Vec F S1x512 .f32) : updMin 1#1 cm cur = updMin 1#1 cm cur' := by
  unfold updMin Scalar.select; rw [if_pos (by decide), if_pos (by decide)]

/-! The sixteen stores into the running column minima, each as `updMin`. -/
theorem pay1_eq (arg0 : BitVec 32) (cm : FVec F S1x512 .f32) (cur : Vec F S1x512 .f32) :
    k0_pay1 arg0 cm cur = updMin (Scalar.cmpi .eq arg0 0#32) cm cur := rfl
theorem pay27_eq (cm : FVec F S1x512 .f32) (b : BitVec 1) (cur : Vec F S1x512 .f32) :
    k0_pay29 cm b (minimumf cur cm) = updMin b cm cur := rfl
theorem pay26_eq (a : Vec F S4096x256 .bf16) (b : Vec F S512x256 .bf16) (cur : Vec F S1x512 .f32) :
    k0_pay28 a b cur = minimumf cur (colMin (chunkDist a b)) := rfl
theorem pay25_eq (a : Vec F S4096x256 .bf16) (b : Vec F S512x256 .bf16) : k0_pay27 a b = colMin (chunkDist a b) := rfl
theorem pay29_eq (arg0 : BitVec 32) (D : FVec F S4096x512 .f32) (cur : Vec F S1x512 .f32) :
    k0_pay31 arg0 D cur = updMin (Scalar.cmpi .eq arg0 0#32) (colMin D) cur := rfl
theorem pay33_eq (arg0 : BitVec 32) (cm : FVec F S1x512 .f32) (cur : Vec F S1x512 .f32) :
    k0_pay35 arg0 cm cur = updMin (Scalar.cmpi .eq arg0 0#32) cm cur := rfl
theorem pay36_eq (arg0 : BitVec 32) (D : FVec F S4096x512 .f32) (cur : Vec F S1x512 .f32) :
    k0_pay38 arg0 D cur = updMin (Scalar.cmpi .eq arg0 0#32) (colMin D) cur := rfl
theorem pay39_eq (arg0 : BitVec 32) (D : FVec F S4096x512 .f32) (cur : Vec F S1x512 .f32) :
    k0_pay41 arg0 D cur = updMin (Scalar.cmpi .eq arg0 0#32) (colMin D) cur := rfl
theorem pay42_eq (arg0 : BitVec 32) (D : FVec F S4096x512 .f32) (cur : Vec F S1x512 .f32) :
    k0_pay44 arg0 D cur = updMin (Scalar.cmpi .eq arg0 0#32) (colMin D) cur := rfl
theorem pay44_eq (arg0 : BitVec 32) (D : FVec F S4096x512 .f32) (cur : Vec F S1x512 .f32) :
    k0_pay46 arg0 D cur = updMin (Scalar.cmpi .eq arg0 0#32) (colMin D) cur := rfl
theorem pay47_eq (arg0 : BitVec 32) (a : Vec F S4096x256 .bf16) (b : Vec F S512x256 .bf16) (z : FVec F S4096x512 .f32) (cur : Vec F S1x512 .f32) :
    k0_pay49 arg0 a b z cur = updMin (Scalar.cmpi .eq arg0 0#32) (colMin (k0_pay45 a b z)) cur := rfl
theorem pay49_eq (arg0 : BitVec 32) (D : FVec F S4096x512 .f32) (cur : Vec F S1x512 .f32) :
    k0_pay51 arg0 D cur = updMin (Scalar.cmpi .eq arg0 0#32) (colMin D) cur := rfl
theorem pay53_52_eq (arg0 : BitVec 32) (a : Vec F S4096x256 .bf16) (b : Vec F S512x256 .bf16) (cur : Vec F S1x512 .f32) :
    k0_pay55 (k0_pay54 arg0 a b cur) = updMin (Scalar.cmpi .eq arg0 0#32) (colMin (k0_pay50 a b)) cur := rfl
theorem pay55_eq (arg0 : BitVec 32) (D : FVec F S4096x512 .f32) (cur : Vec F S1x512 .f32) :
    k0_pay57 arg0 D cur = updMin (Scalar.cmpi .eq arg0 0#32) (colMin D) cur := rfl
theorem pay59_eq (arg0 : BitVec 32) (cm : FVec F S1x512 .f32) (cur : Vec F S1x512 .f32) :
    k0_pay61 arg0 cm cur = updMin (Scalar.cmpi .eq arg0 0#32) cm cur := rfl
theorem pay61_eq (arg0 : BitVec 32) (D : FVec F S4096x512 .f32) (cur : Vec F S1x512 .f32) :
    k0_pay63 arg0 D cur = updMin (Scalar.cmpi .eq arg0 0#32) (colMin D) cur := rfl
theorem pay64_eq (arg0 : BitVec 32) (D : FVec F S4096x512 .f32) (cur : Vec F S1x512 .f32) :
    k0_pay66 arg0 D cur = updMin (Scalar.cmpi .eq arg0 0#32) (colMin D) cur := rfl
theorem pay66_eq (arg0 : BitVec 32) (D : FVec F S4096x512 .f32) (cur : Vec F S1x512 .f32) :
    k0_pay68 arg0 D cur = updMin (Scalar.cmpi .eq arg0 0#32) (colMin D) cur := rfl

end Cert.Kernel.Body

end
-- ==== Proof.BitsFrame.lean ====
/-
  The frame of the chamfer kernel, with its scratch buffers tracked. After the first point the augmented operands,
  the running column minima and the accumulator hold this point's stores read back — a function of the two input
  arrays alone: the one buffer the body reads before writing it (the running column minima) enters only under
  a select on "row block 0", which discards it there. The invariant before the second point names these contents;
  the second point runs from them and stores the mean into the result's block, which is then written back.
-/
import proofs.«176257_g9887014716187_cont_9to1c4b_714_27_alg».proof.Proof.BitsRunA
import proofs.«176257_g9887014716187_cont_9to1c4b_714_27_alg».proof.Proof.BitsRunB
import proofs.«176257_g9887014716187_cont_9to1c4b_714_27_alg».proof.Proof.BitsFolds

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Row block 0 from the first branch condition -/

theorem bit_of_and (a b : BitVec 1) (h : Scalar.cmpi .ne (Scalar.extui (Scalar.andi a b) : BitVec 32) 0#32 = 1#1) : a = 1#1 := by
  revert a b; decide

theorem updMin_one (cm : FVec F S1x512 .f32) (cur : Vec F S1x512 .f32) :
    updMin 1#1 cm cur = shapeCast S1x512 cm shapeCasts_S1x512_S1x512 := by
  unfold updMin Scalar.select; rw [if_pos (by decide)]

/-- At the first point the stores into the running column minima do not depend on what any scratch buffer held. -/
theorem runA_colmins_indep (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S1x1 .f32) (harg4 : arg4.IsWhole) (arg5 : Memref sig .tc .vmem S4096x256 .bf16) (harg5 : arg5.IsWhole) (arg6 : Memref sig .tc .vmem S8192x256 .bf16) (harg6 : arg6.IsWhole) (arg7 : Memref sig .tc .vmem S4096x128 .f32) (harg7 : arg7.IsWhole) (arg8 : Memref sig .tc .vmem S1x8192 .f32) (harg8 : arg8.IsWhole) (arg9 : Memref sig .tc .vmem S1x1 .f32) (harg9 : arg9.IsWhole)
    (hc1 : cond1 i) (hc2 : cond2 i) (hc3 : cond3 i) (hc4 : ¬cond4 i)
    (x0 x1 : Vec F S8192x128 .f32) (d5 d5' : Vec F S4096x256 .bf16) (d6 d6' : Vec F S8192x256 .bf16) (d8 d8' : Vec F S1x8192 .f32) (d9 d9' : Vec F S1x1 .f32) :
    (runA c i arg2 harg2 arg3 harg3 arg4 harg4 arg5 harg5 arg6 harg6 arg7 harg7 arg8 harg8 arg9 harg9 hc1 hc2 hc3 hc4 x0 x1 d5 d6 d8 d9).2.2.1 = (runA c i arg2 harg2 arg3 harg3 arg4 harg4 arg5 harg5 arg6 harg6 arg7 harg7 arg8 harg8 arg9 harg9 hc1 hc2 hc3 hc4 x0 x1 d5' d6' d8' d9').2.2.1 := by
  have h0 : Scalar.cmpi .eq (BitVec.ofNat 32 (i 0).val) 0#32 = 1#1 := bit_of_and _ _ hc1
  unfold runA; dsimp only
  simp only [runA.sl.r_2, runA.sl.r_3, runA.sl.r_17, runA.sl.v0, pay25_eq, pay26_eq, pay27_eq, pay1_eq, pay29_eq, pay33_eq, pay36_eq, pay39_eq, pay42_eq,
    pay44_eq, pay47_eq, pay49_eq, pay53_52_eq, pay55_eq, pay59_eq, pay61_eq, pay64_eq, pay66_eq, h0, updMin_one]

/-! ## What the first point leaves -/

/-- The views through which the scratch buffers' and the result block's contents are stated. -/
abbrev VX : View sig .tc .vmem S4096x256 .bf16 := scX.view
abbrev VY : View sig .tc .vmem S8192x256 .bf16 := scY.view
abbrev VC : View sig .tc .vmem S1x8192 .f32 := scC.view
abbrev VA : View sig .tc .vmem S1x1 .f32 := scA.view
abbrev VO : View sig .tc .vmem S1x1 .f32 := (Memref.whole cc0_stg2_0 : Memref sig .tc .vmem S1x1 .f32).view

/-- The first point's run on the launched buffers, from scratch contents of no significance. -/
def pA (c : Dev nD) :=
  runA (F := F) c (grid0.coords t0_0) (ms0 t0_0) (hs0 t0_0) (ms1 t0_0) (hs1 t0_0) (ms2 t0_0) (hs2 t0_0) scX (Memref.isWhole_whole _) scY (Memref.isWhole_whole _) scR (Memref.isWhole_whole _) scC (Memref.isWhole_whole _) scA (Memref.isWhole_whole _)
    ((hcond1 t0_0).mpr rfl) (hcond2 t0_0) ((hcond3 t0_0).mpr rfl) (fun h => absurd ((hcond4 t0_0).mp h) (by decide))
    (iblk m c 0 t0_0) (iblk m c 1 t0_0) (VX.read (Elt F) VX.junk) (VY.read (Elt F) VY.junk) (VC.read (Elt F) VC.junk) (VA.read (Elt F) VA.junk)

/-- x~ for row block 0, y~, the column minima over row block 0, the clamped row minima of row block 0 summed. -/
def sXA (c : Dev nD) : Vec F S4096x256 .bf16 := VX.read (Elt F) (VX.writes (Elt F) VX.junk (pA m c).1)
def sYA (c : Dev nD) : Vec F S8192x256 .bf16 := VY.read (Elt F) (VY.writes (Elt F) VY.junk (pA m c).2.1)
def sCA (c : Dev nD) : Vec F S1x8192 .f32 := VC.read (Elt F) (VC.writes (Elt F) VC.junk (pA m c).2.2.1)
def sAA (c : Dev nD) : Vec F S1x1 .f32 := VA.read (Elt F) (VA.writes (Elt F) VA.junk (pA m c).2.2.2.1)

/-- Each of the four is covered by the first point's stores. -/
theorem coverXA (c : Dev nD) (y : S4096x256.Idx) : ∃ pc ∈ (pA m c).1, y ∈ pc.1.set :=
  View.cover_of_tiledBy (pA m c).1 S4096x1.size (by sl_kernel_rfl) y
theorem coverYA (c : Dev nD) (y : S8192x256.Idx) : ∃ pc ∈ (pA m c).2.1, y ∈ pc.1.set :=
  View.cover_of_tiledBy (pA m c).2.1 S8192x1.size (by sl_kernel_rfl) y
theorem coverCA (c : Dev nD) (y : S1x8192.Idx) : ∃ pc ∈ (pA m c).2.2.1, y ∈ pc.1.set :=
  View.cover_of_tiledL (pA m c).2.2.1 S1x512.size (by sl_kernel_rfl) y
theorem coverAA (c : Dev nD) (y : S1x1.Idx) : ∃ pc ∈ (pA m c).2.2.2.1, y ∈ pc.1.set :=
  View.cover_of_tiledL (pA m c).2.2.2.1 S1x1.size (by sl_kernel_rfl) y

/-! ## What the last point leaves -/

/-- The last point's run, from what the first point left. -/
def pB (c : Dev nD) :=
  runB (F := F) c (grid0.coords t0_1) (ms0 t0_1) (hs0 t0_1) (ms1 t0_1) (hs1 t0_1) (ms2 t0_1) (hs2 t0_1) scX (Memref.isWhole_whole _) scY (Memref.isWhole_whole _) scR (Memref.isWhole_whole _) scC (Memref.isWhole_whole _) scA (Memref.isWhole_whole _)
    (fun h => absurd ((hcond1 t0_1).mp h) (by decide)) (hcond2 t0_1) (fun h => absurd ((hcond3 t0_1).mp h) (by decide)) ((hcond4 t0_1).mpr rfl)
    (iblk m c 0 t0_1) (iblk m c 1 t0_1) (sXA m c) (sYA m c) (sCA m c) (sAA m c)

theorem coverOB (c : Dev nD) (y : S1x1.Idx) : ∃ pc ∈ (pB m c).1, y ∈ pc.1.set :=
  View.cover_of_tiledL (pB m c).1 S1x1.size (by sl_kernel_rfl) y

/-- The result block after each point: nothing of significance after the first (the window is idle there), the mean after the last. -/
def outAt (c : Dev nD) : (n : ℕ) → n < cfg0.N → Vec F S1x1 .f32
  | 0, _ => VO.read (Elt F) VO.junk
  | 1, _ => VO.read (Elt F) (VO.writes (Elt F) VO.junk (pB m c).1)
  | n + 2, h => False.elim (by have : cfg0.N = 2 := N_0; omega)

/-- The invariant: before the first point and after the last the launch's (every scratch buffer at anything); between
    them the four scratch buffers the body uses at what the first point left. -/
def PhiS (c : Dev nD) : (n : ℕ) → n ≤ cfg0.N → sProp 𝕄
  | 0, _ => Pipeline.ΦA spec0 c
  | 1, _ => iprop(iprop(owns (c : Thread nD τ) scX fullShare (sXA m c) ∗ owns (c : Thread nD τ) scY fullShare (sYA m c)
      ∗ (∃ d, owns (c : Thread nD τ) scR fullShare d) ∗ owns (c : Thread nD τ) scC fullShare (sCA m c)
      ∗ owns (c : Thread nD τ) scA fullShare (sAA m c)) ∗ (∃ r, prngReg c r))
  | n + 2, _ => Pipeline.ΦA spec0 c

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outAt m c t.val t.isLt
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = outAt m c t.val t.isLt := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The first point: the launch invariant hands the scratch buffers at some contents; the run leaves them at this
    point's stores written over those; read back, that is what the invariant names, whatever they held. -/
theorem sound_first (c : Dev nD) :
    bodyPre m c t0_0 ⊢ wp frame (wpE (defs₀ (F := F)) Variants.none c none) Set.univ (bodyAt0 t0_0) (fun _ => bodyPost m c t0_0) := by
  unfold bodyPre bodyPost bodyAt0
  simp only [before0, before1]
  rw [show (dats m 0 c).owesAt () (Fin.succ t0_0) = (dats m 0 c).owesAt () (Fin.castSucc t0_0) from rfl]
  rw [show (dats m 0 c).Φ (Fin.castSucc t0_0) = Pipeline.ΦA spec0 c from rfl, PhiA_eq]
  rw [show (dats m 0 c).Φ (Fin.succ t0_0) = iprop(iprop(owns (c : Thread nD τ) scX fullShare (sXA m c) ∗ owns (c : Thread nD τ) scY fullShare (sYA m c)
      ∗ (∃ d, owns (c : Thread nD τ) scR fullShare d) ∗ owns (c : Thread nD τ) scC fullShare (sCA m c)
      ∗ owns (c : Thread nD τ) scA fullShare (sAA m c)) ∗ (∃ r, prngReg c r)) from rfl]
  rw [show (dats m 0 c).leavesExact 0 t0_0 = owns (c : Thread nD τ) (ms0 t0_0) fullShare ((dats m 0 c).after 0 t0_0) from by
    unfold Dat.leavesExact; rw [liveAt0 t0_0], after0]
  rw [show (dats m 0 c).leavesExact 1 t0_0 = owns (c : Thread nD τ) (ms1 t0_0) fullShare ((dats m 0 c).after 1 t0_0) from by
    unfold Dat.leavesExact; rw [liveAt1 t0_0], after1]
  rw [Dat.leavesExact_idle (dats m 0 c) 2 t0_0 (idleAt2 t0_0 (fun h => absurd ((hcond4 t0_0).mp h) (by decide))) (noFlush2 t0_0 (fun h => absurd ((hcond4 t0_0).mp h) (by decide)))]
  iintro ⟨⟨⟨⟨%d5, HX⟩, ⟨%d6, HY⟩, HR, ⟨%d8, HC⟩, ⟨%d9, HA⟩⟩, Hg⟩, Ho, ⟨%e0, H0⟩, ⟨%e1, H1⟩, ⟨%d2, H2⟩⟩
  iapply ((runA c (grid0.coords t0_0) (ms0 t0_0) (hs0 t0_0) (ms1 t0_0) (hs1 t0_0) (ms2 t0_0) (hs2 t0_0) scX (Memref.isWhole_whole _) scY (Memref.isWhole_whole _) scR (Memref.isWhole_whole _) scC (Memref.isWhole_whole _) scA (Memref.isWhole_whole _)
    ((hcond1 t0_0).mpr rfl) (hcond2 t0_0) ((hcond3 t0_0).mpr rfl) (fun h => absurd ((hcond4 t0_0).mp h) (by decide))
    (iblk m c 0 t0_0) (iblk m c 1 t0_0) d5 d6 d8 d9).2.2.2.2 _ Set.univ _)
  isplitl [H0]; · iexact H0
  isplitl [H1]; · iexact H1
  isplitl [H2]; · iexact H2
  isplitl [HX]; · iexact HX
  isplitl [HY]; · iexact HY
  isplitl [HR]; · iexact HR
  isplitl [HC]; · iexact HC
  isplitl [HA]; · iexact HA
  iintro ⟨H0, H1, H2, ⟨%fx, HX⟩, ⟨%fy, HY⟩, HR, ⟨%fc, HC⟩, ⟨%fa, HA⟩⟩
  isplitl [HX HY HR HC HA Hg]
  · isplitr [Hg]
    swap; · iexact Hg
    isplitl [HX]
    · unfold owns; iexists _; isplitr
      swap; · iexact HX
      ipureintro; exact View.read_writes_of_cover _ _ _ _ _ (coverXA m c)
    isplitl [HY]
    · unfold owns; iexists _; isplitr
      swap; · iexact HY
      ipureintro; exact View.read_writes_of_cover _ _ _ _ _ (coverYA m c)
    isplitl [HR]; · iexact HR
    isplitl [HC]
    · rw [runA_colmins_indep c _ _ _ _ _ _ _ _ _ _ _ _ _ _ _ _ _ _ _ _ _ _ _ d5 (VX.read (Elt F) VX.junk) d6 (VY.read (Elt F) VY.junk) d8 (VC.read (Elt F) VC.junk) d9 (VA.read (Elt F) VA.junk)]
      unfold owns; iexists _; isplitr
      swap; · iexact HC
      ipureintro; exact View.read_writes_of_cover _ _ _ _ _ (coverCA m c)
    unfold owns; iexists _; isplitr
    swap; · iexact HA
    ipureintro; exact View.read_writes_of_cover _ _ _ _ _ (coverAA m c)
  isplitl [Ho]; · iexact Ho
  isplitl [H0]; · iexact H0
  isplitl [H1]; · iexact H1
  iexists _; iexact H2

end Cert.Kernel.Body

end
-- ==== Proof.BitsFrame2.lean ====
/-
  The last point's body obligation, the launch, the run and the frame of the chamfer kernel.
-/
import proofs.«176257_g9887014716187_cont_9to1c4b_714_27_alg».proof.Proof.BitsFrame

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4800000 in
/-- The last point: the invariant hands the scratch buffers at what the first point left, the run applies, and what it
    leaves in the result's block is the mean; the scratch buffers' new contents are forgotten. -/
theorem sound_last (c : Dev nD) :
    bodyPre m c t0_1 ⊢ wp frame (wpE (defs₀ (F := F)) Variants.none c none) Set.univ (bodyAt0 t0_1) (fun _ => bodyPost m c t0_1) := by
  unfold bodyPre bodyPost bodyAt0
  simp only [before0, before1]
  rw [show (dats m 0 c).owesAt () (Fin.succ t0_1) = (dats m 0 c).owesAt () (Fin.castSucc t0_1) from rfl]
  rw [show (dats m 0 c).Φ (Fin.castSucc t0_1) = iprop(iprop(owns (c : Thread nD τ) scX fullShare (sXA m c) ∗ owns (c : Thread nD τ) scY fullShare (sYA m c)
      ∗ (∃ d, owns (c : Thread nD τ) scR fullShare d) ∗ owns (c : Thread nD τ) scC fullShare (sCA m c)
      ∗ owns (c : Thread nD τ) scA fullShare (sAA m c)) ∗ (∃ r, prngReg c r)) from rfl]
  rw [show (dats m 0 c).Φ (Fin.succ t0_1) = Pipeline.ΦA spec0 c from rfl, PhiA_eq]
  rw [show (dats m 0 c).leavesExact 0 t0_1 = owns (c : Thread nD τ) (ms0 t0_1) fullShare ((dats m 0 c).after 0 t0_1) from by
    unfold Dat.leavesExact; rw [liveAt0 t0_1], after0]
  rw [show (dats m 0 c).leavesExact 1 t0_1 = owns (c : Thread nD τ) (ms1 t0_1) fullShare ((dats m 0 c).after 1 t0_1) from by
    unfold Dat.leavesExact; rw [liveAt1 t0_1], after1]
  rw [show (dats m 0 c).leavesExact 2 t0_1 = owns (c : Thread nD τ) (ms2 t0_1) fullShare ((dats m 0 c).after 2 t0_1) from by
    unfold Dat.leavesExact; rw [liveAt2 t0_1 ((hcond4 t0_1).mpr rfl)], after2]
  rw [show outAt m c (t0_1 : Fin cfg0.N).val (t0_1 : Fin cfg0.N).isLt = VO.read (Elt F) (VO.writes (Elt F) VO.junk (pB m c).1) from rfl]
  iintro ⟨⟨⟨HX, HY, HR, HC, HA⟩, Hg⟩, Ho, ⟨%e0, H0⟩, ⟨%e1, H1⟩, ⟨%d2, H2⟩⟩
  iapply ((pB m c).2.2.2.2 Set.univ _)
  isplitl [H0]; · iexact H0
  isplitl [H1]; · iexact H1
  isplitl [H2]; · iexists _; iexact H2
  isplitl [HX]; · iexact HX
  isplitl [HY]; · iexact HY
  isplitl [HR]; · iexact HR
  isplitl [HC]; · iexact HC
  isplitl [HA]; · iexact HA
  iintro ⟨H0, H1, ⟨%f4, H4⟩, ⟨%fx, HX⟩, HY, HR, ⟨%fc, HC⟩, ⟨%fa, HA⟩⟩
  isplitl [HX HY HR HC HA Hg]
  · isplitr [Hg]
    swap; · iexact Hg
    isplitl [HX]
    · iexists (VX.read (Elt F) (VX.writes (Elt F) fx (pB m c).2.1))
      unfold owns; iexists _; isplitr
      swap; · iexact HX
      ipureintro; rfl
    isplitl [HY]; · iexists (sYA m c); iexact HY
    isplitl [HR]; · iexact HR
    isplitl [HC]
    · iexists (VC.read (Elt F) (VC.writes (Elt F) fc (pB m c).2.2.1))
      unfold owns; iexists _; isplitr
      swap; · iexact HC
      ipureintro; rfl
    iexists (VA.read (Elt F) (VA.writes (Elt F) fa (pB m c).2.2.2.1))
    unfold owns; iexists _; isplitr
    swap; · iexact HA
    ipureintro; rfl
  isplitl [Ho]; · iexact Ho
  isplitl [H0]; · iexact H0
  isplitl [H1]; · iexact H1
  unfold owns; iexists _; isplitr
  swap; · iexact H4
  ipureintro; exact View.read_writes_of_cover _ _ _ _ _ (coverOB m c)

/-- The library's body obligation, at both points. -/
theorem body_obligation (c : Dev nD) : BodyObligation (dats (F := F) m 0 c) (defs₀ (F := F)) Variants.none () Set.univ := fun t => by
  rw [bigSep_W0, bigSep_W0]
  rcases fin_N0 t with rfl | rfl
  · exact sound_first m c
  · exact sound_last m c

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  rw [show (dats m 0 c).Φ (Fin.last cfg0.N) = Pipeline.ΦA spec0 c from rfl]

/-! ## The run and the frame -/

set_option backward.isDefEq.respectTransparency.types false in
/-- Every weakly fair execution of @main terminates, faulting nowhere, with every array of the pipeline at what the
    proof data computes — the result's array at the mean the last point stored — and every other unscoped buffer as
    the host line after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to the end, faults nowhere, and leaves its two argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.Kernel.Body

end
-- ==== Proof.IdealCases.lean ====
/-
  The chamfer kernel's grid has two points, (0,0) and (1,0). This module decides the body's four branch
  conditions over them, records where the one output window (the [1,1] result) is idle, names the staging
  and scratch buffers the body is called with, and opens the launch invariant into the five scratch buffers.
-/
import proofs.«176257_g9887014716187_cont_9to1c4b_714_27_alg».proof.Proof.Gen.KernelIdeal.Frame
import proofs.«176257_g9887014716187_cont_9to1c4b_714_27_alg».proof.Proof.Gen.KernelIdeal.Skeleton

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The four branch conditions, from the grid coordinates -/

/-- "first point of the whole grid": row block 0 and column block 0 (the accumulator and the padding are reset). -/
abbrev cond1 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
/-- "column block 0": the augmented row operand is rebuilt. -/
abbrev cond2 (i : grid0.Coords) : Prop := k0_cond2 i = 1#1
/-- "row block 0": the augmented column operand is built. -/
abbrev cond3 (i : grid0.Coords) : Prop := k0_cond3 i = 1#1
/-- "last point": the mean is emitted. -/
abbrev cond4 (i : grid0.Coords) : Prop := k0_cond4 i = 1#1

theorem hcond1 : ∀ t : Fin cfg0.N, cond1 (grid0.coords t) ↔ t.val % 2 = 0 :=
  (by decide +kernel : ∀ t : Fin grid0.N, cond1 (grid0.coords t) ↔ t.val % 2 = 0)
theorem hcond2 : ∀ t : Fin cfg0.N, cond2 (grid0.coords t) :=
  (by decide +kernel : ∀ t : Fin grid0.N, cond2 (grid0.coords t))
theorem hcond3 : ∀ t : Fin cfg0.N, cond3 (grid0.coords t) ↔ t.val % 2 = 0 :=
  (by decide +kernel : ∀ t : Fin grid0.N, cond3 (grid0.coords t) ↔ t.val % 2 = 0)
theorem hcond4 : ∀ t : Fin cfg0.N, cond4 (grid0.coords t) ↔ t.val % 2 = 1 :=
  (by decide +kernel : ∀ t : Fin grid0.N, cond4 (grid0.coords t) ↔ t.val % 2 = 1)

/-! ## Where the windows are idle -/

theorem liveAt0 : ∀ t : Fin cfg0.N, cfg0.idle 0 (grid0.coords t) = false := by decide +kernel
theorem liveAt1 : ∀ t : Fin cfg0.N, cfg0.idle 1 (grid0.coords t) = false := by decide +kernel
/-- Away from the last point nothing is stored into the result's block: the window is idle -/
theorem idleAt2 : ∀ t : Fin cfg0.N, ¬cond4 (grid0.coords t) → cfg0.idle 2 (grid0.coords t) = true := by decide +kernel
/-- and not written back. -/
theorem noFlush2 : ∀ t : Fin cfg0.N, ¬cond4 (grid0.coords t) → (cfg0.win 2).flush t = false := by decide +kernel
/-- At the last point it is live. -/
theorem liveAt2 : ∀ t : Fin cfg0.N, cond4 (grid0.coords t) → cfg0.idle 2 (grid0.coords t) = false := by decide +kernel

/-! ## The buffers the body is called with -/

abbrev ms0 (t : Fin cfg0.N) : Memref sig .tc .vmem S8192x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S8192x128 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1 .f32 := win0_2.stage (cfg0.slots t 2)
abbrev hs2 (t : Fin cfg0.N) : (ms2 t).IsWhole := hstage0_2 ((cfg0.slots t 2).cast nbuf0_2)
/-- The augmented row operand x~ : [4096, 256]. -/
abbrev scX : Memref sig .tc .vmem S4096x256 .bf16 := Memref.whole cc0_scratch0
/-- The augmented column operand y~ : [8192, 256]. -/
abbrev scY : Memref sig .tc .vmem S8192x256 .bf16 := Memref.whole cc0_scratch1
/-- The lane partial of the row minima (never touched when there is one column block). -/
abbrev scR : Memref sig .tc .vmem S4096x128 .f32 := Memref.whole cc0_scratch2
/-- The running column minima : [1, 8192]. -/
abbrev scC : Memref sig .tc .vmem S1x8192 .f32 := Memref.whole cc0_scratch3
/-- The running sum of the clamped row minima : [1, 1]. -/
abbrev scA : Memref sig .tc .vmem S1x1 .f32 := Memref.whole cc0_scratch4

/-- The launch invariant with the five scratch buffers as owned memrefs at some contents. -/
theorem PhiA_eq (c : Dev nD) :
    (Pipeline.ΦA spec0 c : sProp 𝕄)
      = iprop(iprop((∃ d, owns (c : Thread nD τ) scX fullShare d) ∗ (∃ d, owns (c : Thread nD τ) scY fullShare d)
          ∗ (∃ d, owns (c : Thread nD τ) scR fullShare d) ∗ (∃ d, owns (c : Thread nD τ) scC fullShare d)
          ∗ (∃ d, owns (c : Thread nD τ) scA fullShare d)) ∗ (∃ r, prngReg c r)) := by
  unfold Pipeline.ΦA; rw [scopedRest0_eq]; simp only [scX, scY, scR, scC, scA, owns_whole]; try rfl

end Cert.KernelIdeal.Body

end
-- ==== Proof.IdealRunA.lean ====
/-
  The body at the grid's first point (row block 0, column block 0): every branch but the last is taken.
  On whole buffers — the two inputs at their contents, the result's buffer handed back untouched, the four
  scratch buffers the body uses at ANY contents (it loads each destination rectangle before it stores into it,
  and the running column minima before it selects the fresh ones) — the body runs, and leaves each of the four
  with the stores of this point written over what it held.
-/
import proofs.«176257_g9887014716187_cont_9to1c4b_714_27_alg».proof.Proof.IdealCases

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- The first point's run: the stores into x~, y~, the column minima and the accumulator, as pieces (last first),
    with the proof that the body runs to any continuation that takes the buffers with those pieces written. -/
noncomputable def runA (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S1x1 .f32) (harg4 : arg4.IsWhole) (arg5 : Memref sig .tc .vmem S4096x256 .bf16) (harg5 : arg5.IsWhole) (arg6 : Memref sig .tc .vmem S8192x256 .bf16) (harg6 : arg6.IsWhole) (arg7 : Memref sig .tc .vmem S4096x128 .f32) (harg7 : arg7.IsWhole) (arg8 : Memref sig .tc .vmem S1x8192 .f32) (harg8 : arg8.IsWhole) (arg9 : Memref sig .tc .vmem S1x1 .f32) (harg9 : arg9.IsWhole)
    (hc1 : cond1 i) (hc2 : cond2 i) (hc3 : cond3 i) (hc4 : ¬cond4 i)
    (x0 x1 : Vec F S8192x128 .f32) (d5 : Vec F S4096x256 .bf16) (d6 : Vec F S8192x256 .bf16) (d8 : Vec F S1x8192 .f32) (d9 : Vec F S1x1 .f32) :
    Σ' (L5 : List (View.Piece (Elt F) S4096x256 .bf16)) (L6 : List (View.Piece (Elt F) S8192x256 .bf16)) (L8 : List (View.Piece (Elt F) S1x8192 .f32)),
      { L9 : List (View.Piece (Elt F) S1x1 .f32) //
        ∀ (xi4 : Vec F S1x1 .f32) (E : Set ℕ) (K : PUnit → sProp 𝕄),
          iprop(owns (c : Thread nD τ) arg2 fullShare x0 ∗ owns (c : Thread nD τ) arg3 fullShare x1 ∗ owns (c : Thread nD τ) arg4 fullShare xi4
              ∗ owns (c : Thread nD τ) arg5 fullShare d5 ∗ owns (c : Thread nD τ) arg6 fullShare d6 ∗ (∃ d, owns (c : Thread nD τ) arg7 fullShare d)
              ∗ owns (c : Thread nD τ) arg8 fullShare d8 ∗ owns (c : Thread nD τ) arg9 fullShare d9
              ∗ (iprop(owns (c : Thread nD τ) arg2 fullShare x0 ∗ owns (c : Thread nD τ) arg3 fullShare x1 ∗ owns (c : Thread nD τ) arg4 fullShare xi4
                  ∗ (∃ f, arg5.view.loc (c : Thread nD τ) ↦[arg5.view.set]{fullShare} arg5.view.writes (Elt F) f L5)
                  ∗ (∃ f, arg6.view.loc (c : Thread nD τ) ↦[arg6.view.set]{fullShare} arg6.view.writes (Elt F) f L6)
                  ∗ (∃ d, owns (c : Thread nD τ) arg7 fullShare d)
                  ∗ (∃ f, arg8.view.loc (c : Thread nD τ) ↦[arg8.view.set]{fullShare} arg8.view.writes (Elt F) f L8)
                  ∗ (∃ f, arg9.view.loc (c : Thread nD τ) ↦[arg9.view.set]{fullShare} arg9.view.writes (Elt F) f L9)) -∗ K ⟨⟩))
            ⊢ wp frame (wpE (defs₀ (F := F)) Variants.none c none) E (cc0__chamfer_kernel i arg2 harg2 arg3 harg3 arg4 harg4 arg5 harg5 arg6 harg6 arg7 harg7 arg8 harg8 arg9 harg9) K } := by
  refine ⟨?_, ?_, ?_, ?_, fun xi4 E K => ?run⟩
  case run =>
    simp only [cc0__chamfer_kernel_eq_skeleton]; unfold cc0__chamfer_kernel_skel
    unfold owns
    iintro ⟨⟨%f0, %hf0, H0⟩, ⟨%f1, %hf1, H1⟩, ⟨%f4, %hf4, H4⟩, ⟨%f5, %hf5, H5⟩, ⟨%f6, %hf6, H6⟩, H7, ⟨%f8, %hf8, H8⟩, ⟨%f9, %hf9, H9⟩, Hk⟩
    obtain rfl := harg2.eq_unread hf0; obtain rfl := harg3.eq_unread hf1; obtain rfl := harg4.eq_unread hf4
    obtain rfl := harg5.eq_unread hf5; obtain rfl := harg6.eq_unread hf6; obtain rfl := harg8.eq_unread hf8; obtain rfl := harg9.eq_unread hf9
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H4]
    · iexists _; isplitr; · ipureintro; exact harg4.read_unread _
      iexact H4
    isplitl [H5]; · iexists _; iexact H5
    isplitl [H6]; · iexists _; iexact H6
    isplitl [H7]; · iexact H7
    isplitl [H8]; · iexists _; iexact H8
    iexists _; iexact H9

end Cert.KernelIdeal.Body

end
-- ==== Proof.IdealRunB.lean ====
/-
  The body at the grid's second and last point (row block 1, column block 0). The augmented row operand is
  rebuilt in its first 132 columns over the zero padding the first point left; the augmented column operand is
  only read; the running column minima and the accumulator are read and replaced; and the mean is stored into
  the result's buffer. So here the scratch buffers are inputs at the contents the first point left.
-/
import proofs.«176257_g9887014716187_cont_9to1c4b_714_27_alg».proof.Proof.IdealCases

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

set_option maxHeartbeats 4000000 in
/-- The last point's run: the stores into the result's buffer, x~, the column minima and the accumulator, as
    pieces (last first), with the proof that the body runs to any continuation that takes the buffers with
    those pieces written and y~ as it was. -/
noncomputable def runB (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S1x1 .f32) (harg4 : arg4.IsWhole) (arg5 : Memref sig .tc .vmem S4096x256 .bf16) (harg5 : arg5.IsWhole) (arg6 : Memref sig .tc .vmem S8192x256 .bf16) (harg6 : arg6.IsWhole) (arg7 : Memref sig .tc .vmem S4096x128 .f32) (harg7 : arg7.IsWhole) (arg8 : Memref sig .tc .vmem S1x8192 .f32) (harg8 : arg8.IsWhole) (arg9 : Memref sig .tc .vmem S1x1 .f32) (harg9 : arg9.IsWhole)
    (hc1 : ¬cond1 i) (hc2 : cond2 i) (hc3 : ¬cond3 i) (hc4 : cond4 i)
    (x0 x1 : Vec F S8192x128 .f32) (xs5 : Vec F S4096x256 .bf16) (xs6 : Vec F S8192x256 .bf16) (xs8 : Vec F S1x8192 .f32) (xs9 : Vec F S1x1 .f32) :
    Σ' (L4 : List (View.Piece (Elt F) S1x1 .f32)) (L5 : List (View.Piece (Elt F) S4096x256 .bf16)) (L8 : List (View.Piece (Elt F) S1x8192 .f32)),
      { L9 : List (View.Piece (Elt F) S1x1 .f32) //
        ∀ (E : Set ℕ) (K : PUnit → sProp 𝕄),
          iprop(owns (c : Thread nD τ) arg2 fullShare x0 ∗ owns (c : Thread nD τ) arg3 fullShare x1 ∗ (∃ d, owns (c : Thread nD τ) arg4 fullShare d)
              ∗ owns (c : Thread nD τ) arg5 fullShare xs5 ∗ owns (c : Thread nD τ) arg6 fullShare xs6 ∗ (∃ d, owns (c : Thread nD τ) arg7 fullShare d)
              ∗ owns (c : Thread nD τ) arg8 fullShare xs8 ∗ owns (c : Thread nD τ) arg9 fullShare xs9
              ∗ (iprop(owns (c : Thread nD τ) arg2 fullShare x0 ∗ owns (c : Thread nD τ) arg3 fullShare x1
                  ∗ (∃ f, arg4.view.loc (c : Thread nD τ) ↦[arg4.view.set]{fullShare} arg4.view.writes (Elt F) f L4)
                  ∗ (∃ f, arg5.view.loc (c : Thread nD τ) ↦[arg5.view.set]{fullShare} arg5.view.writes (Elt F) f L5)
                  ∗ owns (c : Thread nD τ) arg6 fullShare xs6
                  ∗ (∃ d, owns (c : Thread nD τ) arg7 fullShare d)
                  ∗ (∃ f, arg8.view.loc (c : Thread nD τ) ↦[arg8.view.set]{fullShare} arg8.view.writes (Elt F) f L8)
                  ∗ (∃ f, arg9.view.loc (c : Thread nD τ) ↦[arg9.view.set]{fullShare} arg9.view.writes (Elt F) f L9)) -∗ K ⟨⟩))
            ⊢ wp frame (wpE (defs₀ (F := F)) Variants.none c none) E (cc0__chamfer_kernel i arg2 harg2 arg3 harg3 arg4 harg4 arg5 harg5 arg6 harg6 arg7 harg7 arg8 harg8 arg9 harg9) K } := by
  refine ⟨?_, ?_, ?_, ?_, fun E K => ?run⟩
  case run =>
    simp only [cc0__chamfer_kernel_eq_skeleton]; unfold cc0__chamfer_kernel_skel
    unfold owns
    iintro ⟨⟨%f0, %hf0, H0⟩, ⟨%f1, %hf1, H1⟩, ⟨%d4, %f4, -, H4⟩, ⟨%f5, %hf5, H5⟩, ⟨%f6, %hf6, H6⟩, H7, ⟨%f8, %hf8, H8⟩, ⟨%f9, %hf9, H9⟩, Hk⟩
    obtain rfl := harg2.eq_unread hf0; obtain rfl := harg3.eq_unread hf1
    obtain rfl := harg5.eq_unread hf5; obtain rfl := harg6.eq_unread hf6; obtain rfl := harg8.eq_unread hf8; obtain rfl := harg9.eq_unread hf9
    sl_exec (disch := first | exact hc1 | exact hc2 | exact hc3 | exact hc4)
    sl_step
    iapply Hk
    isplitl [H0]
    · iexists _; isplitr; · ipureintro; exact harg2.read_unread _
      iexact H0
    isplitl [H1]
    · iexists _; isplitr; · ipureintro; exact harg3.read_unread _
      iexact H1
    isplitl [H4]; · iexists _; iexact H4
    isplitl [H5]; · iexists _; iexact H5
    isplitl [H6]
    · iexists _; isplitr; · ipureintro; exact harg6.read_unread _
      iexact H6
    isplitl [H7]; · iexact H7
    isplitl [H8]; · iexists _; iexact H8
    iexists _; iexact H9

end Cert.KernelIdeal.Body

end
-- ==== Proof.IdealFolds.lean ====
/-
  The four recurring pieces of the chamfer body, named once. For a 512-column chunk of the augmented column
  operand: the chunk's distances (the product of x~ with the chunk, contracted over the 256 augmented columns),
  the fold of a chunk's distances over its four 128-lane groups, the minimum of every column of the chunk over the
  4096 rows, and the update of the running column minima — the fresh minima at row block 0, else the smaller of
  the running and the fresh.
-/
import proofs.«176257_g9887014716187_cont_9to1c4b_714_27_alg».proof.Proof.Gen.KernelIdeal.Skeleton

noncomputable section

namespace Cert.KernelIdeal.Body

open Idealize.ShloMosaic Idealize.SL.Sem
open Cert.KernelIdeal Cert.KernelIdeal.Gen

variable {F : FTy → Type} [FloatOps F]

/-- One chunk's distances: x~ · chunkᵀ into a zero accumulator, [4096, 512]. -/
def chunkDist (a : Vec F S4096x256 .bf16) (b : Vec F S512x256 .bf16) : FVec F S4096x512 .f32 :=
  matmul dot_S4096x256_S512x256_S4096x512_1_1_0_0_n_n none a b (constant S4096x512 .f32 0x00000000#32)

/-- A chunk's distances folded over its four lane groups: entry (r, l) is the least of columns l, 128+l, 256+l, 384+l. -/
def laneFold (D : FVec F S4096x512 .f32) : FVec F S4096x128 .f32 :=
  minimumf (minimumf (minimumf (extractStridedSlice S4096x128 ![0, 0] D slices_S4096x512_o0_0_S4096x128)
      (extractStridedSlice S4096x128 ![0, 128] D slices_S4096x512_o0_128_S4096x128))
      (extractStridedSlice S4096x128 ![0, 256] D slices_S4096x512_o0_256_S4096x128))
    (extractStridedSlice S4096x128 ![0, 384] D slices_S4096x512_o0_384_S4096x128)

/-- Every column's minimum over the 4096 rows, from +∞, as a [1, 512] row. -/
def colMin (D : FVec F S4096x512 .f32) : FVec F S1x512 .f32 :=
  shapeCast S1x512 (multiReduction .minimumf [0] S512 D 0x7F800000#32 reduces_S4096x512_S512 (.inl rfl) rfl) shapeCasts_S512_S1x512

/-- The update of a chunk of the running column minima under the bit "row block 0". -/
def updMin (b : BitVec 1) (cm : FVec F S1x512 .f32) (cur : Vec F S1x512 .f32) : FVec F S1x512 .f32 :=
  shapeCast S1x512 (Scalar.select b cm (minimumf cur cm)) shapeCasts_S1x512_S1x512

/-- At row block 0 the running minima are not consulted. -/
theorem updMin_first (cm : FVec F S1x512 .f32) (cur cur' : Vec F S1x512 .f32) : updMin 1#1 cm cur = updMin 1#1 cm cur' := by
  unfold updMin Scalar.select; rw [if_pos (by decide), if_pos (by decide)]

/-! The sixteen stores into the running column minima, each as `updMin`. -/
theorem pay1_eq (arg0 : BitVec 32) (cm : FVec F S1x512 .f32) (cur : Vec F S1x512 .f32) :
    k0_pay1 arg0 cm cur = updMin (Scalar.cmpi .eq arg0 0#32) cm cur := rfl
theorem pay27_eq (cm : FVec F S1x512 .f32) (b : BitVec 1) (cur : Vec F S1x512 .f32) :
    k0_pay27 cm b (minimumf cur cm) = updMin b cm cur := rfl
theorem pay26_eq (a : Vec F S4096x256 .bf16) (b : Vec F S512x256 .bf16) (cur : Vec F S1x512 .f32) :
    k0_pay26 a b cur = minimumf cur (colMin (chunkDist a b)) := rfl
theorem pay25_eq (a : Vec F S4096x256 .bf16) (b : Vec F S512x256 .bf16) : k0_pay25 a b = colMin (chunkDist a b) := rfl
theorem pay29_eq (arg0 : BitVec 32) (D : FVec F S4096x512 .f32) (cur : Vec F S1x512 .f32) :
    k0_pay29 arg0 D cur = updMin (Scalar.cmpi .eq arg0 0#32) (colMin D) cur := rfl
theorem pay33_eq (arg0 : BitVec 32) (cm : FVec F S1x512 .f32) (cur : Vec F S1x512 .f32) :
    k0_pay33 arg0 cm cur = updMin (Scalar.cmpi .eq arg0 0#32) cm cur := rfl
theorem pay36_eq (arg0 : BitVec 32) (D : FVec F S4096x512 .f32) (cur : Vec F S1x512 .f32) :
    k0_pay36 arg0 D cur = updMin (Scalar.cmpi .eq arg0 0#32) (colMin D) cur := rfl
theorem pay39_eq (arg0 : BitVec 32) (D : FVec F S4096x512 .f32) (cur : Vec F S1x512 .f32) :
    k0_pay39 arg0 D cur = updMin (Scalar.cmpi .eq arg0 0#32) (colMin D) cur := rfl
theorem pay42_eq (arg0 : BitVec 32) (D : FVec F S4096x512 .f32) (cur : Vec F S1x512 .f32) :
    k0_pay42 arg0 D cur = updMin (Scalar.cmpi .eq arg0 0#32) (colMin D) cur := rfl
theorem pay44_eq (arg0 : BitVec 32) (D : FVec F S4096x512 .f32) (cur : Vec F S1x512 .f32) :
    k0_pay44 arg0 D cur = updMin (Scalar.cmpi .eq arg0 0#32) (colMin D) cur := rfl
theorem pay47_eq (arg0 : BitVec 32) (a : Vec F S4096x256 .bf16) (b : Vec F S512x256 .bf16) (z : FVec F S4096x512 .f32) (cur : Vec F S1x512 .f32) :
    k0_pay47 arg0 a b z cur = updMin (Scalar.cmpi .eq arg0 0#32) (colMin (k0_pay43 a b z)) cur := rfl
theorem pay49_eq (arg0 : BitVec 32) (D : FVec F S4096x512 .f32) (cur : Vec F S1x512 .f32) :
    k0_pay49 arg0 D cur = updMin (Scalar.cmpi .eq arg0 0#32) (colMin D) cur := rfl
theorem pay53_52_eq (arg0 : BitVec 32) (a : Vec F S4096x256 .bf16) (b : Vec F S512x256 .bf16) (cur : Vec F S1x512 .f32) :
    k0_pay53 (k0_pay52 arg0 a b cur) = updMin (Scalar.cmpi .eq arg0 0#32) (colMin (k0_pay48 a b)) cur := rfl
theorem pay55_eq (arg0 : BitVec 32) (D : FVec F S4096x512 .f32) (cur : Vec F S1x512 .f32) :
    k0_pay55 arg0 D cur = updMin (Scalar.cmpi .eq arg0 0#32) (colMin D) cur := rfl
theorem pay59_eq (arg0 : BitVec 32) (cm : FVec F S1x512 .f32) (cur : Vec F S1x512 .f32) :
    k0_pay59 arg0 cm cur = updMin (Scalar.cmpi .eq arg0 0#32) cm cur := rfl
theorem pay61_eq (arg0 : BitVec 32) (D : FVec F S4096x512 .f32) (cur : Vec F S1x512 .f32) :
    k0_pay61 arg0 D cur = updMin (Scalar.cmpi .eq arg0 0#32) (colMin D) cur := rfl
theorem pay64_eq (arg0 : BitVec 32) (D : FVec F S4096x512 .f32) (cur : Vec F S1x512 .f32) :
    k0_pay64 arg0 D cur = updMin (Scalar.cmpi .eq arg0 0#32) (colMin D) cur := rfl
theorem pay66_eq (arg0 : BitVec 32) (D : FVec F S4096x512 .f32) (cur : Vec F S1x512 .f32) :
    k0_pay66 arg0 D cur = updMin (Scalar.cmpi .eq arg0 0#32) (colMin D) cur := rfl

end Cert.KernelIdeal.Body

end
-- ==== Proof.IdealFrame.lean ====
/-
  The frame of the chamfer kernel, with its scratch buffers tracked. After the first point the augmented operands,
  the running column minima and the accumulator hold this point's stores read back — a function of the two input
  arrays alone: the one buffer the body reads before writing it (the running column minima) enters only under
  a select on "row block 0", which discards it there. The invariant before the second point names these contents;
  the second point runs from them and stores the mean into the result's block, which is then written back.
-/
import proofs.«176257_g9887014716187_cont_9to1c4b_714_27_alg».proof.Proof.IdealRunA
import proofs.«176257_g9887014716187_cont_9to1c4b_714_27_alg».proof.Proof.IdealRunB
import proofs.«176257_g9887014716187_cont_9to1c4b_714_27_alg».proof.Proof.IdealFolds

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Row block 0 from the first branch condition -/

theorem bit_of_and (a b : BitVec 1) (h : Scalar.cmpi .ne (Scalar.extui (Scalar.andi a b) : BitVec 32) 0#32 = 1#1) : a = 1#1 := by
  revert a b; decide

theorem updMin_one (cm : FVec F S1x512 .f32) (cur : Vec F S1x512 .f32) :
    updMin 1#1 cm cur = shapeCast S1x512 cm shapeCasts_S1x512_S1x512 := by
  unfold updMin Scalar.select; rw [if_pos (by decide)]

/-- At the first point the stores into the running column minima do not depend on what any scratch buffer held. -/
theorem runA_colmins_indep (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S1x1 .f32) (harg4 : arg4.IsWhole) (arg5 : Memref sig .tc .vmem S4096x256 .bf16) (harg5 : arg5.IsWhole) (arg6 : Memref sig .tc .vmem S8192x256 .bf16) (harg6 : arg6.IsWhole) (arg7 : Memref sig .tc .vmem S4096x128 .f32) (harg7 : arg7.IsWhole) (arg8 : Memref sig .tc .vmem S1x8192 .f32) (harg8 : arg8.IsWhole) (arg9 : Memref sig .tc .vmem S1x1 .f32) (harg9 : arg9.IsWhole)
    (hc1 : cond1 i) (hc2 : cond2 i) (hc3 : cond3 i) (hc4 : ¬cond4 i)
    (x0 x1 : Vec F S8192x128 .f32) (d5 d5' : Vec F S4096x256 .bf16) (d6 d6' : Vec F S8192x256 .bf16) (d8 d8' : Vec F S1x8192 .f32) (d9 d9' : Vec F S1x1 .f32) :
    (runA c i arg2 harg2 arg3 harg3 arg4 harg4 arg5 harg5 arg6 harg6 arg7 harg7 arg8 harg8 arg9 harg9 hc1 hc2 hc3 hc4 x0 x1 d5 d6 d8 d9).2.2.1 = (runA c i arg2 harg2 arg3 harg3 arg4 harg4 arg5 harg5 arg6 harg6 arg7 harg7 arg8 harg8 arg9 harg9 hc1 hc2 hc3 hc4 x0 x1 d5' d6' d8' d9').2.2.1 := by
  have h0 : Scalar.cmpi .eq (BitVec.ofNat 32 (i 0).val) 0#32 = 1#1 := bit_of_and _ _ hc1
  unfold runA; dsimp only
  simp only [runA.sl.r_2, runA.sl.r_3, runA.sl.r_17, runA.sl.v0, pay25_eq, pay26_eq, pay27_eq, pay1_eq, pay29_eq, pay33_eq, pay36_eq, pay39_eq, pay42_eq,
    pay44_eq, pay47_eq, pay49_eq, pay53_52_eq, pay55_eq, pay59_eq, pay61_eq, pay64_eq, pay66_eq, h0, updMin_one]

/-! ## What the first point leaves -/

/-- The views through which the scratch buffers' and the result block's contents are stated. -/
abbrev VX : View sig .tc .vmem S4096x256 .bf16 := scX.view
abbrev VY : View sig .tc .vmem S8192x256 .bf16 := scY.view
abbrev VC : View sig .tc .vmem S1x8192 .f32 := scC.view
abbrev VA : View sig .tc .vmem S1x1 .f32 := scA.view
abbrev VO : View sig .tc .vmem S1x1 .f32 := (Memref.whole cc0_stg2_0 : Memref sig .tc .vmem S1x1 .f32).view

/-- The first point's run on the launched buffers, from scratch contents of no significance. -/
def pA (c : Dev nD) :=
  runA (F := F) c (grid0.coords t0_0) (ms0 t0_0) (hs0 t0_0) (ms1 t0_0) (hs1 t0_0) (ms2 t0_0) (hs2 t0_0) scX (Memref.isWhole_whole _) scY (Memref.isWhole_whole _) scR (Memref.isWhole_whole _) scC (Memref.isWhole_whole _) scA (Memref.isWhole_whole _)
    ((hcond1 t0_0).mpr rfl) (hcond2 t0_0) ((hcond3 t0_0).mpr rfl) (fun h => absurd ((hcond4 t0_0).mp h) (by decide))
    (iblk m c 0 t0_0) (iblk m c 1 t0_0) (VX.read (Elt F) VX.junk) (VY.read (Elt F) VY.junk) (VC.read (Elt F) VC.junk) (VA.read (Elt F) VA.junk)

/-- x~ for row block 0, y~, the column minima over row block 0, the clamped row minima of row block 0 summed. -/
def sXA (c : Dev nD) : Vec F S4096x256 .bf16 := VX.read (Elt F) (VX.writes (Elt F) VX.junk (pA m c).1)
def sYA (c : Dev nD) : Vec F S8192x256 .bf16 := VY.read (Elt F) (VY.writes (Elt F) VY.junk (pA m c).2.1)
def sCA (c : Dev nD) : Vec F S1x8192 .f32 := VC.read (Elt F) (VC.writes (Elt F) VC.junk (pA m c).2.2.1)
def sAA (c : Dev nD) : Vec F S1x1 .f32 := VA.read (Elt F) (VA.writes (Elt F) VA.junk (pA m c).2.2.2.1)

/-- Each of the four is covered by the first point's stores. -/
theorem coverXA (c : Dev nD) (y : S4096x256.Idx) : ∃ pc ∈ (pA m c).1, y ∈ pc.1.set :=
  View.cover_of_tiledBy (pA m c).1 S4096x1.size (by sl_kernel_rfl) y
theorem coverYA (c : Dev nD) (y : S8192x256.Idx) : ∃ pc ∈ (pA m c).2.1, y ∈ pc.1.set :=
  View.cover_of_tiledBy (pA m c).2.1 S8192x1.size (by sl_kernel_rfl) y
theorem coverCA (c : Dev nD) (y : S1x8192.Idx) : ∃ pc ∈ (pA m c).2.2.1, y ∈ pc.1.set :=
  View.cover_of_tiledL (pA m c).2.2.1 S1x512.size (by sl_kernel_rfl) y
theorem coverAA (c : Dev nD) (y : S1x1.Idx) : ∃ pc ∈ (pA m c).2.2.2.1, y ∈ pc.1.set :=
  View.cover_of_tiledL (pA m c).2.2.2.1 S1x1.size (by sl_kernel_rfl) y

/-! ## What the last point leaves -/

/-- The last point's run, from what the first point left. -/
def pB (c : Dev nD) :=
  runB (F := F) c (grid0.coords t0_1) (ms0 t0_1) (hs0 t0_1) (ms1 t0_1) (hs1 t0_1) (ms2 t0_1) (hs2 t0_1) scX (Memref.isWhole_whole _) scY (Memref.isWhole_whole _) scR (Memref.isWhole_whole _) scC (Memref.isWhole_whole _) scA (Memref.isWhole_whole _)
    (fun h => absurd ((hcond1 t0_1).mp h) (by decide)) (hcond2 t0_1) (fun h => absurd ((hcond3 t0_1).mp h) (by decide)) ((hcond4 t0_1).mpr rfl)
    (iblk m c 0 t0_1) (iblk m c 1 t0_1) (sXA m c) (sYA m c) (sCA m c) (sAA m c)

theorem coverOB (c : Dev nD) (y : S1x1.Idx) : ∃ pc ∈ (pB m c).1, y ∈ pc.1.set :=
  View.cover_of_tiledL (pB m c).1 S1x1.size (by sl_kernel_rfl) y

/-- The result block after each point: nothing of significance after the first (the window is idle there), the mean after the last. -/
def outAt (c : Dev nD) : (n : ℕ) → n < cfg0.N → Vec F S1x1 .f32
  | 0, _ => VO.read (Elt F) VO.junk
  | 1, _ => VO.read (Elt F) (VO.writes (Elt F) VO.junk (pB m c).1)
  | n + 2, h => False.elim (by have : cfg0.N = 2 := N_0; omega)

/-- The invariant: before the first point and after the last the launch's (every scratch buffer at anything); between
    them the four scratch buffers the body uses at what the first point left. -/
def PhiS (c : Dev nD) : (n : ℕ) → n ≤ cfg0.N → sProp 𝕄
  | 0, _ => Pipeline.ΦA spec0 c
  | 1, _ => iprop(iprop(owns (c : Thread nD τ) scX fullShare (sXA m c) ∗ owns (c : Thread nD τ) scY fullShare (sYA m c)
      ∗ (∃ d, owns (c : Thread nD τ) scR fullShare d) ∗ owns (c : Thread nD τ) scC fullShare (sCA m c)
      ∗ owns (c : Thread nD τ) scA fullShare (sAA m c)) ∗ (∃ r, prngReg c r))
  | n + 2, _ => Pipeline.ΦA spec0 c

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => outAt m c t.val t.isLt
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = outAt m c t.val t.isLt := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 4800000 in
/-- The first point: the launch invariant hands the scratch buffers at some contents; the run leaves them at this
    point's stores written over those; read back, that is what the invariant names, whatever they held. -/
theorem sound_first (c : Dev nD) :
    bodyPre m c t0_0 ⊢ wp frame (wpE (defs₀ (F := F)) Variants.none c none) Set.univ (bodyAt0 t0_0) (fun _ => bodyPost m c t0_0) := by
  unfold bodyPre bodyPost bodyAt0
  simp only [before0, before1]
  rw [show (dats m 0 c).owesAt () (Fin.succ t0_0) = (dats m 0 c).owesAt () (Fin.castSucc t0_0) from rfl]
  rw [show (dats m 0 c).Φ (Fin.castSucc t0_0) = Pipeline.ΦA spec0 c from rfl, PhiA_eq]
  rw [show (dats m 0 c).Φ (Fin.succ t0_0) = iprop(iprop(owns (c : Thread nD τ) scX fullShare (sXA m c) ∗ owns (c : Thread nD τ) scY fullShare (sYA m c)
      ∗ (∃ d, owns (c : Thread nD τ) scR fullShare d) ∗ owns (c : Thread nD τ) scC fullShare (sCA m c)
      ∗ owns (c : Thread nD τ) scA fullShare (sAA m c)) ∗ (∃ r, prngReg c r)) from rfl]
  rw [show (dats m 0 c).leavesExact 0 t0_0 = owns (c : Thread nD τ) (ms0 t0_0) fullShare ((dats m 0 c).after 0 t0_0) from by
    unfold Dat.leavesExact; rw [liveAt0 t0_0], after0]
  rw [show (dats m 0 c).leavesExact 1 t0_0 = owns (c : Thread nD τ) (ms1 t0_0) fullShare ((dats m 0 c).after 1 t0_0) from by
    unfold Dat.leavesExact; rw [liveAt1 t0_0], after1]
  rw [Dat.leavesExact_idle (dats m 0 c) 2 t0_0 (idleAt2 t0_0 (fun h => absurd ((hcond4 t0_0).mp h) (by decide))) (noFlush2 t0_0 (fun h => absurd ((hcond4 t0_0).mp h) (by decide)))]
  iintro ⟨⟨⟨⟨%d5, HX⟩, ⟨%d6, HY⟩, HR, ⟨%d8, HC⟩, ⟨%d9, HA⟩⟩, Hg⟩, Ho, ⟨%e0, H0⟩, ⟨%e1, H1⟩, ⟨%d2, H2⟩⟩
  iapply ((runA c (grid0.coords t0_0) (ms0 t0_0) (hs0 t0_0) (ms1 t0_0) (hs1 t0_0) (ms2 t0_0) (hs2 t0_0) scX (Memref.isWhole_whole _) scY (Memref.isWhole_whole _) scR (Memref.isWhole_whole _) scC (Memref.isWhole_whole _) scA (Memref.isWhole_whole _)
    ((hcond1 t0_0).mpr rfl) (hcond2 t0_0) ((hcond3 t0_0).mpr rfl) (fun h => absurd ((hcond4 t0_0).mp h) (by decide))
    (iblk m c 0 t0_0) (iblk m c 1 t0_0) d5 d6 d8 d9).2.2.2.2 _ Set.univ _)
  isplitl [H0]; · iexact H0
  isplitl [H1]; · iexact H1
  isplitl [H2]; · iexact H2
  isplitl [HX]; · iexact HX
  isplitl [HY]; · iexact HY
  isplitl [HR]; · iexact HR
  isplitl [HC]; · iexact HC
  isplitl [HA]; · iexact HA
  iintro ⟨H0, H1, H2, ⟨%fx, HX⟩, ⟨%fy, HY⟩, HR, ⟨%fc, HC⟩, ⟨%fa, HA⟩⟩
  isplitl [HX HY HR HC HA Hg]
  · isplitr [Hg]
    swap; · iexact Hg
    isplitl [HX]
    · unfold owns; iexists _; isplitr
      swap; · iexact HX
      ipureintro; exact View.read_writes_of_cover _ _ _ _ _ (coverXA m c)
    isplitl [HY]
    · unfold owns; iexists _; isplitr
      swap; · iexact HY
      ipureintro; exact View.read_writes_of_cover _ _ _ _ _ (coverYA m c)
    isplitl [HR]; · iexact HR
    isplitl [HC]
    · rw [runA_colmins_indep c _ _ _ _ _ _ _ _ _ _ _ _ _ _ _ _ _ _ _ _ _ _ _ d5 (VX.read (Elt F) VX.junk) d6 (VY.read (Elt F) VY.junk) d8 (VC.read (Elt F) VC.junk) d9 (VA.read (Elt F) VA.junk)]
      unfold owns; iexists _; isplitr
      swap; · iexact HC
      ipureintro; exact View.read_writes_of_cover _ _ _ _ _ (coverCA m c)
    unfold owns; iexists _; isplitr
    swap; · iexact HA
    ipureintro; exact View.read_writes_of_cover _ _ _ _ _ (coverAA m c)
  isplitl [Ho]; · iexact Ho
  isplitl [H0]; · iexact H0
  isplitl [H1]; · iexact H1
  iexists _; iexact H2

end Cert.KernelIdeal.Body

end
-- ==== Proof.IdealFrame2.lean ====
/-
  The last point's body obligation, the launch, the run and the frame of the chamfer kernel.
-/
import proofs.«176257_g9887014716187_cont_9to1c4b_714_27_alg».proof.Proof.IdealFrame

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4800000 in
/-- The last point: the invariant hands the scratch buffers at what the first point left, the run applies, and what it
    leaves in the result's block is the mean; the scratch buffers' new contents are forgotten. -/
theorem sound_last (c : Dev nD) :
    bodyPre m c t0_1 ⊢ wp frame (wpE (defs₀ (F := F)) Variants.none c none) Set.univ (bodyAt0 t0_1) (fun _ => bodyPost m c t0_1) := by
  unfold bodyPre bodyPost bodyAt0
  simp only [before0, before1]
  rw [show (dats m 0 c).owesAt () (Fin.succ t0_1) = (dats m 0 c).owesAt () (Fin.castSucc t0_1) from rfl]
  rw [show (dats m 0 c).Φ (Fin.castSucc t0_1) = iprop(iprop(owns (c : Thread nD τ) scX fullShare (sXA m c) ∗ owns (c : Thread nD τ) scY fullShare (sYA m c)
      ∗ (∃ d, owns (c : Thread nD τ) scR fullShare d) ∗ owns (c : Thread nD τ) scC fullShare (sCA m c)
      ∗ owns (c : Thread nD τ) scA fullShare (sAA m c)) ∗ (∃ r, prngReg c r)) from rfl]
  rw [show (dats m 0 c).Φ (Fin.succ t0_1) = Pipeline.ΦA spec0 c from rfl, PhiA_eq]
  rw [show (dats m 0 c).leavesExact 0 t0_1 = owns (c : Thread nD τ) (ms0 t0_1) fullShare ((dats m 0 c).after 0 t0_1) from by
    unfold Dat.leavesExact; rw [liveAt0 t0_1], after0]
  rw [show (dats m 0 c).leavesExact 1 t0_1 = owns (c : Thread nD τ) (ms1 t0_1) fullShare ((dats m 0 c).after 1 t0_1) from by
    unfold Dat.leavesExact; rw [liveAt1 t0_1], after1]
  rw [show (dats m 0 c).leavesExact 2 t0_1 = owns (c : Thread nD τ) (ms2 t0_1) fullShare ((dats m 0 c).after 2 t0_1) from by
    unfold Dat.leavesExact; rw [liveAt2 t0_1 ((hcond4 t0_1).mpr rfl)], after2]
  rw [show outAt m c (t0_1 : Fin cfg0.N).val (t0_1 : Fin cfg0.N).isLt = VO.read (Elt F) (VO.writes (Elt F) VO.junk (pB m c).1) from rfl]
  iintro ⟨⟨⟨HX, HY, HR, HC, HA⟩, Hg⟩, Ho, ⟨%e0, H0⟩, ⟨%e1, H1⟩, ⟨%d2, H2⟩⟩
  iapply ((pB m c).2.2.2.2 Set.univ _)
  isplitl [H0]; · iexact H0
  isplitl [H1]; · iexact H1
  isplitl [H2]; · iexists _; iexact H2
  isplitl [HX]; · iexact HX
  isplitl [HY]; · iexact HY
  isplitl [HR]; · iexact HR
  isplitl [HC]; · iexact HC
  isplitl [HA]; · iexact HA
  iintro ⟨H0, H1, ⟨%f4, H4⟩, ⟨%fx, HX⟩, HY, HR, ⟨%fc, HC⟩, ⟨%fa, HA⟩⟩
  isplitl [HX HY HR HC HA Hg]
  · isplitr [Hg]
    swap; · iexact Hg
    isplitl [HX]
    · iexists (VX.read (Elt F) (VX.writes (Elt F) fx (pB m c).2.1))
      unfold owns; iexists _; isplitr
      swap; · iexact HX
      ipureintro; rfl
    isplitl [HY]; · iexists (sYA m c); iexact HY
    isplitl [HR]; · iexact HR
    isplitl [HC]
    · iexists (VC.read (Elt F) (VC.writes (Elt F) fc (pB m c).2.2.1))
      unfold owns; iexists _; isplitr
      swap; · iexact HC
      ipureintro; rfl
    iexists (VA.read (Elt F) (VA.writes (Elt F) fa (pB m c).2.2.2.1))
    unfold owns; iexists _; isplitr
    swap; · iexact HA
    ipureintro; rfl
  isplitl [Ho]; · iexact Ho
  isplitl [H0]; · iexact H0
  isplitl [H1]; · iexact H1
  unfold owns; iexists _; isplitr
  swap; · iexact H4
  ipureintro; exact View.read_writes_of_cover _ _ _ _ _ (coverOB m c)

/-- The library's body obligation, at both points. -/
theorem body_obligation (c : Dev nD) : BodyObligation (dats (F := F) m 0 c) (defs₀ (F := F)) Variants.none () Set.univ := fun t => by
  rw [bigSep_W0, bigSep_W0]
  rcases fin_N0 t with rfl | rfl
  · exact sound_first m c
  · exact sound_last m c

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last cfg0.N) ⊢ Pipeline.ΦA spec0 c := by
  rw [show (dats m 0 c).Φ (Fin.last cfg0.N) = Pipeline.ΦA spec0 c from rfl]

/-! ## The run and the frame -/

set_option backward.isDefEq.respectTransparency.types false in
/-- Every weakly fair execution of @main terminates, faulting nowhere, with every array of the pipeline at what the
    proof data computes — the result's array at the mean the last point stored — and every other unscoped buffer as
    the host line after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to the end, faults nowhere, and leaves its two argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Body

end
-- ==== Proof.Spec.lean ====
/-
  The chamfer distance of two point sets x, y : [8192, 128] over the extended reals, as ONE function of the
  two arrays. With  sq x i = ∑ₖ x i k · x i k  the clamped squared distance is
      dist i j = max (sq x i + sq y j − 2 · ∑ₖ x i k · y j k) 0,
  and the result is ( ∑ᵢ minⱼ dist i j  +  ∑ⱼ minᵢ dist i j ) / 16384, the minima taken as infima over the
  complete order of the extended reals (the empty infimum, the reductions' initial value, is +∞).
-/
import Idealize.ShloMosaic.PureOps.Ideal
import Idealize.ShloMosaic.Lib.ValueIdx

noncomputable section

namespace Cert.Chamfer

open Idealize.ShloMosaic

/-- A point set: 8192 points with 128 coordinates. -/
abbrev Pts := Fin 8192 → Fin 128 → EReal

/-- The squared norm of point `i`. -/
def sq (x : Pts) (i : Fin 8192) : EReal := ∑ k : Fin 128, x i k * x i k

/-- The inner product of point `i` of `x` with point `j` of `y`. -/
def dot (x y : Pts) (i j : Fin 8192) : EReal := ∑ k : Fin 128, x i k * y j k

/-- The squared distance by the expansion ‖x‖² + ‖y‖² − 2 x·y, clamped at 0. -/
def dist (x y : Pts) (i j : Fin 8192) : EReal := max (sq x i + sq y j - 2 * dot x y i j) 0

/-- For each point of `x` the distance to the nearest point of `y`, summed; and the same with the roles exchanged. -/
def total (x y : Pts) : EReal :=
  (∑ i : Fin 8192, Finset.univ.inf fun j : Fin 8192 => dist x y i j) + (∑ j : Fin 8192, Finset.univ.inf fun i : Fin 8192 => dist x y i j)

end Cert.Chamfer

end
-- ==== Proof.RefConsts.lean ====
/-
  The float constants the reference spells, as the extended reals their patterns denote at the ideal instance.
  One module states them, so that the unfolding of the pattern reading happens in one place.
-/
import Idealize.ShloMosaic.PureOps.Ideal

noncomputable section

namespace Cert.RefConsts

open Idealize.ShloMosaic

/-- The pattern 0x40000000 (`2.0`) denotes 2. -/
theorem ofBits_two : Ideal.ofBits .f32 0x40000000#32 = 2 := by
  simp [Ideal.ofBits, Ideal.ieee, -EReal.coe_mul]
  norm_num
  first | rfl | norm_cast

/-- The pattern 0x7F800000 (`+inf`) denotes +∞, the top of the extended reals. -/
theorem ofBits_top : Ideal.ofBits .f32 0x7F800000#32 = ⊤ := by
  simp [Ideal.ofBits, Ideal.ieee]

end Cert.RefConsts

end
-- ==== Proof.RefDist.lean ====
/-
  The reference's clamped distance matrix, read one operation at a time at an entry (i, j): the squared norm of
  point i of x plus that of point j of y minus twice their inner product, clamped at 0.
-/
import proofs.«176257_g9887014716187_cont_9to1c4b_714_27_alg».proof.Proof.Spec
import proofs.«176257_g9887014716187_cont_9to1c4b_714_27_alg».proof.Proof.Gen.ReferenceIdeal.Run
import proofs.«176257_g9887014716187_cont_9to1c4b_714_27_alg».proof.Proof.Gen.ReferenceIdeal.Read
import proofs.«176257_g9887014716187_cont_9to1c4b_714_27_alg».proof.Proof.RefConsts
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Idealize.ShloMosaic Idealize.ShloMosaic.TcCoe Idealize.SL.Sem Idealize.ShloMosaic.ValueIdx
open Cert.ReferenceIdeal Cert.ReferenceIdeal.Gen Cert.ReferenceIdeal.Read

/-- The point set an argument array holds: point `i`'s coordinate `k` is the array's entry (i, k). -/
def pts (x : FVec Ideal S8192x128 .f32) : Cert.Chamfer.Pts := fun i k => x (ix2 i k)

theorem idx_sq_x (i j : Fin 8192) (k : Fin 128) :
    idx_main_v1 (idx_main_v2 (idx_main_v6 (ix2 i j))) k = ix2 i k := by
  funext a; match a with | ⟨0, _⟩ => rfl | ⟨1, _⟩ => rfl

theorem idx_sq_y (i j : Fin 8192) (k : Fin 128) :
    idx_main_v4 (idx_main_v5 (idx_main_v7 (ix2 i j))) k = ix2 j k := by
  funext a; match a with | ⟨0, _⟩ => rfl | ⟨1, _⟩ => rfl

theorem idx_dot_l (i j : Fin 8192) (k : Fin 128) : lidx_main_v10 (ix2 i j) k = ix2 i k := by
  funext a; match a with | ⟨0, _⟩ => rfl | ⟨1, _⟩ => rfl

theorem idx_dot_r (i j : Fin 8192) (k : Fin 128) : idx_main_v9 (ridx_main_v10 (ix2 i j) k) = ix2 j k := by
  funext a; match a with | ⟨0, _⟩ => rfl | ⟨1, _⟩ => rfl

/-- The squared norms of `x`'s points, broadcast along the rows of the distance matrix. -/
theorem v6_apply (x : FVec Ideal S8192x128 .f32) (i j : Fin 8192) :
    val_main_v6 (F := Ideal) x (ix2 i j) = Cert.Chamfer.sq (pts x) i := by
  rw [val_main_v6_apply, val_main_v2_apply, val_main_v1_apply, val_main_cst_apply]
  simp only [val_main_v0_apply, Ideal.ofBits_def, Ideal.ofBits_zero_f32, zero_add, Ideal.mulf_def, idx_sq_x]
  rfl

/-- The squared norms of `y`'s points, broadcast down the columns of the distance matrix. -/
theorem v7_apply (y : FVec Ideal S8192x128 .f32) (i j : Fin 8192) :
    val_main_v7 (F := Ideal) y (ix2 i j) = Cert.Chamfer.sq (pts y) j := by
  rw [val_main_v7_apply, val_main_v5_apply, val_main_v4_apply, val_main_cst_0_apply]
  simp only [val_main_v3_apply, Ideal.ofBits_def, Ideal.ofBits_zero_f32, zero_add, Ideal.mulf_def, idx_sq_y]
  rfl

/-- The matrix product of `x` with the transpose of `y` at (i, j) is the inner product of point `i` of `x` with point `j` of `y`. -/
theorem v10_apply (x y : FVec Ideal S8192x128 .f32) (i j : Fin 8192) :
    val_main_v10 (F := Ideal) x y (ix2 i j) = Cert.Chamfer.dot (pts x) (pts y) i j := by
  rw [val_main_v10_apply]
  simp only [val_main_v9_apply, idx_dot_l, idx_dot_r]
  rfl

/-- The clamped distance matrix at (i, j). -/
theorem v15_apply (x y : FVec Ideal S8192x128 .f32) (i j : Fin 8192) :
    val_main_v15 (F := Ideal) x y (ix2 i j) = Cert.Chamfer.dist (pts x) (pts y) i j := by
  rw [val_main_v15_apply, val_main_v13_apply, val_main_v8_apply, val_main_v12_apply, val_main_v14_apply,
    val_main_v11_apply, val_main_cst_1_apply, val_main_cst_2_apply, v6_apply, v7_apply, v10_apply]
  simp only [Ideal.ofBits_def, Ideal.ofBits_zero_f32, Cert.RefConsts.ofBits_two, Ideal.mulf_def, Ideal.addf_def, Ideal.subf_def,
    Ideal.maximumf_def]
  rfl

end Cert.ReferenceIdeal.RefValue

end
-- ==== Proof.RefTotal.lean ====
/-
  The reference's result, read off its run one operation at a time, is the chamfer total divided by 16384:
  the two minimum reductions of the clamped distance matrix from +∞ are the infima over a row and over a column,
  the two sums from 0 add them up over the points of x and of y, and the last operation divides their sum by the
  value of the pattern 0x46800000.
-/
import proofs.«176257_g9887014716187_cont_9to1c4b_714_27_alg».proof.Proof.RefDist

noncomputable section

namespace Cert.ReferenceIdeal.RefValue

open Idealize.ShloMosaic Idealize.ShloMosaic.TcCoe Idealize.SL.Sem Idealize.ShloMosaic.ValueIdx
open Cert.ReferenceIdeal Cert.ReferenceIdeal.Gen Cert.ReferenceIdeal.Read

/-- The distance matrix reduces over its columns to a vector indexed by the rows. -/
theorem reduces_d1 : S8192x8192.Reduces [1] S8192 := by decide
/-- The distance matrix reduces over its rows to a vector indexed by the columns. -/
theorem reduces_d0 : S8192x8192.Reduces [0] S8192 := by decide

/-- Row index `i` with column `k` put back is (i, k). -/
theorem lift_d1 (i : Fin 8192) (k : Fin (S8192x8192.size 1)) :
    reduces_d1.lift (ix1 i) k = ix2 i (⟨k.val, k.isLt⟩ : Fin 8192) := by
  funext c; apply Fin.ext
  fin_cases c <;> rfl

/-- Column index `j` with row `k` put back is (k, j). -/
theorem lift_d0 (j : Fin 8192) (k : Fin (S8192x8192.size 0)) :
    reduces_d0.lift (ix1 j) k = ix2 (⟨k.val, k.isLt⟩ : Fin 8192) j := by
  funext c; apply Fin.ext
  fin_cases c <;> rfl

/-- Row `i` of the distance matrix, as a function of the column. -/
theorem row_eq (x y : FVec Ideal S8192x128 .f32) (i : Fin 8192) :
    (val_main_v15 (F := Ideal) x y ∘ reduces_d1.lift (ix1 i))
      = fun k : Fin 8192 => Cert.Chamfer.dist (pts x) (pts y) i k :=
  funext fun k => (congrArg (val_main_v15 (F := Ideal) x y) (lift_d1 i k)).trans (v15_apply x y i _)

/-- Column `j` of the distance matrix, as a function of the row. -/
theorem col_eq (x y : FVec Ideal S8192x128 .f32) (j : Fin 8192) :
    (val_main_v15 (F := Ideal) x y ∘ reduces_d0.lift (ix1 j))
      = fun k : Fin 8192 => Cert.Chamfer.dist (pts x) (pts y) k j :=
  funext fun k => (congrArg (val_main_v15 (F := Ideal) x y) (lift_d0 j k)).trans (v15_apply x y _ j)

/-- The fold of the minimum from +∞ over all of `Fin 8192` is the infimum. -/
theorem fold_min_top (f : Fin 8192 → EReal) :
    (Finset.univ : Finset (Fin 8192)).fold (FloatOps.minimumf (F := Ideal) (φ := .f32))
      (Ideal.ofBits .f32 0x7F800000#32) f = Finset.univ.inf f := by
  rw [Cert.RefConsts.ofBits_top]
  rfl

/-- The minimum over the columns, from +∞: for point `i` of `x` the infimum of its distances to the points of `y`. -/
theorem v16_apply (x y : FVec Ideal S8192x128 .f32) (i : Fin 8192) :
    val_main_v16 (F := Ideal) x y (ix1 i)
      = Finset.univ.inf fun j : Fin 8192 => Cert.Chamfer.dist (pts x) (pts y) i j := by
  unfold val_main_v16
  rw [Host.reduce_eq_fold_single (FloatOps.minimumf (F := Ideal) (φ := .f32)) _ _ reducesTo_S8192x8192_S8192_d1
    reduces_d1 h_S_, row_eq x y i]
  exact fold_min_top _

/-- The minimum over the rows, from +∞: for point `j` of `y` the infimum of its distances to the points of `x`. -/
theorem v17_apply (x y : FVec Ideal S8192x128 .f32) (j : Fin 8192) :
    val_main_v17 (F := Ideal) x y (ix1 j)
      = Finset.univ.inf fun i : Fin 8192 => Cert.Chamfer.dist (pts x) (pts y) i j := by
  unfold val_main_v17
  rw [Host.reduce_eq_fold_single (FloatOps.minimumf (F := Ideal) (φ := .f32)) _ _ reducesTo_S8192x8192_S8192_d0
    reduces_d0 h_S_, col_eq x y j]
  exact fold_min_top _

/-- A vector's index set is its one coordinate's range. -/
def idxEquiv1 : S8192.Idx ≃ Fin 8192 where
  toFun j := j 0
  invFun a := ix1 a
  left_inv j := (eq_ix1 j).symm
  right_inv _ := rfl

/-- The sum of the row minima, from 0. -/
theorem v18_sum (x y : FVec Ideal S8192x128 .f32) (i : S_.Idx) :
    val_main_v18 (F := Ideal) x y i
      = ∑ i : Fin 8192, Finset.univ.inf fun j : Fin 8192 => Cert.Chamfer.dist (pts x) (pts y) i j := by
  rw [val_main_v18_apply, val_main_cst_5_apply, Ideal.ofBits_def, Ideal.ofBits_zero_f32, zero_add,
    ← Equiv.sum_comp idxEquiv1.symm]
  exact Finset.sum_congr rfl fun i _ => v16_apply x y i

/-- The sum of the column minima, from 0. -/
theorem v19_sum (x y : FVec Ideal S8192x128 .f32) (i : S_.Idx) :
    val_main_v19 (F := Ideal) x y i
      = ∑ j : Fin 8192, Finset.univ.inf fun i : Fin 8192 => Cert.Chamfer.dist (pts x) (pts y) i j := by
  rw [val_main_v19_apply, val_main_cst_6_apply, Ideal.ofBits_def, Ideal.ofBits_zero_f32, zero_add,
    ← Equiv.sum_comp idxEquiv1.symm]
  exact Finset.sum_congr rfl fun j _ => v17_apply x y j

/-- The reference's last operation, as a function of the two argument arrays, is the chamfer total divided by the
    value of the pattern 0x46800000 (16384, left unevaluated). -/
theorem ref_total_val (x y : FVec Ideal S8192x128 .f32) :
    val_main_v21 (F := Ideal) x y
      = fun _ => Ideal.div (Cert.Chamfer.total (pts x) (pts y)) (Ideal.ofBits .f32 0x46800000#32) := by
  funext i
  rw [val_main_v21_apply, val_main_v20_apply, v18_sum, v19_sum, val_main_cst_7_apply]
  rfl

/-- The run's result term, at two argument arrays, is the chamfer total divided by the value of the pattern
    0x46800000 (16384, left unevaluated). -/
theorem ref_total (x0 x1 : FVec Ideal S8192x128 .f32) :
    (Host.divf (addf (Host.reduceAdd (Host.reduce FloatOps.minimumf (maximumf (subf (addf (broadcastInDim S8192x8192 ![0, 1] bcast_S8192x1_S8192x8192_0_1 (broadcastInDim S8192x1 ![0] bcast_S8192_S8192x1_0 (Host.reduceAdd (mulf (x0) (x0)) (constant S_ .f32 0x00000000#32) reducesTo_S8192x128_S8192_d1 h_S_))) (broadcastInDim S8192x8192 ![0, 1] bcast_S1x8192_S8192x8192_0_1 (broadcastInDim S1x8192 ![1] bcast_S8192_S1x8192_1 (Host.reduceAdd (mulf (x1) (x1)) (constant S_ .f32 0x00000000#32) reducesTo_S8192x128_S8192_d1 h_S_)))) (mulf (broadcastInDim S8192x8192 ![] bcast_S_S8192x8192 (constant S_ .f32 0x40000000#32)) (Host.dotGeneral dot_S8192x128_S128x8192_S8192x8192_1_0_0_1_n_n none (x0) (transpose S128x8192 [1, 0] (x1) transposes_S8192x128_S128x8192_1_0)))) (broadcastInDim S8192x8192 ![] bcast_S_S8192x8192 (constant S_ .f32 0x00000000#32))) (constant S_ .f32 0x7F800000#32) reducesTo_S8192x8192_S8192_d1 h_S_) (constant S_ .f32 0x00000000#32) reducesTo_S8192_S_d0 h_S_) (Host.reduceAdd (Host.reduce FloatOps.minimumf (maximumf (subf (addf (broadcastInDim S8192x8192 ![0, 1] bcast_S8192x1_S8192x8192_0_1 (broadcastInDim S8192x1 ![0] bcast_S8192_S8192x1_0 (Host.reduceAdd (mulf (x0) (x0)) (constant S_ .f32 0x00000000#32) reducesTo_S8192x128_S8192_d1 h_S_))) (broadcastInDim S8192x8192 ![0, 1] bcast_S1x8192_S8192x8192_0_1 (broadcastInDim S1x8192 ![1] bcast_S8192_S1x8192_1 (Host.reduceAdd (mulf (x1) (x1)) (constant S_ .f32 0x00000000#32) reducesTo_S8192x128_S8192_d1 h_S_)))) (mulf (broadcastInDim S8192x8192 ![] bcast_S_S8192x8192 (constant S_ .f32 0x40000000#32)) (Host.dotGeneral dot_S8192x128_S128x8192_S8192x8192_1_0_0_1_n_n none (x0) (transpose S128x8192 [1, 0] (x1) transposes_S8192x128_S128x8192_1_0)))) (broadcastInDim S8192x8192 ![] bcast_S_S8192x8192 (constant S_ .f32 0x00000000#32))) (constant S_ .f32 0x7F800000#32) reducesTo_S8192x8192_S8192_d0 h_S_) (constant S_ .f32 0x00000000#32) reducesTo_S8192_S_d0 h_S_)) (constant S_ .f32 0x46800000#32) : (⟨S_, .f32⟩ : BufTy).Contents (Elt Ideal))
      = fun _ => Ideal.div (Cert.Chamfer.total (pts x0) (pts x1)) (Ideal.ofBits .f32 0x46800000#32) :=
  (val_main_v21_eq (F := Ideal) x0 x1).trans (ref_total_val x0 x1)

/-- From any memory with zero counters every weakly fair execution of the reference terminates with its result at the
    chamfer total of the two argument arrays' point sets divided by the value of the pattern 0x46800000, the
    arguments unchanged. -/
theorem ref_run (m' : (ℓ : Loc nD τ sig) → Buf (Elt Ideal) ℓ) (ρ' : Dev nD → PrngReg) :
    θ_run defs (onTc (τ := τ) (main (F := Ideal))) ⟨m', fun _ => 0, ρ'⟩ fun r => ∀ c : Dev nD,
      r.2.mem ((c.tc : Thread nD τ).loc main_v21)
          = (fun _ => Ideal.div (Cert.Chamfer.total (pts (m' ((c.tc : Thread nD τ).loc main_arg0)))
              (pts (m' ((c.tc : Thread nD τ).loc main_arg1)))) (Ideal.ofBits .f32 0x46800000#32))
      ∧ r.2.mem ((c.tc : Thread nD τ).loc main_arg0) = m' ((c.tc : Thread nD τ).loc main_arg0)
      ∧ r.2.mem ((c.tc : Thread nD τ).loc main_arg1) = m' ((c.tc : Thread nD τ).loc main_arg1) :=
  (θ_run defs _ _).mono (fun _ h c => ⟨(h c).1.trans (ref_total _ _), (h c).2⟩)
    (Cert.ReferenceIdeal.Value.run (F := Ideal) m' ρ')

end Cert.ReferenceIdeal.RefValue

end
-- ==== Proof.IdealBlocks.lean ====
/-
  Both inputs are staged whole: the block of either input window at either grid point is the whole array.
  And the block the last point stores into the result is the last payload applied to the accumulator and the
  running column minima as that point loads them.
-/
import proofs.«176257_g9887014716187_cont_9to1c4b_714_27_alg».proof.Proof.IdealFrame2
import Idealize.ShloMosaic.Lib.Pipeline.Value

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

theorem idx_in0 : ∀ (t : Fin cfg0.N) (a : Fin 2), win0_0.index t a = 0 := by decide +kernel
theorem idx_in1 : ∀ (t : Fin cfg0.N) (a : Fin 2), win0_1.index t a = 0 := by decide +kernel

theorem iblk0_eq (c : Dev nD) (t : Fin cfg0.N) : iblk m c 0 t = V m c main_arg0 := by
  unfold iblk
  funext y
  show V m c main_arg0 (((cfg0.win 0).blk t).view.emb y) = V m c main_arg0 y
  refine congrArg _ (funext fun a => Fin.ext ?_)
  match a with
  | ⟨0, _⟩ => show win0_0.index t (0 : Fin 2) * 8192 + 1 * (y 0).val = (y 0).val; rw [idx_in0]; omega
  | ⟨1, _⟩ => show win0_0.index t (1 : Fin 2) * 128 + 1 * (y 1).val = (y 1).val; rw [idx_in0]; omega

theorem iblk1_eq (c : Dev nD) (t : Fin cfg0.N) : iblk m c 1 t = V m c main_arg1 := by
  unfold iblk
  funext y
  show V m c main_arg1 (((cfg0.win 1).blk t).view.emb y) = V m c main_arg1 y
  refine congrArg _ (funext fun a => Fin.ext ?_)
  match a with
  | ⟨0, _⟩ => show win0_1.index t (0 : Fin 2) * 8192 + 1 * (y 0).val = (y 0).val; rw [idx_in1]; omega
  | ⟨1, _⟩ => show win0_1.index t (1 : Fin 2) * 128 + 1 * (y 1).val = (y 1).val; rw [idx_in1]; omega

theorem hz2 : (![0, 0] : Fin 2 → Nat) = fun _ => 0 := funext fun a => by fin_cases a <;> rfl

/-- The accumulator and the running column minima as the last point loads them for the mean. -/
def accLast (c : Dev nD) : Vec F S1x1 .f32 :=
  runB.sl.v414 c (grid0.coords t0_1) (ms0 t0_1) (hs0 t0_1) scX (Memref.isWhole_whole _) scY (Memref.isWhole_whole _) scA (Memref.isWhole_whole _) (hcond2 t0_1) (iblk m c 0 t0_1) (sXA m c) (sYA m c) (sAA m c)
def colLast (c : Dev nD) : Vec F S1x8192 .f32 :=
  runB.sl.v415 c (grid0.coords t0_1) (ms0 t0_1) (hs0 t0_1) scX (Memref.isWhole_whole _) scY (Memref.isWhole_whole _) scC (Memref.isWhole_whole _) (hcond2 t0_1) (iblk m c 0 t0_1) (sXA m c) (sYA m c) (sCA m c)

/-- What the last point stores into the result's block. -/
theorem stored_eq (c : Dev nD) :
    VO.read (Elt F) (VO.writes (Elt F) VO.junk (pB m c).1) = k0_pay3 (accLast m c) (colLast m c) := by
  rw [View.read_writes_eq_canon _ _ _ (coverOB m c)]
  unfold pB runB; dsimp only
  rw [View.canon_unit_zero hz2]
  rfl

end Cert.KernelIdeal.Body

end
-- ==== Proof.IdealReads2.lean ====
/-
  The folds of the chamfer body read at an index. The minimum of every column of a chunk over the 4096 rows is the
  infimum of the column (a fold of min from +∞, the top element, in any order); the fold over the four lane groups
  is the least of four entries of the row; the update of the running column minima reads the fresh minimum at row
  block 0 and the smaller of the running and the fresh one otherwise. Also here, for the row side: a row's minimum
  over its 128 lanes as an infimum, and a vector cast to a one-column matrix read at an index.
-/
import proofs.«176257_g9887014716187_cont_9to1c4b_714_27_alg».proof.Proof.IdealFolds
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Idealize.ShloMosaic Idealize.SL.Sem Idealize.ShloMosaic.ValueIdx
open Cert.KernelIdeal Cert.KernelIdeal.Gen

/-- The fold of min from ⊤ over a finite set is the infimum. -/
theorem fold_min_top {ι : Type} (s : Finset ι) (g : ι → EReal) : s.fold min ⊤ g = s.inf g := by
  classical
  induction s using Finset.induction_on with
  | empty => rw [Finset.fold_empty, Finset.inf_empty]
  | insert a s ha ih => rw [Finset.fold_insert ha, Finset.inf_insert, ih]

/-- The f32 word of +∞ is the top element. -/
theorem ofBits_inf_f32 : Ideal.ofBits .f32 0x7F800000#32 = ⊤ := by simp [Ideal.ofBits, Ideal.ieee]

/-- The source index over column q with row r inserted. -/
theorem colLift (q : Fin 512) (r : Fin 4096) :
    reduces_S4096x512_S512.lift (ix1 q) r = ix2 r q :=
  funext fun c => Fin.ext (by match c with | ⟨0, _⟩ => rfl | ⟨1, _⟩ => rfl)

/-- A column's minimum over the 4096 rows is the infimum of the column. -/
theorem colMin_apply (D : FVec Ideal S4096x512 .f32) (q : Fin 512) :
    colMin (F := Ideal) D (ix2 0 q) = Finset.univ.inf (fun r : Fin 4096 => D (ix2 r q)) := by
  unfold colMin
  refine (shapeCast_a_1a_apply _ shapeCasts_S512_S1x512 (0 : Fin 1) q).trans ?_
  show reduceFold reduces_S4096x512_S512 FloatOps.minimumf (FloatOps.ofBits .f32 0x7F800000#32) D (ix1 q) = _
  rw [reduceFold_eq_fold]
  refine (reduces_S4096x512_S512.fold_filter_drop_single _ _ D (ix1 q)).trans ?_
  show (Finset.univ : Finset (Fin 4096)).fold min (Ideal.ofBits .f32 0x7F800000#32) (fun r => D (reduces_S4096x512_S512.lift (ix1 q) r)) = _
  rw [ofBits_inf_f32]
  refine (fold_min_top (Finset.univ : Finset (Fin 4096)) _).trans ?_
  exact Finset.inf_congr rfl fun r _ => congrArg D (colLift q r)

/-- The source index over row r with lane l inserted. -/
theorem rowLift (r : Fin 4096) (l : Fin 128) :
    reduces_S4096x128_S4096.lift (ix1 r) l = ix2 r l :=
  funext fun c => Fin.ext (by match c with | ⟨0, _⟩ => rfl | ⟨1, _⟩ => rfl)

/-- A row's minimum over the 128 lanes is the infimum of the row. -/
theorem rowMin_apply (v : FVec Ideal S4096x128 .f32) (r : Fin 4096) :
    multiReduction .minimumf [1] S4096 v 0x7F800000#32 reduces_S4096x128_S4096 (.inl rfl) rfl (ix1 r)
      = Finset.univ.inf fun l : Fin 128 => v (ix2 r l) := by
  show reduceFold reduces_S4096x128_S4096 FloatOps.minimumf (FloatOps.ofBits .f32 0x7F800000#32) v (ix1 r) = _
  rw [reduceFold_eq_fold]
  refine (reduces_S4096x128_S4096.fold_filter_drop_single _ _ v (ix1 r)).trans ?_
  show (Finset.univ : Finset (Fin 128)).fold min (Ideal.ofBits .f32 0x7F800000#32) (fun l => v (reduces_S4096x128_S4096.lift (ix1 r) l)) = _
  rw [ofBits_inf_f32]
  refine (fold_min_top (Finset.univ : Finset (Fin 128)) _).trans ?_
  exact Finset.inf_congr rfl fun l _ => congrArg v (rowLift r l)

/-- An [a] vector cast to an [a, 1] column reads, at (i, u), the vector at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu]; omega)

/-- A chunk's distances folded over its four lane groups: entry (r, l) is the least of columns l, 128 + l, 256 + l, 384 + l of row r. -/
theorem laneFold_apply (D : FVec Ideal S4096x512 .f32) (r : Fin 4096) (l : Fin 128) :
    laneFold (F := Ideal) D (ix2 r l)
      = min (min (min (D (ix2 r ⟨l, by omega⟩)) (D (ix2 r ⟨128 + l, by omega⟩))) (D (ix2 r ⟨256 + l, by omega⟩)))
          (D (ix2 r ⟨384 + l, by omega⟩)) := by
  have e0 := slice2_axis1_apply 0 D slices_S4096x512_o0_0_S4096x128 r l ⟨l, by omega⟩ (Nat.zero_add _).symm
  have e1 := slice2_axis1_apply 128 D slices_S4096x512_o0_128_S4096x128 r l ⟨128 + l, by omega⟩ rfl
  have e2 := slice2_axis1_apply 256 D slices_S4096x512_o0_256_S4096x128 r l ⟨256 + l, by omega⟩ rfl
  have e3 := slice2_axis1_apply 384 D slices_S4096x512_o0_384_S4096x128 r l ⟨384 + l, by omega⟩ rfl
  unfold laneFold
  show min (min (min _ _) _) _ = _
  rw [e0, e1, e2, e3]

/-- At row block 0 the running column minima become the fresh ones. -/
theorem updMin_one_apply (cm : FVec Ideal S1x512 .f32) (cur : Vec Ideal S1x512 .f32) (q : Fin 512) :
    updMin (F := Ideal) 1#1 cm cur (ix2 0 q) = cm (ix2 0 q) := by
  unfold updMin
  rw [shapeCast_self, select_one]

/-- At a later row block they are the smaller of the running and the fresh. -/
theorem updMin_zero_apply (cm : FVec Ideal S1x512 .f32) (cur : Vec Ideal S1x512 .f32) (q : Fin 512) :
    updMin (F := Ideal) 0#1 cm cur (ix2 0 q) = min (cur (ix2 0 q)) (cm (ix2 0 q)) := by
  unfold updMin
  rw [shapeCast_self, select_zero]
  rfl

end Cert.KernelIdeal.Body

end
-- ==== Proof.IdealReads3.lean ====
/-
  The two stores of totals read at their one index. The row side: the running total plus, over the 4096 rows of the
  block, the row's least distance (an infimum over the 128 lanes of the folded distances) clamped at 0. The final
  store: that total plus, over the 8192 columns, the column's least distance clamped at 0, divided by 16384. The
  clamps come after the minima. The payloads are first identified with named pieces at every float instance, and the
  pieces are then read at the ideal one.
-/
import proofs.«176257_g9887014716187_cont_9to1c4b_714_27_alg».proof.Proof.IdealReads2
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Idealize.ShloMosaic Idealize.SL.Sem Idealize.ShloMosaic.ValueIdx
open Cert.KernelIdeal Cert.KernelIdeal.Gen

section Pieces
variable {F : FTy → Type} [FloatOps F]

/-- Every row's minimum over its 128 lanes, from +∞, as a [4096, 1] column. -/
def rowMinCol (v : FVec F S4096x128 .f32) : FVec F S4096x1 .f32 :=
  shapeCast S4096x1 (multiReduction .minimumf [1] S4096 v 0x7F800000#32 reduces_S4096x128_S4096 (.inl rfl) rfl) shapeCasts_S4096_S4096x1

/-- The clamp at zero: the larger of each entry and 0. -/
def clamp0 {s : Shape} (w : FVec F s .f32) : FVec F s .f32 :=
  maximumf w (broadcast s (Scalar.ofBits .f32 0x00000000#32))

/-- The total of a [4096, 1] column: summed as a [1, 4096, 1] array over its last two axes and read back as a scalar. -/
def rowTotal (w : FVec F S4096x1 .f32) : F .f32 :=
  extractAt ![0, 0, 0] (shapeCast S1x1x1 (multiReduction .add [1, 2] S1 (shapeCast S1x4096x1 w shapeCasts_S4096x1_S1x4096x1) 0x00000000#32 reduces_S1x4096x1_S1 (.inl rfl) rfl) shapeCasts_S1_S1x1x1) inpos_S1x1x1_p0_0_0

/-- The store into the running total, in these pieces. -/
theorem pay2_eq (v383 : FVec F S4096x128 .f32) (v397 : Vec F S1x1 .f32) :
    k0_pay2 v383 v397 = shapeCast S1x1 (addf v397 (broadcast S1x1 (rowTotal (clamp0 (rowMinCol v383))))) shapeCasts_S1x1_S1x1 := rfl

end Pieces

/-- The shape [1, 1] has one index. -/
theorem eq_ix2_00 (y : S1x1.Idx) : y = ix2 0 0 := by
  funext c; apply Fin.ext
  match c with
  | ⟨0, _⟩ => show (y 0).val = 0; have h : (y 0).val < 1 := (y 0).isLt; omega
  | ⟨1, _⟩ => show (y 1).val = 0; have h : (y 1).val < 1 := (y 1).isLt; omega

/-- A [4096] vector cast to a [4096, 1] column reads, at (r, u), the vector at r. -/
theorem colCast_apply {α : Type} (x : S4096.Idx → α) (r : Fin 4096) (u : Fin 1) :
    shapeCast S4096x1 x shapeCasts_S4096_S4096x1 (ix2 r u) = x (ix1 r) :=
  shapeCast_a_a1_apply x shapeCasts_S4096_S4096x1 r u

/-- The column of row minima at (r, u): the infimum of row r. -/
theorem rowMinCol_apply (v : FVec Ideal S4096x128 .f32) (r : Fin 4096) (u : Fin 1) :
    rowMinCol (F := Ideal) v (ix2 r u) = Finset.univ.inf fun l : Fin 128 => v (ix2 r l) := by
  unfold rowMinCol
  exact (colCast_apply _ r u).trans (rowMin_apply v r)

/-- The clamp at an index: the larger of the entry and 0. -/
theorem clamp0_apply {s : Shape} (w : FVec Ideal s .f32) (i : s.Idx) : clamp0 (F := Ideal) w i = max (w i) 0 := by
  unfold clamp0
  rw [maximumf_apply, broadcast_apply]
  exact congrArg (max (w i)) Ideal.ofBits_zero_f32

/-- The indices of a [1, 4096, 1] array are its 4096 rows. -/
def rowsEquiv : Fin 4096 ≃ S1x4096x1.Idx where
  toFun r := ix3 (0 : Fin 1) r (0 : Fin 1)
  invFun i := i 1
  left_inv r := rfl
  right_inv i := by
    funext c; apply Fin.ext
    match c with
    | ⟨0, _⟩ => show 0 = (i 0).val; have h : (i 0).val < 1 := (i 0).isLt; omega
    | ⟨1, _⟩ => rfl
    | ⟨2, _⟩ => show 0 = (i 2).val; have h : (i 2).val < 1 := (i 2).isLt; omega

/-- The total of a column is the sum over its rows. -/
theorem rowTotal_apply (w : FVec Ideal S4096x1 .f32) : rowTotal (F := Ideal) w = ∑ r : Fin 4096, w (ix2 r 0) := by
  unfold rowTotal extractAt
  refine (shapeCast_apply _ shapeCasts_S1_S1x1x1 _ (ix1 (0 : Fin 1)) (by
    rw [Shape.rowMajor_val_one, Shape.rowMajor_val_three]; rfl)).trans ?_
  refine (Ideal.multiReduction_add_total _ 0x00000000#32 reduces_S1x4096x1_S1 (fun b => by match b with | ⟨0, _⟩ => rfl) (.inl rfl) rfl (ix1 (0 : Fin 1))).trans ?_
  rw [← Equiv.sum_comp rowsEquiv]
  exact Finset.sum_congr rfl fun r _ => shapeCast_ab_1ab_apply w shapeCasts_S4096x1_S1x4096x1 0 r 0

/-- The store into the running total: the previous total plus, over the 4096 rows, the row's least distance clamped at 0. -/
theorem pay2_apply (v383 : FVec Ideal S4096x128 .f32) (v397 : Vec Ideal S1x1 .f32) :
    k0_pay2 (F := Ideal) v383 v397 (ix2 0 0)
      = v397 (ix2 0 0) + ∑ r : Fin 4096, max (Finset.univ.inf fun l : Fin 128 => v383 (ix2 r l)) 0 := by
  rw [pay2_eq, shapeCast_self, addf_apply, broadcast_apply, rowTotal_apply]
  refine congrArg (v397 (ix2 0 0) + ·) (Finset.sum_congr rfl fun r _ => ?_)
  rw [clamp0_apply, rowMinCol_apply]

section Pieces3
variable {F : FTy → Type} [FloatOps F]

/-- The total of a [1, 8192] row: summed as a [1, 1, 8192] array over its last two axes and read back as a scalar. -/
def colTotal (w : FVec F S1x8192 .f32) : F .f32 :=
  extractAt ![0, 0, 0] (shapeCast S1x1x1 (multiReduction .add [1, 2] S1 (shapeCast S1x1x8192 w shapeCasts_S1x8192_S1x1x8192) 0x00000000#32 reduces_S1x1x8192_S1 (.inl rfl) rfl) shapeCasts_S1_S1x1x1) inpos_S1x1x1_p0_0_0

/-- The final store, in these pieces. -/
theorem pay3_eq (v414 : Vec F S1x1 .f32) (v415 : Vec F S1x8192 .f32) :
    k0_pay3 v414 v415 = divf (addf v414 (broadcast S1x1 (colTotal (clamp0 v415)))) (broadcast S1x1 (Scalar.ofBits .f32 0x46800000#32)) := rfl

end Pieces3

/-- The indices of a [1, 1, 8192] array are its 8192 columns. -/
def colsEquiv : Fin 8192 ≃ S1x1x8192.Idx where
  toFun j := ix3 (0 : Fin 1) (0 : Fin 1) j
  invFun i := i 2
  left_inv j := rfl
  right_inv i := by
    funext c; apply Fin.ext
    match c with
    | ⟨0, _⟩ => show 0 = (i 0).val; have h : (i 0).val < 1 := (i 0).isLt; omega
    | ⟨1, _⟩ => show 0 = (i 1).val; have h : (i 1).val < 1 := (i 1).isLt; omega
    | ⟨2, _⟩ => rfl

/-- The total of a row is the sum over its columns. -/
theorem colTotal_apply (w : FVec Ideal S1x8192 .f32) : colTotal (F := Ideal) w = ∑ j : Fin 8192, w (ix2 0 j) := by
  unfold colTotal extractAt
  refine (shapeCast_apply _ shapeCasts_S1_S1x1x1 _ (ix1 (0 : Fin 1)) (by
    rw [Shape.rowMajor_val_one, Shape.rowMajor_val_three]; rfl)).trans ?_
  refine (Ideal.multiReduction_add_total _ 0x00000000#32 reduces_S1x1x8192_S1 (fun b => by match b with | ⟨0, _⟩ => rfl) (.inl rfl) rfl (ix1 (0 : Fin 1))).trans ?_
  rw [← Equiv.sum_comp colsEquiv]
  exact Finset.sum_congr rfl fun j _ => shapeCast_ab_1ab_apply w shapeCasts_S1x8192_S1x1x8192 0 0 j

/-- The final store: the row total plus, over the 8192 columns, the column's least distance clamped at 0, divided by the word of 16384. -/
theorem pay3_apply (v414 : Vec Ideal S1x1 .f32) (v415 : Vec Ideal S1x8192 .f32) :
    k0_pay3 (F := Ideal) v414 v415 (ix2 0 0)
      = Ideal.div (v414 (ix2 0 0) + ∑ j : Fin 8192, max (v415 (ix2 0 j)) 0) (Ideal.ofBits .f32 0x46800000#32) := by
  rw [pay3_eq, divf_apply, addf_apply, broadcast_apply, broadcast_apply, colTotal_apply]
  exact congrArg₂ Ideal.div (congrArg (v414 (ix2 0 0) + ·) (Finset.sum_congr rfl fun j _ => clamp0_apply _ _)) rfl

end Cert.KernelIdeal.Body

end
-- ==== Proof.IdealValueTop.lean ====
/-
  From the frame run to the kernel's result: the result array is one [1, 1] block, written back once, after the
  last point, so it ends at what that point stored; and @main's last line re-lays that array as a scalar.
-/
import proofs.«176257_g9887014716187_cont_9to1c4b_714_27_alg».proof.Proof.IdealFrame2
import proofs.«176257_g9887014716187_cont_9to1c4b_714_27_alg».proof.Proof.IdealReads3
import Idealize.ShloMosaic.Lib.Pipeline.Value
import Idealize.ShloMosaic.Lib.StableHlo.Run

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the last point stores into the result's block. -/
def outv (c : Dev nD) : Vec F S1x1 .f32 := VO.read (Elt F) (VO.writes (Elt F) VO.junk (pB m c).1)

theorem idx11 (y z : S1x1.Idx) : y = z := (eq_ix2_00 y).trans (eq_ix2_00 z).symm

/-- The one point that writes the result back is the last. -/
theorem flush_last (t : Fin cfg0.N) (hf : (cfg0.win 2).flush t = true) : t = t0_1 := by
  rcases fin_N0 t with rfl | rfl
  · exact absurd ((flush0_2 _).mp hf) (by decide)
  · rfl

/-- What it writes back is the stored block. -/
theorem flushed_last (c : Dev nD) (t : Fin cfg0.N) (hf : (cfg0.win 2).flush t = true) :
    (dats m 0 c).flushed 2 t = ((cfg0.win 2).blk t).view.read (Elt F) (outv m c) := by
  obtain rfl := flush_last t hf
  show (cfg0.win 2).cut (grid0.coords t0_1) ((dats m 0 c).after 2 t0_1) = _
  rw [after2]
  funext y
  show outv m c y = outv m c (((cfg0.win 2).blk t0_1).view.emb y)
  exact congrArg (outv m c) (idx11 _ _)

theorem mem_blk (t : Fin cfg0.N) (i : S1x1.Idx) :
    i ∈ ((cfg0.win 2).blk t).view.set ↔ ∀ a : Fin 2, win0_2.index t a * S1x1.size a ≤ (i a).val ∧ (i a).val < win0_2.index t a * S1x1.size a + S1x1.size a := by
  show i ∈ ((View.whole main_call0_v0).slice (win0_2.rect t)).set ↔ _
  rw [View.set_slice_whole, Rect.mem_set_unit]
  exact Iff.rfl

theorem idx_last : ∀ a : Fin 2, win0_2.index t0_1 a = 0 := by decide +kernel

/-- The result array after the run. -/
theorem final2 (c : Dev nD) : (dats m 0 c).arrAt 2 cfg0.N = outv m c :=
  (dats m 0 c).arrAt_eq_of_cover 2 (outv m c) (fun t hf => flushed_last m c t hf) (fun i =>
    ⟨t0_1, (flush0_2 t0_1).mpr rfl, (mem_blk t0_1 i).mpr fun a => by
      rw [idx_last a]
      have hs : S1x1.size a = 1 := by fin_cases a <;> rfl
      have hi : (i a).val < S1x1.size a := (i a).isLt
      rw [hs] at hi
      omega⟩)

/-- @main's last line re-lays the [1, 1] result array as a scalar. -/
theorem tail_value (c : Dev nD) : Pipeline.afterTail₀ cfgs (dats m) 0 (V0 m) [hostOps1] c main_v0 = fun _ => outv m c (ix2 0 0) := by
  unfold Pipeline.afterTail₀
  show StableHlo.after hostOps1 _ (Proc.devRef .tc main_v0) = _
  after_results
  funext i
  dsimp only
  rw [show Pipeline.withArrays (cfgs 0).spec c (V0 m c) (fun w => (dats m 0 c).arrAt w (cfgs 0).N) (Proc.devRef .tc main_call0_v0) = (dats m 0 c).arrAt 2 cfg0.N from Pipeline.withArrays_arr spec0 launch0.win.arr_inj c _ _ 2]
  rw [final2]
  unfold shapeCast
  exact congrArg (outv m c) (idx11 _ _)

/-- The kernel's run re-posted: the scalar result at what the last point stored, the two arguments unchanged. -/
theorem kernel_run : θ_run defs (onTc (τ := τ) (main (F := F))) ⟨m, fun _ => 0, ρ⟩ (fun r => ∀ c : Dev nD,
      r.2.mem ((c.tc : Thread nD τ).loc main_v0) = (fun _ => outv m c (ix2 0 0))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h c).2 main_v0 (Pipeline.mem_restRefs_of main_v0 rfl (fun w => by fin_cases w <;> decide))).trans (tail_value m c),
     ((h c).1 0).trans (((dats m 0 c).arrAt_in 0 rfl _).trans ((A_eq m c 0).trans (V_main_arg0 m c))),
     ((h c).1 1).trans (((dats m 0 c).arrAt_in 1 rfl _).trans ((A_eq m c 1).trans (V_main_arg1 m c)))⟩)
    (run_main m ρ)

end Cert.KernelIdeal.Body

end
-- ==== Proof.IdealChunks.lean ====
/-
  The sixteen 512-column chunks the chamfer body works through, named uniformly in the chunk's number g:
  where chunk g of the running column minima sits in its [1, 8192] buffer (row 0, columns 512 g … 512 g + 511),
  and the operands of chunk g's product at each of the two grid points — the augmented row operand x~ and rows
  512 g … 512 g + 511 of the augmented column operand y~ — together with chunk g of the running column minima as
  the last point loads it.
-/
import proofs.«176257_g9887014716187_cont_9to1c4b_714_27_alg».proof.Proof.IdealRunA
import proofs.«176257_g9887014716187_cont_9to1c4b_714_27_alg».proof.Proof.IdealRunB
import Idealize.ShloMosaic.Lib.ValueIdx

set_option maxRecDepth 16384

noncomputable section

namespace Cert.KernelIdeal.Body

open Idealize.ShloMosaic Idealize.ShloMosaic.TcCoe Idealize.ShloMosaic.ValueIdx
open Idealize.SL.Sem
open Cert.KernelIdeal Cert.KernelIdeal.Gen

variable {F : FTy → Type} [FloatOps F]

/-! ## The sixteen chunks of the running column minima -/

/-- The offsets of the sixteen chunk stores into the running column minima, as the kernel computes them. -/
def offC (i : grid0.Coords) : Fin 16 → Fin 2 → ℕ :=
  ![k0_off10 i, k0_off11 i, k0_off12 i, k0_off13 i, k0_off14 i, k0_off15 i, k0_off16 i, k0_off17 i, k0_off18 i, k0_off19 i, k0_off20 i, k0_off21 i, k0_off22 i, k0_off23 i, k0_off24 i, k0_off25 i]

/-- Chunk `g` starts at row 0, column 512 g. -/
theorem offC_eq : ∀ (i : grid0.Coords) (g : Fin 16), offC i g = ![0, g.val * 512] := by decide +kernel

/-- Every chunk lies inside the buffer. -/
theorem inbC (i : grid0.Coords) : ∀ (g : Fin 16) (a : Fin 2), offC i g a + S1x512.size a ≤ S1x8192.size a :=
  Fin.cases (k0_off10_inb i) <| Fin.cases (k0_off11_inb i) <| Fin.cases (k0_off12_inb i) <| Fin.cases (k0_off13_inb i) <|
  Fin.cases (k0_off14_inb i) <| Fin.cases (k0_off15_inb i) <| Fin.cases (k0_off16_inb i) <| Fin.cases (k0_off17_inb i) <|
  Fin.cases (k0_off18_inb i) <| Fin.cases (k0_off19_inb i) <| Fin.cases (k0_off20_inb i) <| Fin.cases (k0_off21_inb i) <|
  Fin.cases (k0_off22_inb i) <| Fin.cases (k0_off23_inb i) <| Fin.cases (k0_off24_inb i) <| Fin.cases (k0_off25_inb i) <|
  fun g => g.elim0

/-- Column 512 g + q of the buffer, for a chunk `g` and a column `q` of the chunk. -/
abbrev colIdx (g : Fin 16) (q : Fin 512) : S1x8192.Idx := ix2 (0 : Fin 1) (⟨g.val * 512 + q.val, by omega⟩ : Fin 8192)

/-! ## The first point -/
/-- The augmented row operand the first point's products read. -/
abbrev xA (c : Dev nD) (i : grid0.Coords) (arg2 : Memref sig .tc .vmem S8192x128 .f32) (harg2 : arg2.IsWhole)
    (arg5 : Memref sig .tc .vmem S4096x256 .bf16) (hc2 : cond2 i) (x0 : Vec F S8192x128 .f32) : Vec F S4096x256 .bf16 :=
  runA.sl.v11 c i arg2 harg2 arg5 hc2 x0

/-- Chunk `g` of the augmented column operand as the first point loads it: rows 512 g … 512 g + 511. -/
def yA (c : Dev nD) (i : grid0.Coords) (arg3 : Memref sig .tc .vmem S8192x128 .f32) (harg3 : arg3.IsWhole)
    (arg6 : Memref sig .tc .vmem S8192x256 .bf16) (hc3 : cond3 i) (x1 : Vec F S8192x128 .f32) (g : Fin 16) : Vec F S512x256 .bf16 :=
  arg6.view.readCov (runA.sl.H6_6 c i arg3 harg3 hc3 x1)
    (Rect.unit (s := S8192x256) (k0_off9 i (BitVec.ofNat 32 (512 * g.val))) S512x256.size (k0_off9_inb i g)).toLoadRect

/-! The first point's sixteen loads of y~ are the chunks in order. -/
theorem yA_0 (c : Dev nD) (i : grid0.Coords) (arg3 : Memref sig .tc .vmem S8192x128 .f32) (harg3 : arg3.IsWhole) (arg6 : Memref sig .tc .vmem S8192x256 .bf16) (hc3 : cond3 i) (x1 : Vec F S8192x128 .f32) :
    runA.sl.v15 c i arg3 harg3 arg6 hc3 x1 = yA c i arg3 harg3 arg6 hc3 x1 0 := rfl
theorem yA_1 (c : Dev nD) (i : grid0.Coords) (arg3 : Memref sig .tc .vmem S8192x128 .f32) (harg3 : arg3.IsWhole) (arg6 : Memref sig .tc .vmem S8192x256 .bf16) (hc3 : cond3 i) (x1 : Vec F S8192x128 .f32) :
    runA.sl.v20 c i arg3 harg3 arg6 hc3 x1 = yA c i arg3 harg3 arg6 hc3 x1 1 := rfl
theorem yA_2 (c : Dev nD) (i : grid0.Coords) (arg3 : Memref sig .tc .vmem S8192x128 .f32) (harg3 : arg3.IsWhole) (arg6 : Memref sig .tc .vmem S8192x256 .bf16) (hc3 : cond3 i) (x1 : Vec F S8192x128 .f32) :
    runA.sl.v43 c i arg3 harg3 arg6 hc3 x1 = yA c i arg3 harg3 arg6 hc3 x1 2 := rfl
theorem yA_3 (c : Dev nD) (i : grid0.Coords) (arg3 : Memref sig .tc .vmem S8192x128 .f32) (harg3 : arg3.IsWhole) (arg6 : Memref sig .tc .vmem S8192x256 .bf16) (hc3 : cond3 i) (x1 : Vec F S8192x128 .f32) :
    runA.sl.v67 c i arg3 harg3 arg6 hc3 x1 = yA c i arg3 harg3 arg6 hc3 x1 3 := rfl
theorem yA_4 (c : Dev nD) (i : grid0.Coords) (arg3 : Memref sig .tc .vmem S8192x128 .f32) (harg3 : arg3.IsWhole) (arg6 : Memref sig .tc .vmem S8192x256 .bf16) (hc3 : cond3 i) (x1 : Vec F S8192x128 .f32) :
    runA.sl.v91 c i arg3 harg3 arg6 hc3 x1 = yA c i arg3 harg3 arg6 hc3 x1 4 := rfl
theorem yA_5 (c : Dev nD) (i : grid0.Coords) (arg3 : Memref sig .tc .vmem S8192x128 .f32) (harg3 : arg3.IsWhole) (arg6 : Memref sig .tc .vmem S8192x256 .bf16) (hc3 : cond3 i) (x1 : Vec F S8192x128 .f32) :
    runA.sl.v115 c i arg3 harg3 arg6 hc3 x1 = yA c i arg3 harg3 arg6 hc3 x1 5 := rfl
theorem yA_6 (c : Dev nD) (i : grid0.Coords) (arg3 : Memref sig .tc .vmem S8192x128 .f32) (harg3 : arg3.IsWhole) (arg6 : Memref sig .tc .vmem S8192x256 .bf16) (hc3 : cond3 i) (x1 : Vec F S8192x128 .f32) :
    runA.sl.v139 c i arg3 harg3 arg6 hc3 x1 = yA c i arg3 harg3 arg6 hc3 x1 6 := rfl
theorem yA_7 (c : Dev nD) (i : grid0.Coords) (arg3 : Memref sig .tc .vmem S8192x128 .f32) (harg3 : arg3.IsWhole) (arg6 : Memref sig .tc .vmem S8192x256 .bf16) (hc3 : cond3 i) (x1 : Vec F S8192x128 .f32) :
    runA.sl.v163 c i arg3 harg3 arg6 hc3 x1 = yA c i arg3 harg3 arg6 hc3 x1 7 := rfl
theorem yA_8 (c : Dev nD) (i : grid0.Coords) (arg3 : Memref sig .tc .vmem S8192x128 .f32) (harg3 : arg3.IsWhole) (arg6 : Memref sig .tc .vmem S8192x256 .bf16) (hc3 : cond3 i) (x1 : Vec F S8192x128 .f32) :
    runA.sl.v187 c i arg3 harg3 arg6 hc3 x1 = yA c i arg3 harg3 arg6 hc3 x1 8 := rfl
theorem yA_9 (c : Dev nD) (i : grid0.Coords) (arg3 : Memref sig .tc .vmem S8192x128 .f32) (harg3 : arg3.IsWhole) (arg6 : Memref sig .tc .vmem S8192x256 .bf16) (hc3 : cond3 i) (x1 : Vec F S8192x128 .f32) :
    runA.sl.v211 c i arg3 harg3 arg6 hc3 x1 = yA c i arg3 harg3 arg6 hc3 x1 9 := rfl
theorem yA_10 (c : Dev nD) (i : grid0.Coords) (arg3 : Memref sig .tc .vmem S8192x128 .f32) (harg3 : arg3.IsWhole) (arg6 : Memref sig .tc .vmem S8192x256 .bf16) (hc3 : cond3 i) (x1 : Vec F S8192x128 .f32) :
    runA.sl.v235 c i arg3 harg3 arg6 hc3 x1 = yA c i arg3 harg3 arg6 hc3 x1 10 := rfl
theorem yA_11 (c : Dev nD) (i : grid0.Coords) (arg3 : Memref sig .tc .vmem S8192x128 .f32) (harg3 : arg3.IsWhole) (arg6 : Memref sig .tc .vmem S8192x256 .bf16) (hc3 : cond3 i) (x1 : Vec F S8192x128 .f32) :
    runA.sl.v259 c i arg3 harg3 arg6 hc3 x1 = yA c i arg3 harg3 arg6 hc3 x1 11 := rfl
theorem yA_12 (c : Dev nD) (i : grid0.Coords) (arg3 : Memref sig .tc .vmem S8192x128 .f32) (harg3 : arg3.IsWhole) (arg6 : Memref sig .tc .vmem S8192x256 .bf16) (hc3 : cond3 i) (x1 : Vec F S8192x128 .f32) :
    runA.sl.v283 c i arg3 harg3 arg6 hc3 x1 = yA c i arg3 harg3 arg6 hc3 x1 12 := rfl
theorem yA_13 (c : Dev nD) (i : grid0.Coords) (arg3 : Memref sig .tc .vmem S8192x128 .f32) (harg3 : arg3.IsWhole) (arg6 : Memref sig .tc .vmem S8192x256 .bf16) (hc3 : cond3 i) (x1 : Vec F S8192x128 .f32) :
    runA.sl.v307 c i arg3 harg3 arg6 hc3 x1 = yA c i arg3 harg3 arg6 hc3 x1 13 := rfl
theorem yA_14 (c : Dev nD) (i : grid0.Coords) (arg3 : Memref sig .tc .vmem S8192x128 .f32) (harg3 : arg3.IsWhole) (arg6 : Memref sig .tc .vmem S8192x256 .bf16) (hc3 : cond3 i) (x1 : Vec F S8192x128 .f32) :
    runA.sl.v331 c i arg3 harg3 arg6 hc3 x1 = yA c i arg3 harg3 arg6 hc3 x1 14 := rfl
theorem yA_15 (c : Dev nD) (i : grid0.Coords) (arg3 : Memref sig .tc .vmem S8192x128 .f32) (harg3 : arg3.IsWhole) (arg6 : Memref sig .tc .vmem S8192x256 .bf16) (hc3 : cond3 i) (x1 : Vec F S8192x128 .f32) :
    runA.sl.v355 c i arg3 harg3 arg6 hc3 x1 = yA c i arg3 harg3 arg6 hc3 x1 15 := rfl

/-! ## The last point -/
/-- The augmented row operand the last point's products read. -/
abbrev xB (c : Dev nD) (i : grid0.Coords) (arg2 : Memref sig .tc .vmem S8192x128 .f32) (harg2 : arg2.IsWhole)
    (arg5 : Memref sig .tc .vmem S4096x256 .bf16) (harg5 : arg5.IsWhole) (hc2 : cond2 i) (x0 : Vec F S8192x128 .f32)
    (xs5 : Vec F S4096x256 .bf16) : Vec F S4096x256 .bf16 :=
  runB.sl.r c i arg2 harg2 arg5 harg5 hc2 x0 xs5

/-- Chunk `g` of the augmented column operand as the last point loads it: rows 512 g … 512 g + 511 of what the buffer holds. -/
def yB (i : grid0.Coords) (arg6 : Memref sig .tc .vmem S8192x256 .bf16) (harg6 : arg6.IsWhole) (xs6 : Vec F S8192x256 .bf16)
    (g : Fin 16) : Vec F S512x256 .bf16 :=
  View.readAt (Elt F) arg6.view
    (Rect.unit (s := S8192x256) (k0_off9 i (BitVec.ofNat 32 (512 * g.val))) S512x256.size (k0_off9_inb i g)).toLoadRect (harg6.unread xs6)

/-- Chunk `g` of the running column minima as the last point loads it before its store. -/
def curB (i : grid0.Coords) (arg8 : Memref sig .tc .vmem S1x8192 .f32) (harg8 : arg8.IsWhole) (xs8 : Vec F S1x8192 .f32)
    (g : Fin 16) : Vec F S1x512 .f32 :=
  View.readAt (Elt F) arg8.view (Rect.unit (s := S1x8192) (offC i g) S1x512.size (inbC i g)).toLoadRect (harg8.unread xs8)

/-- It is the buffer's contents on the chunk. -/
theorem curB_apply (i : grid0.Coords) (arg8 : Memref sig .tc .vmem S1x8192 .f32) (harg8 : arg8.IsWhole) (xs8 : Vec F S1x8192 .f32)
    (g : Fin 16) (q : Fin 512) : curB i arg8 harg8 xs8 g (ix2 (0 : Fin 1) q) = xs8 (colIdx g q) := by
  unfold curB
  rw [View.readAt_apply, harg8.read_unread]
  refine congrArg xs8 (funext fun a => Fin.ext ?_)
  show offC i g a + 1 * ((ix2 (0 : Fin 1) q : S1x512.Idx) a).val = (colIdx g q a).val
  rw [offC_eq i g, Nat.one_mul]
  match a with
  | ⟨0, _⟩ => rfl
  | ⟨1, _⟩ => rfl

/-- The last point's eighth load of y~ is chunk 7. -/
theorem yB_7 (c : Dev nD) (i : grid0.Coords) (arg6 : Memref sig .tc .vmem S8192x256 .bf16) (harg6 : arg6.IsWhole) (xs6 : Vec F S8192x256 .bf16) :
    runB.sl.r_14 c i arg6 harg6 xs6 = yB i arg6 harg6 xs6 7 := rfl

end Cert.KernelIdeal.Body

end
-- ==== Proof.IdealColsA.lean ====
/-
  The running column minima after the grid's first point (row block 0). The body's sixteen stores into the
  [1, 8192] buffer are sixteen tile stores, chunk g at columns 512 g … 512 g + 511, so a column 512 g + q reads
  chunk g's payload at q: under the bit "row block 0" the fresh column minimum, that is the infimum over the 4096
  rows of the block of chunk g's distances in column q — whatever the buffer held before.
-/
import proofs.«176257_g9887014716187_cont_9to1c4b_714_27_alg».proof.Proof.IdealChunks
import proofs.«176257_g9887014716187_cont_9to1c4b_714_27_alg».proof.Proof.IdealFolds
import proofs.«176257_g9887014716187_cont_9to1c4b_714_27_alg».proof.Proof.IdealReads2
import Idealize.ShloMosaic.Lib.WritesUnit
import Idealize.ShloMosaic.Lib.ValueIdx
import Idealize.ShloMosaic.Lib.Pipeline.Value

set_option maxRecDepth 16384

noncomputable section

namespace Cert.KernelIdeal.Body

open Idealize.ShloMosaic Idealize.ShloMosaic.TcCoe Idealize.ShloMosaic.ValueIdx
open Idealize.SL.Sem
open Cert.KernelIdeal Cert.KernelIdeal.Gen

variable {F : FTy → Type} [FloatOps F]

/-! ## Where a column sits among the chunks, and the select bit -/

/-- Chunk `g`, column `q` of the chunk is column 512 g + q of the buffer, in the tile's coordinates … -/
theorem colIdx_in (i : grid0.Coords) (g : Fin 16) (q : Fin 512) :
    ∀ a, (colIdx g q a).val = offC i g a + ((ix2 (0 : Fin 1) q : S1x512.Idx) a).val := by
  intro a; rw [offC_eq i g]
  match a with
  | ⟨0, _⟩ => rfl
  | ⟨1, _⟩ => rfl

/-- … and lies in no other chunk. -/
theorem colIdx_out (i : grid0.Coords) (g : Fin 16) (q : Fin 512) :
    ∀ g' : Fin 16, g' ≠ g → (colIdx g q (1 : Fin 2)).val < offC i g' (1 : Fin 2)
      ∨ offC i g' (1 : Fin 2) + S1x512.size (1 : Fin 2) ≤ (colIdx g q (1 : Fin 2)).val := by
  intro g' hne
  rw [offC_eq i g']
  show g.val * 512 + q.val < g'.val * 512 ∨ g'.val * 512 + 512 ≤ g.val * 512 + q.val
  have h : g'.val ≠ g.val := fun e => hne (Fin.ext e)
  have := q.isLt
  omega

/-- At the first point the select bit "row block 0" is 1. -/
theorem bit_first : ∀ i : grid0.Coords, cond1 i → Scalar.cmpi .eq (BitVec.ofNat 32 (i 0).val) 0#32 = 1#1 := by
  decide +kernel

/-- At the last point it is 0. -/
theorem bit_last : ∀ i : grid0.Coords, cond4 i → Scalar.cmpi .eq (BitVec.ofNat 32 (i 0).val) 0#32 = 0#1 := by
  decide +kernel

/-! ## The first point's stores -/

/-- The payloads of the first point's sixteen stores into the running column minima, chunk by chunk. -/
def payA (c : Dev nD) (i : grid0.Coords) (arg2 : Memref sig .tc .vmem S8192x128 .f32) (harg2 : arg2.IsWhole) (arg3 : Memref sig .tc .vmem S8192x128 .f32) (harg3 : arg3.IsWhole) (arg5 : Memref sig .tc .vmem S4096x256 .bf16) (arg6 : Memref sig .tc .vmem S8192x256 .bf16) (arg8 : Memref sig .tc .vmem S1x8192 .f32) (harg8 : arg8.IsWhole) (hc2 : cond2 i) (hc3 : cond3 i) (x0 x1 : Vec F S8192x128 .f32) (d8 : Vec F S1x8192 .f32) : Fin 16 → FVec F S1x512 .f32 :=
  ![k0_pay27 (runA.sl.r_2 c i arg2 harg2 arg3 harg3 arg5 arg6 hc2 hc3 x0 x1) (runA.sl.v0 i) (runA.sl.r_3 c i arg2 harg2 arg3 harg3 arg5 arg6 arg8 harg8 hc2 hc3 x0 x1 d8),
    k0_pay29 (BitVec.ofNat 32 (i 0).val) (runA.sl.r c i arg2 harg2 arg3 harg3 arg5 arg6 hc2 hc3 x0 x1) (runA.sl.v56 c i arg8 harg8 d8),
    k0_pay33 (BitVec.ofNat 32 (i 0).val) (runA.sl.r_6 c i arg2 harg2 arg3 harg3 arg5 arg6 hc2 hc3 x0 x1) (runA.sl.v80 c i arg8 harg8 d8),
    k0_pay36 (BitVec.ofNat 32 (i 0).val) (runA.sl.r_4 c i arg2 harg2 arg3 harg3 arg5 arg6 hc2 hc3 x0 x1) (runA.sl.v104 c i arg8 harg8 d8),
    k0_pay39 (BitVec.ofNat 32 (i 0).val) (runA.sl.r_7 c i arg2 harg2 arg3 harg3 arg5 arg6 hc2 hc3 x0 x1) (runA.sl.v128 c i arg8 harg8 d8),
    k0_pay42 (BitVec.ofNat 32 (i 0).val) (runA.sl.r_9 c i arg2 harg2 arg3 harg3 arg5 arg6 hc2 hc3 x0 x1) (runA.sl.v152 c i arg8 harg8 d8),
    k0_pay44 (BitVec.ofNat 32 (i 0).val) (runA.sl.r_11 c i arg2 harg2 arg3 harg3 arg5 arg6 hc2 hc3 x0 x1) (runA.sl.v176 c i arg8 harg8 d8),
    k0_pay47 (BitVec.ofNat 32 (i 0).val) (runA.sl.v11 c i arg2 harg2 arg5 hc2 x0) (runA.sl.v163 c i arg3 harg3 arg6 hc3 x1) runA.sl.cst_48 (runA.sl.v200 c i arg8 harg8 d8),
    k0_pay49 (BitVec.ofNat 32 (i 0).val) (runA.sl.r_13 c i arg2 harg2 arg3 harg3 arg5 arg6 hc2 hc3 x0 x1) (runA.sl.v224 c i arg8 harg8 d8),
    k0_pay53 (runA.sl.r_17 c i arg2 harg2 arg3 harg3 arg5 arg6 arg8 harg8 hc2 hc3 x0 x1 d8),
    k0_pay55 (BitVec.ofNat 32 (i 0).val) (runA.sl.r_15 c i arg2 harg2 arg3 harg3 arg5 arg6 hc2 hc3 x0 x1) (runA.sl.v272 c i arg8 harg8 d8),
    k0_pay59 (BitVec.ofNat 32 (i 0).val) (runA.sl.r_20 c i arg2 harg2 arg3 harg3 arg5 arg6 hc2 hc3 x0 x1) (runA.sl.v296 c i arg8 harg8 d8),
    k0_pay61 (BitVec.ofNat 32 (i 0).val) (runA.sl.r_18 c i arg2 harg2 arg3 harg3 arg5 arg6 hc2 hc3 x0 x1) (runA.sl.v320 c i arg8 harg8 d8),
    k0_pay64 (BitVec.ofNat 32 (i 0).val) (runA.sl.r_21 c i arg2 harg2 arg3 harg3 arg5 arg6 hc2 hc3 x0 x1) (runA.sl.v344 c i arg8 harg8 d8),
    k0_pay66 (BitVec.ofNat 32 (i 0).val) (runA.sl.r_22 c i arg2 harg2 arg3 harg3 arg5 arg6 hc2 hc3 x0 x1) (runA.sl.v368 c i arg8 harg8 d8),
    k0_pay1 (BitVec.ofNat 32 (i 0).val) (runA.sl.r_25 c i arg2 harg2 arg3 harg3 arg5 arg6 hc2 hc3 x0 x1) (runA.sl.v387 c i arg8 harg8 d8)]

/-- The first point's stores into the running column minima are sixteen tile stores, chunk 15 the newest. -/
theorem listA_eq (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S1x1 .f32) (harg4 : arg4.IsWhole) (arg5 : Memref sig .tc .vmem S4096x256 .bf16) (harg5 : arg5.IsWhole) (arg6 : Memref sig .tc .vmem S8192x256 .bf16) (harg6 : arg6.IsWhole) (arg7 : Memref sig .tc .vmem S4096x128 .f32) (harg7 : arg7.IsWhole) (arg8 : Memref sig .tc .vmem S1x8192 .f32) (harg8 : arg8.IsWhole) (arg9 : Memref sig .tc .vmem S1x1 .f32) (harg9 : arg9.IsWhole) (hc1 : cond1 i) (hc2 : cond2 i) (hc3 : cond3 i) (hc4 : ¬cond4 i) (x0 x1 : Vec F S8192x128 .f32) (d5 : Vec F S4096x256 .bf16) (d6 : Vec F S8192x256 .bf16) (d8 : Vec F S1x8192 .f32) (d9 : Vec F S1x1 .f32) :
    (runA c i arg2 harg2 arg3 harg3 arg4 harg4 arg5 harg5 arg6 harg6 arg7 harg7 arg8 harg8 arg9 harg9 hc1 hc2 hc3 hc4 x0 x1 d5 d6 d8 d9).2.2.1
      = View.tilePieces (s := S1x8192) (e := .f32) (Val := Elt F) S1x512.size (offC i) (inbC i)
          (payA c i arg2 harg2 arg3 harg3 arg5 arg6 arg8 harg8 hc2 hc3 x0 x1 d8) 16 (Nat.le_refl 16) := rfl

/-- Each payload is the update of the chunk's running minima by the chunk's column minima over this row block. -/
theorem payA_eq (c : Dev nD) (i : grid0.Coords) (arg2 : Memref sig .tc .vmem S8192x128 .f32) (harg2 : arg2.IsWhole) (arg3 : Memref sig .tc .vmem S8192x128 .f32) (harg3 : arg3.IsWhole) (arg5 : Memref sig .tc .vmem S4096x256 .bf16) (arg6 : Memref sig .tc .vmem S8192x256 .bf16) (arg8 : Memref sig .tc .vmem S1x8192 .f32) (harg8 : arg8.IsWhole) (hc2 : cond2 i) (hc3 : cond3 i) (x0 x1 : Vec F S8192x128 .f32) (d8 : Vec F S1x8192 .f32) (g : Fin 16) :
    ∃ cur : Vec F S1x512 .f32, payA c i arg2 harg2 arg3 harg3 arg5 arg6 arg8 harg8 hc2 hc3 x0 x1 d8 g
      = updMin (Scalar.cmpi .eq (BitVec.ofNat 32 (i 0).val) 0#32)
          (colMin (chunkDist (xA c i arg2 harg2 arg5 hc2 x0) (yA c i arg3 harg3 arg6 hc3 x1 g))) cur := by
  fin_cases g <;> exact ⟨_, rfl⟩
/-- After the first point, whatever the buffer held, column 512 g + q of the running column minima is the infimum
    over the 4096 rows of this row block of chunk `g`'s distances in column `q`. -/
theorem colsA_read (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S1x1 .f32) (harg4 : arg4.IsWhole) (arg5 : Memref sig .tc .vmem S4096x256 .bf16) (harg5 : arg5.IsWhole) (arg6 : Memref sig .tc .vmem S8192x256 .bf16) (harg6 : arg6.IsWhole) (arg7 : Memref sig .tc .vmem S4096x128 .f32) (harg7 : arg7.IsWhole) (arg8 : Memref sig .tc .vmem S1x8192 .f32) (harg8 : arg8.IsWhole) (arg9 : Memref sig .tc .vmem S1x1 .f32) (harg9 : arg9.IsWhole) (hc1 : cond1 i) (hc2 : cond2 i) (hc3 : cond3 i) (hc4 : ¬cond4 i) (x0 x1 : Vec Ideal S8192x128 .f32) (d5 : Vec Ideal S4096x256 .bf16) (d6 : Vec Ideal S8192x256 .bf16) (d8 : Vec Ideal S1x8192 .f32) (d9 : Vec Ideal S1x1 .f32)
    (f : arg8.view.ty.Contents (Elt Ideal)) (g : Fin 16) (q : Fin 512) :
    arg8.view.read (Elt Ideal) (arg8.view.writes (Elt Ideal) f (runA c i arg2 harg2 arg3 harg3 arg4 harg4 arg5 harg5 arg6 harg6 arg7 harg7 arg8 harg8 arg9 harg9 hc1 hc2 hc3 hc4 x0 x1 d5 d6 d8 d9).2.2.1) (colIdx g q)
      = Finset.univ.inf fun r : Fin 4096 =>
          chunkDist (xA c i arg2 harg2 arg5 hc2 x0) (yA c i arg3 harg3 arg6 hc3 x1 g) (ix2 r q) := by
  rw [listA_eq]
  refine (View.read_tilePieces arg8.view f S1x512.size (offC i) (inbC i) (payA c i arg2 harg2 arg3 harg3 arg5 arg6 arg8 harg8 hc2 hc3 x0 x1 d8) 16 (Nat.le_refl 16)
    (colIdx g q) g g.isLt (ix2 (0 : Fin 1) q) (colIdx_in i g q) (1 : Fin 2) (colIdx_out i g q)).trans ?_
  obtain ⟨cur, hp⟩ := payA_eq c i arg2 harg2 arg3 harg3 arg5 arg6 arg8 harg8 hc2 hc3 x0 x1 d8 g
  rw [hp, bit_first i hc1, updMin_one_apply, colMin_apply]

end Cert.KernelIdeal.Body

end
-- ==== Proof.IdealColsB.lean ====
/-
  The running column minima after the grid's last point (row block 1). The body's sixteen stores into the
  [1, 8192] buffer are sixteen tile stores, chunk g at columns 512 g … 512 g + 511, so the whole-buffer load that
  follows reads, at column 512 g + q, chunk g's payload at q: the bit "row block 0" being 0, the smaller of what
  the buffer held there and the infimum over the 4096 rows of the block of chunk g's distances in column q.
-/
import proofs.«176257_g9887014716187_cont_9to1c4b_714_27_alg».proof.Proof.IdealColsA
import Idealize.ShloMosaic.Lib.WritesUnit
import Idealize.ShloMosaic.Lib.ValueIdx
import Idealize.ShloMosaic.Lib.Pipeline.Value

set_option maxRecDepth 16384

noncomputable section

namespace Cert.KernelIdeal.Body

open Idealize.ShloMosaic Idealize.ShloMosaic.TcCoe Idealize.ShloMosaic.ValueIdx
open Idealize.SL.Sem
open Cert.KernelIdeal Cert.KernelIdeal.Gen

variable {F : FTy → Type} [FloatOps F]

/-- The payloads of the last point's sixteen stores into the running column minima, chunk by chunk. -/
def payB (c : Dev nD) (i : grid0.Coords) (arg2 : Memref sig .tc .vmem S8192x128 .f32) (harg2 : arg2.IsWhole) (arg5 : Memref sig .tc .vmem S4096x256 .bf16) (harg5 : arg5.IsWhole) (arg6 : Memref sig .tc .vmem S8192x256 .bf16) (harg6 : arg6.IsWhole) (arg8 : Memref sig .tc .vmem S1x8192 .f32) (harg8 : arg8.IsWhole) (hc2 : cond2 i) (x0 : Vec F S8192x128 .f32) (xs5 : Vec F S4096x256 .bf16) (xs6 : Vec F S8192x256 .bf16) (xs8 : Vec F S1x8192 .f32) : Fin 16 → FVec F S1x512 .f32 :=
  ![k0_pay27 (runB.sl.r_3 c i arg2 harg2 arg5 harg5 arg6 harg6 hc2 x0 xs5 xs6) (runB.sl.v0 i) (runB.sl.r_4 c i arg2 harg2 arg5 harg5 arg6 harg6 arg8 harg8 hc2 x0 xs5 xs6 xs8),
    k0_pay29 (BitVec.ofNat 32 (i 0).val) (runB.sl.r_1 c i arg2 harg2 arg5 harg5 arg6 harg6 hc2 x0 xs5 xs6) (runB.sl.v56 c i arg8 harg8 xs8),
    k0_pay33 (BitVec.ofNat 32 (i 0).val) (runB.sl.r_7 c i arg2 harg2 arg5 harg5 arg6 harg6 hc2 x0 xs5 xs6) (runB.sl.v80 c i arg8 harg8 xs8),
    k0_pay36 (BitVec.ofNat 32 (i 0).val) (runB.sl.r_5 c i arg2 harg2 arg5 harg5 arg6 harg6 hc2 x0 xs5 xs6) (runB.sl.v104 c i arg8 harg8 xs8),
    k0_pay39 (BitVec.ofNat 32 (i 0).val) (runB.sl.r_8 c i arg2 harg2 arg5 harg5 arg6 harg6 hc2 x0 xs5 xs6) (runB.sl.v128 c i arg8 harg8 xs8),
    k0_pay42 (BitVec.ofNat 32 (i 0).val) (runB.sl.r_10 c i arg2 harg2 arg5 harg5 arg6 harg6 hc2 x0 xs5 xs6) (runB.sl.v152 c i arg8 harg8 xs8),
    k0_pay44 (BitVec.ofNat 32 (i 0).val) (runB.sl.r_12 c i arg2 harg2 arg5 harg5 arg6 harg6 hc2 x0 xs5 xs6) (runB.sl.v176 c i arg8 harg8 xs8),
    k0_pay47 (BitVec.ofNat 32 (i 0).val) (runB.sl.r c i arg2 harg2 arg5 harg5 hc2 x0 xs5) (runB.sl.r_14 c i arg6 harg6 xs6) runB.sl.cst_48 (runB.sl.v200 c i arg8 harg8 xs8),
    k0_pay49 (BitVec.ofNat 32 (i 0).val) (runB.sl.r_15 c i arg2 harg2 arg5 harg5 arg6 harg6 hc2 x0 xs5 xs6) (runB.sl.v224 c i arg8 harg8 xs8),
    k0_pay53 (runB.sl.r_19 c i arg2 harg2 arg5 harg5 arg6 harg6 arg8 harg8 hc2 x0 xs5 xs6 xs8),
    k0_pay55 (BitVec.ofNat 32 (i 0).val) (runB.sl.r_17 c i arg2 harg2 arg5 harg5 arg6 harg6 hc2 x0 xs5 xs6) (runB.sl.v272 c i arg8 harg8 xs8),
    k0_pay59 (BitVec.ofNat 32 (i 0).val) (runB.sl.r_22 c i arg2 harg2 arg5 harg5 arg6 harg6 hc2 x0 xs5 xs6) (runB.sl.v296 c i arg8 harg8 xs8),
    k0_pay61 (BitVec.ofNat 32 (i 0).val) (runB.sl.r_20 c i arg2 harg2 arg5 harg5 arg6 harg6 hc2 x0 xs5 xs6) (runB.sl.v320 c i arg8 harg8 xs8),
    k0_pay64 (BitVec.ofNat 32 (i 0).val) (runB.sl.r_23 c i arg2 harg2 arg5 harg5 arg6 harg6 hc2 x0 xs5 xs6) (runB.sl.v344 c i arg8 harg8 xs8),
    k0_pay66 (BitVec.ofNat 32 (i 0).val) (runB.sl.r_24 c i arg2 harg2 arg5 harg5 arg6 harg6 hc2 x0 xs5 xs6) (runB.sl.v368 c i arg8 harg8 xs8),
    k0_pay1 (BitVec.ofNat 32 (i 0).val) (runB.sl.r_27 c i arg2 harg2 arg5 harg5 arg6 harg6 hc2 x0 xs5 xs6) (runB.sl.v387 c i arg8 harg8 xs8)]

/-- The last point's stores into the running column minima are sixteen tile stores, chunk 15 the newest. -/
theorem listB_eq (c : Dev nD) (i : grid0.Coords) (arg2 : Memref sig .tc .vmem S8192x128 .f32) (harg2 : arg2.IsWhole) (arg5 : Memref sig .tc .vmem S4096x256 .bf16) (harg5 : arg5.IsWhole) (arg6 : Memref sig .tc .vmem S8192x256 .bf16) (harg6 : arg6.IsWhole) (arg8 : Memref sig .tc .vmem S1x8192 .f32) (harg8 : arg8.IsWhole) (hc2 : cond2 i) (x0 : Vec F S8192x128 .f32) (xs5 : Vec F S4096x256 .bf16) (xs6 : Vec F S8192x256 .bf16) (xs8 : Vec F S1x8192 .f32) :
    runB.sl.H8_16 c i arg2 harg2 arg5 harg5 arg6 harg6 arg8 harg8 hc2 x0 xs5 xs6 xs8
      = View.tilePieces (s := S1x8192) (e := .f32) (Val := Elt F) S1x512.size (offC i) (inbC i) (payB c i arg2 harg2 arg5 harg5 arg6 harg6 arg8 harg8 hc2 x0 xs5 xs6 xs8) 16 (Nat.le_refl 16) := rfl

/-- Each payload is the update of the chunk's running minima by the chunk's column minima over this row block. -/
theorem payB_eq (c : Dev nD) (i : grid0.Coords) (arg2 : Memref sig .tc .vmem S8192x128 .f32) (harg2 : arg2.IsWhole) (arg5 : Memref sig .tc .vmem S4096x256 .bf16) (harg5 : arg5.IsWhole) (arg6 : Memref sig .tc .vmem S8192x256 .bf16) (harg6 : arg6.IsWhole) (arg8 : Memref sig .tc .vmem S1x8192 .f32) (harg8 : arg8.IsWhole) (hc2 : cond2 i) (x0 : Vec F S8192x128 .f32) (xs5 : Vec F S4096x256 .bf16) (xs6 : Vec F S8192x256 .bf16) (xs8 : Vec F S1x8192 .f32) (g : Fin 16) :
    payB c i arg2 harg2 arg5 harg5 arg6 harg6 arg8 harg8 hc2 x0 xs5 xs6 xs8 g
      = updMin (Scalar.cmpi .eq (BitVec.ofNat 32 (i 0).val) 0#32)
          (colMin (chunkDist (xB c i arg2 harg2 arg5 harg5 hc2 x0 xs5) (yB i arg6 harg6 xs6 g))) (curB i arg8 harg8 xs8 g) := by
  fin_cases g <;> rfl

/-- The whole-buffer load after the last point's stores reads the buffer with those stores written. -/
theorem v415_eq (c : Dev nD) (i : grid0.Coords) (arg2 : Memref sig .tc .vmem S8192x128 .f32) (harg2 : arg2.IsWhole) (arg5 : Memref sig .tc .vmem S4096x256 .bf16) (harg5 : arg5.IsWhole) (arg6 : Memref sig .tc .vmem S8192x256 .bf16) (harg6 : arg6.IsWhole) (arg8 : Memref sig .tc .vmem S1x8192 .f32) (harg8 : arg8.IsWhole) (hc2 : cond2 i) (x0 : Vec F S8192x128 .f32) (xs5 : Vec F S4096x256 .bf16) (xs6 : Vec F S8192x256 .bf16) (xs8 : Vec F S1x8192 .f32) :
    runB.sl.v415 c i arg2 harg2 arg5 harg5 arg6 harg6 arg8 harg8 hc2 x0 xs5 xs6 xs8
      = arg8.view.read (Elt F) (arg8.view.writes (Elt F) (harg8.unread xs8)
          (runB.sl.H8_16 c i arg2 harg2 arg5 harg5 arg6 harg6 arg8 harg8 hc2 x0 xs5 xs6 xs8)) := by
  unfold runB.sl.v415
  rw [View.readAt_eq_ld]
  exact View.ld_unit_zero (funext fun a => by match a with | ⟨0, _⟩ => rfl | ⟨1, _⟩ => rfl) _ _

/-- After the last point column 512 g + q of the running column minima is the smaller of what the buffer held there
    and the infimum over the 4096 rows of this row block of chunk `g`'s distances in column `q`. -/
theorem colsB_read (c : Dev nD) (i : grid0.Coords) (arg2 : Memref sig .tc .vmem S8192x128 .f32) (harg2 : arg2.IsWhole) (arg5 : Memref sig .tc .vmem S4096x256 .bf16) (harg5 : arg5.IsWhole) (arg6 : Memref sig .tc .vmem S8192x256 .bf16) (harg6 : arg6.IsWhole) (arg8 : Memref sig .tc .vmem S1x8192 .f32) (harg8 : arg8.IsWhole) (hc2 : cond2 i) (x0 : Vec Ideal S8192x128 .f32) (xs5 : Vec Ideal S4096x256 .bf16) (xs6 : Vec Ideal S8192x256 .bf16) (xs8 : Vec Ideal S1x8192 .f32) (hc4 : cond4 i) (g : Fin 16) (q : Fin 512) :
    runB.sl.v415 c i arg2 harg2 arg5 harg5 arg6 harg6 arg8 harg8 hc2 x0 xs5 xs6 xs8 (colIdx g q)
      = min (xs8 (colIdx g q)) (Finset.univ.inf fun r : Fin 4096 =>
          chunkDist (xB c i arg2 harg2 arg5 harg5 hc2 x0 xs5) (yB i arg6 harg6 xs6 g) (ix2 r q)) := by
  rw [v415_eq, listB_eq]
  refine (View.read_tilePieces arg8.view (harg8.unread xs8) S1x512.size (offC i) (inbC i) (payB c i arg2 harg2 arg5 harg5 arg6 harg6 arg8 harg8 hc2 x0 xs5 xs6 xs8) 16 (Nat.le_refl 16)
    (colIdx g q) g g.isLt (ix2 (0 : Fin 1) q) (colIdx_in i g q) (1 : Fin 2) (colIdx_out i g q)).trans ?_
  rw [payB_eq, bit_last i hc4, updMin_zero_apply, curB_apply, colMin_apply]

end Cert.KernelIdeal.Body

end
-- ==== Proof.IdealReads.lean ====
/-
  The chunk product read at an index. A chunk's distances are the product of the augmented row operand [4096, 256]
  with a 512-row chunk of the augmented column operand [512, 256], contracted over axis 1 of both, into a zero
  accumulator: entry (r, q) is the sum over the 256 augmented columns k of a(r, k) · b(q, k).
-/
import proofs.«176257_g9887014716187_cont_9to1c4b_714_27_alg».proof.Proof.IdealFolds
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Idealize.ShloMosaic Idealize.SL.Sem Idealize.ShloMosaic.ValueIdx
open Cert.KernelIdeal Cert.KernelIdeal.Gen

/-- The left operand's index of the chunk product: the output's row on axis 0 … -/
theorem chunk_lhs_0 (i : S4096x512.Idx) (q : dot_S4096x256_S512x256_S4096x512_1_1_0_0_n_n.contr.Idx) :
    (dot_S4096x256_S512x256_S4096x512_1_1_0_0_n_n.lhsIdx i q 0).val = (i 0).val := by
  unfold DotDims.lhsIdx
  rw [dif_neg (show ¬(0 : Fin S4096x256.rank) ∈ dot_S4096x256_S512x256_S4096x512_1_1_0_0_n_n.lhsBatch by decide), dif_pos (show (0 : Fin S4096x256.rank) ∈ dot_S4096x256_S512x256_S4096x512_1_1_0_0_n_n.lhsNonContracting by decide)]
  rfl
/-- … and the contraction's coordinate on axis 1. -/
theorem chunk_lhs_1 (i : S4096x512.Idx) (q : dot_S4096x256_S512x256_S4096x512_1_1_0_0_n_n.contr.Idx) :
    (dot_S4096x256_S512x256_S4096x512_1_1_0_0_n_n.lhsIdx i q 1).val = (q ⟨0, by decide⟩).val :=
  dot_S4096x256_S512x256_S4096x512_1_1_0_0_n_n.lhsIdx_val_of_single rfl i q
/-- The right operand's index: the output's column on axis 0 … -/
theorem chunk_rhs_0 (i : S4096x512.Idx) (q : dot_S4096x256_S512x256_S4096x512_1_1_0_0_n_n.contr.Idx) :
    (dot_S4096x256_S512x256_S4096x512_1_1_0_0_n_n.rhsIdx i q 0).val = (i 1).val := by
  unfold DotDims.rhsIdx
  rw [dif_neg (show ¬(0 : Fin S512x256.rank) ∈ dot_S4096x256_S512x256_S4096x512_1_1_0_0_n_n.rhsBatch by decide), dif_pos (show (0 : Fin S512x256.rank) ∈ dot_S4096x256_S512x256_S4096x512_1_1_0_0_n_n.rhsNonContracting by decide)]
  rfl
/-- … and the contraction's coordinate on axis 1. -/
theorem chunk_rhs_1 (i : S4096x512.Idx) (q : dot_S4096x256_S512x256_S4096x512_1_1_0_0_n_n.contr.Idx) :
    (dot_S4096x256_S512x256_S4096x512_1_1_0_0_n_n.rhsIdx i q 1).val = (q ⟨0, by decide⟩).val :=
  dot_S4096x256_S512x256_S4096x512_1_1_0_0_n_n.rhsIdx_val_of_single rfl i q

/-- A chunk's distance at (r, q): row r of the left operand against row q of the chunk, summed over the 256 augmented columns. -/
theorem chunkDist_apply (a : Vec Ideal S4096x256 .bf16) (b : Vec Ideal S512x256 .bf16) (r : Fin 4096) (q : Fin 512) :
    chunkDist (F := Ideal) a b (ix2 r q) = ∑ k : Fin 256, a (ix2 r k) * b (ix2 q k) := by
  unfold chunkDist
  simp only [matmul]
  rw [Ideal.matmul_constant_zero_apply, ← Equiv.sum_comp (contrEquiv1 dot_S4096x256_S512x256_S4096x512_1_1_0_0_n_n 256 rfl rfl).symm]
  refine Finset.sum_congr rfl fun k _ => ?_
  have hk := contrEquiv1_symm_val dot_S4096x256_S512x256_S4096x512_1_1_0_0_n_n 256 rfl rfl k
  have el : dot_S4096x256_S512x256_S4096x512_1_1_0_0_n_n.lhsIdx (ix2 r q) ((contrEquiv1 dot_S4096x256_S512x256_S4096x512_1_1_0_0_n_n 256 rfl rfl).symm k) = ix2 r k := funext fun c => Fin.ext (by
    match c with
    | ⟨0, _⟩ => exact chunk_lhs_0 _ _
    | ⟨1, _⟩ => exact (chunk_lhs_1 _ _).trans hk)
  have er : dot_S4096x256_S512x256_S4096x512_1_1_0_0_n_n.rhsIdx (ix2 r q) ((contrEquiv1 dot_S4096x256_S512x256_S4096x512_1_1_0_0_n_n 256 rfl rfl).symm k) = ix2 q k := funext fun c => Fin.ext (by
    match c with
    | ⟨0, _⟩ => exact chunk_rhs_0 _ _
    | ⟨1, _⟩ => exact (chunk_rhs_1 _ _).trans hk)
  rw [el, er]

end Cert.KernelIdeal.Body

end
-- ==== Proof.Algebra1.lean ====
/-
  The augmented product. The two point sets are extended by four columns each,
      x~ i = [ x i · (−2),  sq x i,  sq x i − sq x i,  1,  1,  0, … ]      (width 256)
      y~ j = [ y j,         1,       1,                sq y j,  sq y j − sq y j,  0, … ],
  so that for real-valued inputs the inner product of x~ i with y~ j is
      −2 · ∑ₖ x i k · y j k + sq x i + 0 + sq y j + 0 = sq x i + sq y j − 2 · dot x y i j.
  Real-valuedness is what makes v − v = 0 and lets −2 come out of the sum.
-/
import Mathlib.Algebra.BigOperators.Fin
import Mathlib.Tactic.Ring
import proofs.«176257_g9887014716187_cont_9to1c4b_714_27_alg».proof.Proof.Spec

noncomputable section

namespace Cert.Chamfer

open Finset

/-- A finite sum of real numbers read in the extended reals is the reading of their real sum. -/
theorem coe_sum {ι : Type*} (s : Finset ι) (a : ι → ℝ) :
    (∑ k ∈ s, (a k : EReal)) = ((∑ k ∈ s, a k : ℝ) : EReal) := by
  classical
  induction s using Finset.induction_on with
  | empty => simp
  | insert k s hk ih => rw [Finset.sum_insert hk, Finset.sum_insert hk, ih, EReal.coe_add]

/-- The augmented row operand: column `k` of x~ at point `i`. -/
def xa (x : Pts) (i : Fin 8192) (k : Fin 256) : EReal :=
  if h : k.val < 128 then x i ⟨k.val, h⟩ * (-2)
  else if k.val = 128 then sq x i
  else if k.val = 129 then sq x i - sq x i
  else if k.val = 130 then 1
  else if k.val = 131 then 1
  else 0

/-- The augmented column operand: column `k` of y~ at point `j`. -/
def ya (y : Pts) (j : Fin 8192) (k : Fin 256) : EReal :=
  if h : k.val < 128 then y j ⟨k.val, h⟩
  else if k.val = 128 then 1
  else if k.val = 129 then 1
  else if k.val = 130 then sq y j
  else if k.val = 131 then sq y j - sq y j
  else 0

/-! The columns of x~ one class at a time. -/
theorem xa_lt (x : Pts) (i : Fin 8192) (k : Fin 256) (h : k.val < 128) : xa x i k = x i ⟨k.val, h⟩ * (-2) := by
  unfold xa; rw [dif_pos h]
theorem xa_128 (x : Pts) (i : Fin 8192) (k : Fin 256) (h : k.val = 128) : xa x i k = sq x i := by
  unfold xa; rw [dif_neg (by omega), if_pos h]
theorem xa_129 (x : Pts) (i : Fin 8192) (k : Fin 256) (h : k.val = 129) : xa x i k = sq x i - sq x i := by
  unfold xa; rw [dif_neg (by omega), if_neg (by omega), if_pos h]
theorem xa_130 (x : Pts) (i : Fin 8192) (k : Fin 256) (h : k.val = 130) : xa x i k = 1 := by
  unfold xa; rw [dif_neg (by omega), if_neg (by omega), if_neg (by omega), if_pos h]
theorem xa_131 (x : Pts) (i : Fin 8192) (k : Fin 256) (h : k.val = 131) : xa x i k = 1 := by
  unfold xa; rw [dif_neg (by omega), if_neg (by omega), if_neg (by omega), if_neg (by omega), if_pos h]
theorem xa_ge (x : Pts) (i : Fin 8192) (k : Fin 256) (h : 132 ≤ k.val) : xa x i k = 0 := by
  unfold xa
  rw [dif_neg (by omega), if_neg (by omega), if_neg (by omega), if_neg (by omega), if_neg (by omega)]

/-! The columns of y~ one class at a time. -/
theorem ya_lt (y : Pts) (j : Fin 8192) (k : Fin 256) (h : k.val < 128) : ya y j k = y j ⟨k.val, h⟩ := by
  unfold ya; rw [dif_pos h]
theorem ya_128 (y : Pts) (j : Fin 8192) (k : Fin 256) (h : k.val = 128) : ya y j k = 1 := by
  unfold ya; rw [dif_neg (by omega), if_pos h]
theorem ya_129 (y : Pts) (j : Fin 8192) (k : Fin 256) (h : k.val = 129) : ya y j k = 1 := by
  unfold ya; rw [dif_neg (by omega), if_neg (by omega), if_pos h]
theorem ya_130 (y : Pts) (j : Fin 8192) (k : Fin 256) (h : k.val = 130) : ya y j k = sq y j := by
  unfold ya; rw [dif_neg (by omega), if_neg (by omega), if_neg (by omega), if_pos h]
theorem ya_131 (y : Pts) (j : Fin 8192) (k : Fin 256) (h : k.val = 131) : ya y j k = sq y j - sq y j := by
  unfold ya; rw [dif_neg (by omega), if_neg (by omega), if_neg (by omega), if_neg (by omega), if_pos h]
theorem ya_ge (y : Pts) (j : Fin 8192) (k : Fin 256) (h : 132 ≤ k.val) : ya y j k = 0 := by
  unfold ya
  rw [dif_neg (by omega), if_neg (by omega), if_neg (by omega), if_neg (by omega), if_neg (by omega)]

/-- The sum over the 256 augmented columns, split: the 128 coordinate columns, the four norm columns, and the
    124 columns of padding, which contribute nothing. -/
theorem aug_split (x y : Pts) (i j : Fin 8192) :
    ∑ k : Fin 256, xa x i k * ya y j k
      = (∑ k : Fin 128, x i k * (-2) * y j k)
        + (sq x i * 1 + (sq x i - sq x i) * 1 + 1 * sq y j + 1 * (sq y j - sq y j)) := by
  have h1 := Fin.sum_univ_add (a := 128) (b := 128) (fun k => xa x i k * ya y j k)
  have h2 := Fin.sum_univ_add (a := 4) (b := 124)
    (fun k => xa x i (Fin.natAdd 128 k) * ya y j (Fin.natAdd 128 k))
  have h3 : ∀ k : Fin 124, xa x i (Fin.natAdd 128 (Fin.natAdd 4 k)) * ya y j (Fin.natAdd 128 (Fin.natAdd 4 k)) = 0 := by
    intro k
    rw [xa_ge x i _ (by simp only [Fin.coe_natAdd]; omega), zero_mul]
  have h4 : ∀ k : Fin 128, xa x i (Fin.castAdd 128 k) * ya y j (Fin.castAdd 128 k) = x i k * (-2) * y j k := by
    intro k
    rw [xa_lt x i _ (by simp only [Fin.coe_castAdd]; exact k.isLt), ya_lt y j _ (by simp only [Fin.coe_castAdd]; exact k.isLt)]
    rfl
  rw [h1, h2, Finset.sum_congr rfl (fun k _ => h3 k), Finset.sum_const_zero, add_zero,
    Finset.sum_congr rfl (fun k _ => h4 k), Fin.sum_univ_four]
  rw [xa_128 x i _ rfl, ya_128 y j _ rfl, xa_129 x i _ rfl, ya_129 y j _ rfl,
    xa_130 x i _ rfl, ya_130 y j _ rfl, xa_131 x i _ rfl, ya_131 y j _ rfl]

theorem neg_two_coe : (-2 : EReal) = ((-2 : ℝ) : EReal) := by rw [EReal.coe_neg]; rfl
theorem two_coe : (2 : EReal) = ((2 : ℝ) : EReal) := by norm_cast

/-- The squared norm of a real-valued point is real. -/
theorem sq_coe (x : Pts) (a : Fin 8192 → Fin 128 → ℝ) (ha : ∀ i k, x i k = (a i k : EReal)) (i : Fin 8192) :
    sq x i = ((∑ k : Fin 128, a i k * a i k : ℝ) : EReal) := by
  unfold sq; simp only [ha, ← EReal.coe_mul]; exact coe_sum _ _

/-- The inner product of two real-valued points is real. -/
theorem dot_coe (x y : Pts) (a b : Fin 8192 → Fin 128 → ℝ) (ha : ∀ i k, x i k = (a i k : EReal))
    (hb : ∀ i k, y i k = (b i k : EReal)) (i j : Fin 8192) :
    dot x y i j = ((∑ k : Fin 128, a i k * b j k : ℝ) : EReal) := by
  unfold dot; simp only [ha, hb, ← EReal.coe_mul]; exact coe_sum _ _

/-- The augmented inner product is the unclamped squared distance, for real-valued points. -/
theorem aug_dot (x y : Pts) (hx : ∀ i k, ∃ r : ℝ, x i k = (r : EReal)) (hy : ∀ i k, ∃ r : ℝ, y i k = (r : EReal))
    (i j : Fin 8192) :
    ∑ k : Fin 256, xa x i k * ya y j k = sq x i + sq y j - 2 * dot x y i j := by
  choose a ha using hx
  choose b hb using hy
  rw [aug_split, sq_coe x a ha i, sq_coe y b hb j, dot_coe x y a b ha hb i j]
  simp only [ha, hb, two_coe, ← EReal.coe_neg, ← EReal.coe_one, ← EReal.coe_mul, ← EReal.coe_sub, ← EReal.coe_add, coe_sum]
  congr 1
  have h : ∑ k : Fin 128, a i k * (-2) * b j k = -2 * ∑ k : Fin 128, a i k * b j k := by
    rw [Finset.mul_sum]; exact Finset.sum_congr rfl (fun k _ => by ring)
  rw [h]; ring

end Cert.Chamfer

end
-- ==== Proof.Algebra2.lean ====
/-
  Order facts about finite infima in the extended reals, in the shapes the two programs meet them.
  Clamping below at 0 commutes with a finite infimum (true in any linear order with a top; the empty infimum is +∞
  and is its own clamp). An infimum over the 8192 columns  j = 512·g + 128·h + l  (g < 16, h < 4, l < 128) is the
  infimum over l of the infimum over g of the infimum over h; an infimum or a sum over the 8192 rows splits into
  its two blocks of 4096; and a left-nested minimum of finitely many terms is their infimum.
-/
import Mathlib.Data.Finset.Lattice.Fold
import Mathlib.Data.Fintype.Lattice
import Mathlib.Algebra.BigOperators.Fin
import proofs.«176257_g9887014716187_cont_9to1c4b_714_27_alg».proof.Proof.Spec

noncomputable section

namespace Cert.Chamfer

open Finset

/-- Clamping at 0 commutes with a finite infimum. -/
theorem clamp_inf {ι : Type*} [Fintype ι] (f : ι → EReal) :
    max (Finset.univ.inf f) 0 = Finset.univ.inf (fun j => max (f j) 0) :=
  Finset.inf_sup_distrib_right Finset.univ f 0

/-- Row `r` of the first block of 4096 rows. -/
def lo (r : Fin 4096) : Fin 8192 := ⟨r.val, by omega⟩

/-- Row `r` of the second block of 4096 rows. -/
def hi (r : Fin 4096) : Fin 8192 := ⟨4096 + r.val, by omega⟩

/-- An infimum over the 8192 rows is the smaller of the infima over the two blocks. -/
theorem inf_rows (f : Fin 8192 → EReal) :
    Finset.univ.inf f
      = min (Finset.univ.inf fun r : Fin 4096 => f (lo r)) (Finset.univ.inf fun r : Fin 4096 => f (hi r)) := by
  apply le_antisymm
  · exact le_min (Finset.le_inf fun r _ => Finset.inf_le (mem_univ _))
      (Finset.le_inf fun r _ => Finset.inf_le (mem_univ _))
  · refine Finset.le_inf fun i _ => ?_
    rcases lt_or_ge i.val 4096 with h | h
    · have hi' : lo ⟨i.val, h⟩ = i := Fin.ext rfl
      calc _ ≤ Finset.univ.inf fun r : Fin 4096 => f (lo r) := min_le_left _ _
        _ ≤ f (lo ⟨i.val, h⟩) := Finset.inf_le (f := fun r : Fin 4096 => f (lo r)) (mem_univ _)
        _ = f i := by rw [hi']
    · have hi' : hi ⟨i.val - 4096, by omega⟩ = i := Fin.ext (by simp only [hi]; omega)
      calc _ ≤ Finset.univ.inf fun r : Fin 4096 => f (hi r) := min_le_right _ _
        _ ≤ f (hi ⟨i.val - 4096, by omega⟩) := Finset.inf_le (f := fun r : Fin 4096 => f (hi r)) (mem_univ _)
        _ = f i := by rw [hi']

/-- A sum over the 8192 rows is the sum over the first block plus the sum over the second. -/
theorem sum_rows (f : Fin 8192 → EReal) :
    ∑ i : Fin 8192, f i = (∑ r : Fin 4096, f (lo r)) + ∑ r : Fin 4096, f (hi r) :=
  Fin.sum_univ_add (a := 4096) (b := 4096) f

/-- Column `512·g + 128·h + l`: lane `l` of lane group `h` of chunk `g`. -/
def col (g : Fin 16) (h : Fin 4) (l : Fin 128) : Fin 8192 := ⟨g.val * 512 + h.val * 128 + l.val, by omega⟩

/-- An infimum over the 8192 columns, regrouped: lanes outermost, then chunks, then lane groups. -/
theorem inf_cols (f : Fin 8192 → EReal) :
    Finset.univ.inf f
      = Finset.univ.inf fun l : Fin 128 => Finset.univ.inf fun g : Fin 16 => Finset.univ.inf fun h : Fin 4 =>
          f (col g h l) := by
  apply le_antisymm
  · exact Finset.le_inf fun l _ => Finset.le_inf fun g _ => Finset.le_inf fun h _ => Finset.inf_le (mem_univ _)
  · refine Finset.le_inf fun j _ => ?_
    obtain ⟨g, h, l, hj⟩ : ∃ (g : Fin 16) (h : Fin 4) (l : Fin 128), col g h l = j :=
      ⟨⟨j.val / 512, by omega⟩, ⟨j.val % 512 / 128, by omega⟩, ⟨j.val % 128, by omega⟩,
        Fin.ext (by simp only [col]; omega)⟩
    rw [← hj]
    calc _ ≤ Finset.univ.inf fun g : Fin 16 => Finset.univ.inf fun h : Fin 4 => f (col g h l) :=
          Finset.inf_le (f := fun l : Fin 128 => Finset.univ.inf fun g : Fin 16 => Finset.univ.inf fun h : Fin 4 =>
            f (col g h l)) (mem_univ l)
      _ ≤ Finset.univ.inf fun h : Fin 4 => f (col g h l) :=
          Finset.inf_le (f := fun g : Fin 16 => Finset.univ.inf fun h : Fin 4 => f (col g h l)) (mem_univ g)
      _ ≤ f (col g h l) := Finset.inf_le (f := fun h : Fin 4 => f (col g h l)) (mem_univ h)

/-- An infimum over `Fin (n + 1)` is the infimum over the first `n` indices, then the last. -/
theorem inf_univ_castSucc {n : ℕ} (a : Fin (n + 1) → EReal) :
    Finset.univ.inf a = min (Finset.univ.inf fun i : Fin n => a i.castSucc) (a (Fin.last n)) := by
  apply le_antisymm
  · exact le_min (Finset.le_inf fun i _ => Finset.inf_le (mem_univ _)) (Finset.inf_le (mem_univ _))
  · refine Finset.le_inf fun i _ => ?_
    induction i using Fin.lastCases with
    | last => exact min_le_right _ _
    | cast i =>
      exact (min_le_left _ _).trans (Finset.inf_le (f := fun i : Fin n => a i.castSucc) (mem_univ i))

/-- The left-nested minimum of four terms. -/
def fold4 (a : Fin 4 → EReal) : EReal := min (min (min (a 0) (a 1)) (a 2)) (a 3)

/-- The left-nested minimum of sixteen terms. -/
def fold16 (a : Fin 16 → EReal) : EReal :=
  min (min (min (min (min (min (min (min (min (min (min (min (min (min (min (a 0) (a 1)) (a 2)) (a 3)) (a 4)) (a 5)) (a 6)) (a 7)) (a 8)) (a 9)) (a 10)) (a 11)) (a 12)) (a 13)) (a 14)) (a 15)

theorem fold4_eq (a : Fin 4 → EReal) : fold4 a = Finset.univ.inf a := by
  rw [inf_univ_castSucc, inf_univ_castSucc, inf_univ_castSucc, inf_univ_castSucc,
    Finset.univ_eq_empty, Finset.inf_empty, min_top_left]
  rfl

theorem fold16_eq (a : Fin 16 → EReal) : fold16 a = Finset.univ.inf a := by
  rw [inf_univ_castSucc, inf_univ_castSucc, inf_univ_castSucc, inf_univ_castSucc,
    inf_univ_castSucc, inf_univ_castSucc, inf_univ_castSucc, inf_univ_castSucc,
    inf_univ_castSucc, inf_univ_castSucc, inf_univ_castSucc, inf_univ_castSucc,
    inf_univ_castSucc, inf_univ_castSucc, inf_univ_castSucc, inf_univ_castSucc,
    Finset.univ_eq_empty, Finset.inf_empty, min_top_left]
  rfl

/-- The infimum over the 8192 columns as the kernel takes it: for each lane, the left-nested minimum over the
    sixteen chunks of the left-nested minimum over the chunk's four lane groups; then the infimum over lanes. -/
theorem inf_cols_nested (f : Fin 8192 → EReal) :
    Finset.univ.inf f
      = Finset.univ.inf fun l : Fin 128 => fold16 fun g : Fin 16 => fold4 fun h : Fin 4 => f (col g h l) := by
  rw [inf_cols]
  simp only [fold16_eq, fold4_eq]

end Cert.Chamfer

end
-- ==== Proof.Algebra3.lean ====
/-
  The chamfer total from the augmented products. With  D i j = ∑ₖ x~ i k · y~ j k  (the unclamped squared distance for
  real-valued points), clamping D at 0 gives the reference's distance; a row's nearest distance is the clamp of the
  row's infimum of D; a column's nearest distance is the clamp of the smaller of the column's infima over the two
  blocks of 4096 rows; and the row sums over the two blocks together with the column sum are the chamfer total.
-/
import proofs.«176257_g9887014716187_cont_9to1c4b_714_27_alg».proof.Proof.Algebra1
import proofs.«176257_g9887014716187_cont_9to1c4b_714_27_alg».proof.Proof.Algebra2

noncomputable section

namespace Cert.Chamfer

open Finset

/-- The augmented inner product of point `i` of `x` with point `j` of `y`. -/
def D (x y : Pts) (i j : Fin 8192) : EReal := ∑ k : Fin 256, xa x i k * ya y j k

theorem D_def (x y : Pts) (i j : Fin 8192) : D x y i j = ∑ k : Fin 256, xa x i k * ya y j k := rfl

/-- For real-valued points D is the unclamped squared distance. -/
theorem D_eq (x y : Pts) (hx : ∀ i k, ∃ r : ℝ, x i k = (r : EReal)) (hy : ∀ i k, ∃ r : ℝ, y i k = (r : EReal))
    (i j : Fin 8192) : D x y i j = sq x i + sq y j - 2 * dot x y i j := aug_dot x y hx hy i j

/-- The clamp of D is the distance. -/
theorem dist_of_D (x y : Pts) (hx : ∀ i k, ∃ r : ℝ, x i k = (r : EReal)) (hy : ∀ i k, ∃ r : ℝ, y i k = (r : EReal))
    (i j : Fin 8192) : max (D x y i j) 0 = dist x y i j := by
  rw [D_eq x y hx hy i j]; rfl

/-- A row's part: the clamp of the row's infimum of D is the row's nearest distance. -/
theorem row_part (x y : Pts) (hx : ∀ i k, ∃ r : ℝ, x i k = (r : EReal)) (hy : ∀ i k, ∃ r : ℝ, y i k = (r : EReal))
    (i : Fin 8192) :
    max (Finset.univ.inf fun j : Fin 8192 => D x y i j) 0 = Finset.univ.inf fun j : Fin 8192 => dist x y i j := by
  rw [clamp_inf]; simp only [dist_of_D x y hx hy]

/-- A column's part: the clamp of the smaller of the column's infima of D over the two row blocks is the
    column's nearest distance. -/
theorem col_part (x y : Pts) (hx : ∀ i k, ∃ r : ℝ, x i k = (r : EReal)) (hy : ∀ i k, ∃ r : ℝ, y i k = (r : EReal))
    (j : Fin 8192) :
    max (min (Finset.univ.inf fun r : Fin 4096 => D x y (lo r) j) (Finset.univ.inf fun r : Fin 4096 => D x y (hi r) j)) 0
      = Finset.univ.inf fun i : Fin 8192 => dist x y i j := by
  rw [← inf_rows (fun i : Fin 8192 => D x y i j), clamp_inf]; simp only [dist_of_D x y hx hy]

/-- The row sums over the two blocks are the sum over all rows of the nearest distances. -/
theorem rows_total (x y : Pts) (hx : ∀ i k, ∃ r : ℝ, x i k = (r : EReal)) (hy : ∀ i k, ∃ r : ℝ, y i k = (r : EReal)) :
    (∑ r : Fin 4096, max (Finset.univ.inf fun j : Fin 8192 => D x y (lo r) j) 0)
        + ∑ r : Fin 4096, max (Finset.univ.inf fun j : Fin 8192 => D x y (hi r) j) 0
      = ∑ i : Fin 8192, Finset.univ.inf fun j : Fin 8192 => dist x y i j := by
  rw [sum_rows (fun i : Fin 8192 => Finset.univ.inf fun j : Fin 8192 => dist x y i j)]
  simp only [row_part x y hx hy]

/-- The column sum is the sum over all columns of the nearest distances. -/
theorem cols_total (x y : Pts) (hx : ∀ i k, ∃ r : ℝ, x i k = (r : EReal)) (hy : ∀ i k, ∃ r : ℝ, y i k = (r : EReal)) :
    (∑ j : Fin 8192, max (min (Finset.univ.inf fun r : Fin 4096 => D x y (lo r) j)
        (Finset.univ.inf fun r : Fin 4096 => D x y (hi r) j)) 0)
      = ∑ j : Fin 8192, Finset.univ.inf fun i : Fin 8192 => dist x y i j := by
  simp only [col_part x y hx hy]

/-- A row's infimum of D in the kernel's order: over lanes, of the left-nested minimum over the sixteen chunks of the
    left-nested minimum over each chunk's four lane groups. -/
theorem row_inf_nested (x y : Pts) (i : Fin 8192) :
    (Finset.univ.inf fun l : Fin 128 => fold16 fun g : Fin 16 => fold4 fun h : Fin 4 => D x y i (col g h l))
      = Finset.univ.inf fun j : Fin 8192 => D x y i j :=
  (inf_cols_nested (fun j : Fin 8192 => D x y i j)).symm

/-- The total as the kernel accumulates it: from 0, the first block's row sum, the second block's row sum,
    then the column sum. -/
theorem total_eq (x y : Pts) (hx : ∀ i k, ∃ r : ℝ, x i k = (r : EReal)) (hy : ∀ i k, ∃ r : ℝ, y i k = (r : EReal)) :
    ((0 + ∑ r : Fin 4096, max (Finset.univ.inf fun j : Fin 8192 => D x y (lo r) j) 0)
        + ∑ r : Fin 4096, max (Finset.univ.inf fun j : Fin 8192 => D x y (hi r) j) 0)
      + ∑ j : Fin 8192, max (min (Finset.univ.inf fun r : Fin 4096 => D x y (lo r) j)
          (Finset.univ.inf fun r : Fin 4096 => D x y (hi r) j)) 0
      = total x y := by
  rw [zero_add, rows_total x y hx hy, cols_total x y hx hy]; rfl

end Cert.Chamfer

end
-- ==== Proof.IdealColsD.lean ====
/-
  The running column minima in terms of the augmented products D. When the augmented row operand of a grid point
  holds the augmented rows of the point's block of 4096 points of X, and chunk g of the augmented column operand
  the augmented rows 512 g … 512 g + 511 of Y, a chunk's distance at (r, q) is D at (row r of the block, column
  512 g + q); so after the first point column j of the buffer holds the infimum of D over the first block's rows,
  and after the last point the smaller of what it held and the infimum over the second block's rows. A statement
  about every chunk g and every column q of a chunk is a statement about every column j = 512 g + q.
-/
import proofs.«176257_g9887014716187_cont_9to1c4b_714_27_alg».proof.Proof.IdealColsB
import proofs.«176257_g9887014716187_cont_9to1c4b_714_27_alg».proof.Proof.IdealReads
import proofs.«176257_g9887014716187_cont_9to1c4b_714_27_alg».proof.Proof.Algebra3

set_option maxRecDepth 16384

noncomputable section

namespace Cert.KernelIdeal.Body

open Idealize.ShloMosaic Idealize.ShloMosaic.TcCoe Idealize.ShloMosaic.ValueIdx
open Idealize.SL.Sem
open Cert.KernelIdeal Cert.KernelIdeal.Gen
open Cert.Chamfer (Pts D xa ya lo hi)

/-- A chunk's distance at (r, q) is the augmented product of the points whose augmented rows the operands hold there. -/
theorem chunkDist_eq_D (a : Vec Ideal S4096x256 .bf16) (b : Vec Ideal S512x256 .bf16) (X Y : Pts) (i j : Fin 8192)
    (r : Fin 4096) (q : Fin 512) (ha : ∀ k : Fin 256, a (ix2 r k) = xa X i k) (hb : ∀ k : Fin 256, b (ix2 q k) = ya Y j k) :
    chunkDist (F := Ideal) a b (ix2 r q) = D X Y i j := by
  rw [chunkDist_apply, Cert.Chamfer.D_def]
  exact Finset.sum_congr rfl fun k _ => by rw [ha k, hb k]

/-- After the first point column 512 g + q of the running column minima is the infimum of D over the first block's rows. -/
theorem colsA_D (c : Dev nD) (i : grid0.Coords) (arg2 : Memref sig .tc .vmem S8192x128 .f32) (harg2 : arg2.IsWhole) (arg3 : Memref sig .tc .vmem S8192x128 .f32) (harg3 : arg3.IsWhole) (arg4 : Memref sig .tc .vmem S1x1 .f32) (harg4 : arg4.IsWhole) (arg5 : Memref sig .tc .vmem S4096x256 .bf16) (harg5 : arg5.IsWhole) (arg6 : Memref sig .tc .vmem S8192x256 .bf16) (harg6 : arg6.IsWhole) (arg7 : Memref sig .tc .vmem S4096x128 .f32) (harg7 : arg7.IsWhole) (arg8 : Memref sig .tc .vmem S1x8192 .f32) (harg8 : arg8.IsWhole) (arg9 : Memref sig .tc .vmem S1x1 .f32) (harg9 : arg9.IsWhole) (hc1 : cond1 i) (hc2 : cond2 i) (hc3 : cond3 i) (hc4 : ¬cond4 i) (x0 x1 : Vec Ideal S8192x128 .f32) (d5 : Vec Ideal S4096x256 .bf16) (d6 : Vec Ideal S8192x256 .bf16) (d8 : Vec Ideal S1x8192 .f32) (d9 : Vec Ideal S1x1 .f32)
    (f : arg8.view.ty.Contents (Elt Ideal)) (X Y : Pts)
    (hXA : ∀ (r : Fin 4096) (k : Fin 256), xA c i arg2 harg2 arg5 hc2 x0 (ix2 r k) = xa X (lo r) k)
    (hYA : ∀ (g : Fin 16) (q : Fin 512) (k : Fin 256),
      yA c i arg3 harg3 arg6 hc3 x1 g (ix2 q k) = ya Y (⟨g.val * 512 + q.val, by omega⟩ : Fin 8192) k)
    (g : Fin 16) (q : Fin 512) :
    arg8.view.read (Elt Ideal) (arg8.view.writes (Elt Ideal) f (runA c i arg2 harg2 arg3 harg3 arg4 harg4 arg5 harg5 arg6 harg6 arg7 harg7 arg8 harg8 arg9 harg9 hc1 hc2 hc3 hc4 x0 x1 d5 d6 d8 d9).2.2.1) (colIdx g q)
      = Finset.univ.inf fun r : Fin 4096 => D X Y (lo r) (⟨g.val * 512 + q.val, by omega⟩ : Fin 8192) := by
  rw [colsA_read]
  exact Finset.inf_congr rfl fun r _ => chunkDist_eq_D _ _ X Y _ _ r q (hXA r) (hYA g q)

/-- After the last point it is the smaller of what the buffer held and the infimum of D over the second block's rows. -/
theorem colsB_D (c : Dev nD) (i : grid0.Coords) (arg2 : Memref sig .tc .vmem S8192x128 .f32) (harg2 : arg2.IsWhole) (arg5 : Memref sig .tc .vmem S4096x256 .bf16) (harg5 : arg5.IsWhole) (arg6 : Memref sig .tc .vmem S8192x256 .bf16) (harg6 : arg6.IsWhole) (arg8 : Memref sig .tc .vmem S1x8192 .f32) (harg8 : arg8.IsWhole) (hc2 : cond2 i) (x0 : Vec Ideal S8192x128 .f32) (xs5 : Vec Ideal S4096x256 .bf16) (xs6 : Vec Ideal S8192x256 .bf16) (xs8 : Vec Ideal S1x8192 .f32) (hc4 : cond4 i) (X Y : Pts)
    (hXB : ∀ (r : Fin 4096) (k : Fin 256), xB c i arg2 harg2 arg5 harg5 hc2 x0 xs5 (ix2 r k) = xa X (hi r) k)
    (hYB : ∀ (g : Fin 16) (q : Fin 512) (k : Fin 256),
      yB i arg6 harg6 xs6 g (ix2 q k) = ya Y (⟨g.val * 512 + q.val, by omega⟩ : Fin 8192) k)
    (g : Fin 16) (q : Fin 512) :
    runB.sl.v415 c i arg2 harg2 arg5 harg5 arg6 harg6 arg8 harg8 hc2 x0 xs5 xs6 xs8 (colIdx g q)
      = min (xs8 (colIdx g q))
          (Finset.univ.inf fun r : Fin 4096 => D X Y (hi r) (⟨g.val * 512 + q.val, by omega⟩ : Fin 8192)) := by
  rw [colsB_read _ _ _ _ _ _ _ _ _ _ _ _ _ _ _ hc4]
  exact congrArg (min (xs8 (colIdx g q)))
    (Finset.inf_congr rfl fun r _ => chunkDist_eq_D _ _ X Y _ _ r q (hXB r) (hYB g q))

/-- A statement about every chunk and every column of a chunk is a statement about every column of the buffer. -/
theorem cols_reindex (v : Vec Ideal S1x8192 .f32) (w : Fin 8192 → EReal)
    (h : ∀ (g : Fin 16) (q : Fin 512), v (colIdx g q) = w (⟨g.val * 512 + q.val, by omega⟩ : Fin 8192)) (j : Fin 8192) :
    v (ix2 (0 : Fin 1) j) = w j := by
  have hj := j.isLt
  have key := h ⟨j.val / 512, by omega⟩ ⟨j.val % 512, by omega⟩
  have e : (⟨j.val / 512 * 512 + j.val % 512, by omega⟩ : Fin 8192) = j :=
    Fin.ext (by show j.val / 512 * 512 + j.val % 512 = j.val; omega)
  rw [← e]
  exact key

end Cert.KernelIdeal.Body

end
-- ==== Proof.IdealRows.lean ====
/-
  The row side of the body, the part common to both grid points. A chunk's distances folded over its four 128-lane
  groups have at (r, l) the least of the four entries  128·h + l  (h < 4) of row r of the chunk's product; the
  left-nested minimum of sixteen such folds, chunk by chunk, has at (r, l) the left-nested minimum over the chunks
  g = 0 … 15 of those.
-/
import proofs.«176257_g9887014716187_cont_9to1c4b_714_27_alg».proof.Proof.IdealFolds
import proofs.«176257_g9887014716187_cont_9to1c4b_714_27_alg».proof.Proof.IdealReads
import proofs.«176257_g9887014716187_cont_9to1c4b_714_27_alg».proof.Proof.IdealReads2
import proofs.«176257_g9887014716187_cont_9to1c4b_714_27_alg».proof.Proof.Algebra2

set_option maxRecDepth 16384

noncomputable section

namespace Cert.KernelIdeal.Body

open Idealize.ShloMosaic Idealize.SL.Sem Idealize.ShloMosaic.ValueIdx
open Cert.KernelIdeal Cert.KernelIdeal.Gen Cert.Chamfer

variable {F : FTy → Type} [FloatOps F]

/-- A chunk's distances folded over its four lane groups, from the two operands. -/
def LF (a : Vec F S4096x256 .bf16) (b : Vec F S512x256 .bf16) : FVec F S4096x128 .f32 := laneFold (chunkDist a b)

/-- The left-nested minimum over sixteen chunks of their lane-folded distances. -/
def rowFold16 (a : Vec F S4096x256 .bf16) (b : Fin 16 → Vec F S512x256 .bf16) : FVec F S4096x128 .f32 :=
  minimumf (minimumf (minimumf (minimumf (minimumf (minimumf (minimumf (minimumf (minimumf (minimumf (minimumf (minimumf (minimumf (minimumf (minimumf (LF a (b 0)) (LF a (b 1))) (LF a (b 2))) (LF a (b 3))) (LF a (b 4))) (LF a (b 5))) (LF a (b 6))) (LF a (b 7))) (LF a (b 8))) (LF a (b 9))) (LF a (b 10))) (LF a (b 11))) (LF a (b 12))) (LF a (b 13))) (LF a (b 14))) (LF a (b 15))

/-- The lane fold of a chunk's distances at (r, l): the least of the chunk's entries 128·h + l, h < 4, of row r. -/
theorem LF_apply (a : Vec Ideal S4096x256 .bf16) (b : Vec Ideal S512x256 .bf16) (r : Fin 4096) (l : Fin 128) :
    LF (F := Ideal) a b (ix2 r l)
      = fold4 fun h : Fin 4 => chunkDist (F := Ideal) a b (ix2 r ⟨h.val * 128 + l.val, by omega⟩) := by
  unfold LF fold4
  rw [laneFold_apply]
  refine congrArg₂ min (congrArg₂ min (congrArg₂ min ?_ ?_) ?_) ?_ <;>
    exact congrArg _ (congrArg (ix2 r) (Fin.ext (by simp)))

/-- The sixteen-chunk fold at (r, l). -/
theorem rowFold16_apply (a : Vec Ideal S4096x256 .bf16) (b : Fin 16 → Vec Ideal S512x256 .bf16) (r : Fin 4096) (l : Fin 128) :
    rowFold16 (F := Ideal) a b (ix2 r l)
      = fold16 fun g : Fin 16 => fold4 fun h : Fin 4 =>
          chunkDist (F := Ideal) a (b g) (ix2 r ⟨h.val * 128 + l.val, by omega⟩) := by
  unfold rowFold16 fold16
  simp only [minimumf_apply, LF_apply]

/-- The same with each distance written out: the sum over the 256 augmented columns of the products of row r of
    the row operand with row 128·h + l of chunk g. -/
theorem rowFold16_apply' (a : Vec Ideal S4096x256 .bf16) (b : Fin 16 → Vec Ideal S512x256 .bf16) (r : Fin 4096) (l : Fin 128) :
    rowFold16 (F := Ideal) a b (ix2 r l)
      = fold16 fun g : Fin 16 => fold4 fun h : Fin 4 =>
          ∑ k : Fin 256, a (ix2 r k) * b g (ix2 (⟨h.val * 128 + l.val, by omega⟩ : Fin 512) k) := by
  rw [rowFold16_apply]; simp only [chunkDist_apply]

end Cert.KernelIdeal.Body

end
-- ==== Proof.IdealRowsA.lean ====
/-
  The row side of the body at the first grid point. The lane partial the body ends with is, entry by entry, the
  left-nested minimum over the sixteen 512-column chunks of the augmented column operand, in order, of the chunk's
  distances folded over its four lane groups. The body reaches it in nine steps of one or two chunks each; the
  fifth chunk's fold is split over two of them (three lane groups, then the fourth).
-/
import proofs.«176257_g9887014716187_cont_9to1c4b_714_27_alg».proof.Proof.IdealRows
import proofs.«176257_g9887014716187_cont_9to1c4b_714_27_alg».proof.Proof.IdealChunks

set_option maxRecDepth 16384

noncomputable section

namespace Cert.KernelIdeal.Body

open Idealize.ShloMosaic Idealize.SL.Sem Idealize.ShloMosaic.ValueIdx
open Cert.KernelIdeal Cert.KernelIdeal.Gen Cert.Chamfer

variable {F : FTy → Type} [FloatOps F]

section fold
variable (c : Dev nD) (i : grid0.Coords) (arg2 : Memref sig .tc .vmem S8192x128 .f32) (harg2 : arg2.IsWhole) (arg3 : Memref sig .tc .vmem S8192x128 .f32) (harg3 : arg3.IsWhole) (arg5 : Memref sig .tc .vmem S4096x256 .bf16) (arg6 : Memref sig .tc .vmem S8192x256 .bf16) (hc2 : cond2 i) (hc3 : cond3 i) (x0 x1 : Vec F S8192x128 .f32)
/-! The lane partial after each step of the body's chain. -/
theorem rA1 : runA.sl.r_1 c i arg2 harg2 arg3 harg3 arg5 arg6 hc2 hc3 x0 x1 = LF (xA c i arg2 harg2 arg5 hc2 x0) ((yA c i arg3 harg3 arg6 hc3 x1) 0) := rfl
theorem rA5 : runA.sl.r_5 c i arg2 harg2 arg3 harg3 arg5 arg6 hc2 hc3 x0 x1 = minimumf (minimumf (runA.sl.r_1 c i arg2 harg2 arg3 harg3 arg5 arg6 hc2 hc3 x0 x1) (LF (xA c i arg2 harg2 arg5 hc2 x0) ((yA c i arg3 harg3 arg6 hc3 x1) 1))) (LF (xA c i arg2 harg2 arg5 hc2 x0) ((yA c i arg3 harg3 arg6 hc3 x1) 2)) := rfl
theorem rA8 : runA.sl.r_8 c i arg2 harg2 arg3 harg3 arg5 arg6 hc2 hc3 x0 x1 = minimumf (runA.sl.r_5 c i arg2 harg2 arg3 harg3 arg5 arg6 hc2 hc3 x0 x1) (LF (xA c i arg2 harg2 arg5 hc2 x0) ((yA c i arg3 harg3 arg6 hc3 x1) 3)) := rfl
theorem rA12 : runA.sl.r_12 c i arg2 harg2 arg3 harg3 arg5 arg6 hc2 hc3 x0 x1 = minimumf (minimumf (runA.sl.r_8 c i arg2 harg2 arg3 harg3 arg5 arg6 hc2 hc3 x0 x1) (LF (xA c i arg2 harg2 arg5 hc2 x0) ((yA c i arg3 harg3 arg6 hc3 x1) 4))) (LF (xA c i arg2 harg2 arg5 hc2 x0) ((yA c i arg3 harg3 arg6 hc3 x1) 5)) := rfl
theorem rA14 : runA.sl.r_14 c i arg2 harg2 arg3 harg3 arg5 arg6 hc2 hc3 x0 x1 = minimumf (minimumf (runA.sl.r_12 c i arg2 harg2 arg3 harg3 arg5 arg6 hc2 hc3 x0 x1) (LF (xA c i arg2 harg2 arg5 hc2 x0) ((yA c i arg3 harg3 arg6 hc3 x1) 6))) (LF (xA c i arg2 harg2 arg5 hc2 x0) ((yA c i arg3 harg3 arg6 hc3 x1) 7)) := rfl
theorem rA16 : runA.sl.r_16 c i arg2 harg2 arg3 harg3 arg5 arg6 hc2 hc3 x0 x1 = minimumf (minimumf (runA.sl.r_14 c i arg2 harg2 arg3 harg3 arg5 arg6 hc2 hc3 x0 x1) (LF (xA c i arg2 harg2 arg5 hc2 x0) ((yA c i arg3 harg3 arg6 hc3 x1) 8))) (LF (xA c i arg2 harg2 arg5 hc2 x0) ((yA c i arg3 harg3 arg6 hc3 x1) 9)) := rfl
theorem rA19 : runA.sl.r_19 c i arg2 harg2 arg3 harg3 arg5 arg6 hc2 hc3 x0 x1 = minimumf (minimumf (runA.sl.r_16 c i arg2 harg2 arg3 harg3 arg5 arg6 hc2 hc3 x0 x1) (LF (xA c i arg2 harg2 arg5 hc2 x0) ((yA c i arg3 harg3 arg6 hc3 x1) 10))) (LF (xA c i arg2 harg2 arg5 hc2 x0) ((yA c i arg3 harg3 arg6 hc3 x1) 11)) := rfl
theorem rA23 : runA.sl.r_23 c i arg2 harg2 arg3 harg3 arg5 arg6 hc2 hc3 x0 x1 = minimumf (minimumf (runA.sl.r_19 c i arg2 harg2 arg3 harg3 arg5 arg6 hc2 hc3 x0 x1) (LF (xA c i arg2 harg2 arg5 hc2 x0) ((yA c i arg3 harg3 arg6 hc3 x1) 12))) (LF (xA c i arg2 harg2 arg5 hc2 x0) ((yA c i arg3 harg3 arg6 hc3 x1) 13)) := rfl
theorem rA24 : runA.sl.r_24 c i arg2 harg2 arg3 harg3 arg5 arg6 hc2 hc3 x0 x1 = minimumf (minimumf (runA.sl.r_23 c i arg2 harg2 arg3 harg3 arg5 arg6 hc2 hc3 x0 x1) (LF (xA c i arg2 harg2 arg5 hc2 x0) ((yA c i arg3 harg3 arg6 hc3 x1) 14))) (LF (xA c i arg2 harg2 arg5 hc2 x0) ((yA c i arg3 harg3 arg6 hc3 x1) 15)) := rfl

/-- The first point's final lane partial is the left-nested minimum over the sixteen chunks. -/
theorem rowsA_fold : runA.sl.r_24 c i arg2 harg2 arg3 harg3 arg5 arg6 hc2 hc3 x0 x1 = rowFold16 (xA c i arg2 harg2 arg5 hc2 x0) (yA c i arg3 harg3 arg6 hc3 x1) := by
  rw [rA24, rA23, rA19, rA16, rA14, rA12, rA8, rA5, rA1]; rfl
end fold

/-- The first point's final lane partial at (r, l). -/
theorem rowsA_apply (c : Dev nD) (i : grid0.Coords) (arg2 : Memref sig .tc .vmem S8192x128 .f32) (harg2 : arg2.IsWhole) (arg3 : Memref sig .tc .vmem S8192x128 .f32) (harg3 : arg3.IsWhole) (arg5 : Memref sig .tc .vmem S4096x256 .bf16) (arg6 : Memref sig .tc .vmem S8192x256 .bf16) (hc2 : cond2 i) (hc3 : cond3 i) (x0 x1 : Vec Ideal S8192x128 .f32) (r : Fin 4096) (l : Fin 128) :
    runA.sl.r_24 (F := Ideal) c i arg2 harg2 arg3 harg3 arg5 arg6 hc2 hc3 x0 x1 (ix2 r l)
      = fold16 fun g : Fin 16 => fold4 fun h : Fin 4 =>
          chunkDist (F := Ideal) (xA c i arg2 harg2 arg5 hc2 x0) ((yA c i arg3 harg3 arg6 hc3 x1) g) (ix2 r ⟨h.val * 128 + l.val, by omega⟩) := by
  rw [rowsA_fold]; exact rowFold16_apply _ _ r l

/-- The same with each distance written out as the sum over the 256 augmented columns. -/
theorem rowsA_apply' (c : Dev nD) (i : grid0.Coords) (arg2 : Memref sig .tc .vmem S8192x128 .f32) (harg2 : arg2.IsWhole) (arg3 : Memref sig .tc .vmem S8192x128 .f32) (harg3 : arg3.IsWhole) (arg5 : Memref sig .tc .vmem S4096x256 .bf16) (arg6 : Memref sig .tc .vmem S8192x256 .bf16) (hc2 : cond2 i) (hc3 : cond3 i) (x0 x1 : Vec Ideal S8192x128 .f32) (r : Fin 4096) (l : Fin 128) :
    runA.sl.r_24 (F := Ideal) c i arg2 harg2 arg3 harg3 arg5 arg6 hc2 hc3 x0 x1 (ix2 r l)
      = fold16 fun g : Fin 16 => fold4 fun h : Fin 4 =>
          ∑ k : Fin 256, (xA c i arg2 harg2 arg5 hc2 x0) (ix2 r k) * (yA c i arg3 harg3 arg6 hc3 x1) g (ix2 (⟨h.val * 128 + l.val, by omega⟩ : Fin 512) k) := by
  rw [rowsA_fold]; exact rowFold16_apply' _ _ r l

end Cert.KernelIdeal.Body

end
-- ==== Proof.IdealRowsB.lean ====
/-
  The row side of the body at the last grid point: the same chain as at the first, over the operands the last
  point loads. The lane partial the body ends with is the left-nested minimum over the sixteen chunks, in order, of
  the chunk's distances folded over its four lane groups.
-/
import proofs.«176257_g9887014716187_cont_9to1c4b_714_27_alg».proof.Proof.IdealRows
import proofs.«176257_g9887014716187_cont_9to1c4b_714_27_alg».proof.Proof.IdealChunks

set_option maxRecDepth 16384

noncomputable section

namespace Cert.KernelIdeal.Body

open Idealize.ShloMosaic Idealize.SL.Sem Idealize.ShloMosaic.ValueIdx
open Cert.KernelIdeal Cert.KernelIdeal.Gen Cert.Chamfer

variable {F : FTy → Type} [FloatOps F]

section fold
variable (c : Dev nD) (i : grid0.Coords) (arg2 : Memref sig .tc .vmem S8192x128 .f32) (harg2 : arg2.IsWhole) (arg5 : Memref sig .tc .vmem S4096x256 .bf16) (harg5 : arg5.IsWhole) (arg6 : Memref sig .tc .vmem S8192x256 .bf16) (harg6 : arg6.IsWhole) (hc2 : cond2 i) (x0 : Vec F S8192x128 .f32) (xs5 : Vec F S4096x256 .bf16) (xs6 : Vec F S8192x256 .bf16)
/-! The lane partial after each step of the body's chain. -/
theorem rB2 : runB.sl.r_2 c i arg2 harg2 arg5 harg5 arg6 harg6 hc2 x0 xs5 xs6 = LF (xB c i arg2 harg2 arg5 harg5 hc2 x0 xs5) ((yB i arg6 harg6 xs6) 0) := rfl
theorem rB6 : runB.sl.r_6 c i arg2 harg2 arg5 harg5 arg6 harg6 hc2 x0 xs5 xs6 = minimumf (minimumf (runB.sl.r_2 c i arg2 harg2 arg5 harg5 arg6 harg6 hc2 x0 xs5 xs6) (LF (xB c i arg2 harg2 arg5 harg5 hc2 x0 xs5) ((yB i arg6 harg6 xs6) 1))) (LF (xB c i arg2 harg2 arg5 harg5 hc2 x0 xs5) ((yB i arg6 harg6 xs6) 2)) := rfl
theorem rB9 : runB.sl.r_9 c i arg2 harg2 arg5 harg5 arg6 harg6 hc2 x0 xs5 xs6 = minimumf (runB.sl.r_6 c i arg2 harg2 arg5 harg5 arg6 harg6 hc2 x0 xs5 xs6) (LF (xB c i arg2 harg2 arg5 harg5 hc2 x0 xs5) ((yB i arg6 harg6 xs6) 3)) := rfl
theorem rB13 : runB.sl.r_13 c i arg2 harg2 arg5 harg5 arg6 harg6 hc2 x0 xs5 xs6 = minimumf (minimumf (runB.sl.r_9 c i arg2 harg2 arg5 harg5 arg6 harg6 hc2 x0 xs5 xs6) (LF (xB c i arg2 harg2 arg5 harg5 hc2 x0 xs5) ((yB i arg6 harg6 xs6) 4))) (LF (xB c i arg2 harg2 arg5 harg5 hc2 x0 xs5) ((yB i arg6 harg6 xs6) 5)) := rfl
theorem rB16 : runB.sl.r_16 c i arg2 harg2 arg5 harg5 arg6 harg6 hc2 x0 xs5 xs6 = minimumf (minimumf (runB.sl.r_13 c i arg2 harg2 arg5 harg5 arg6 harg6 hc2 x0 xs5 xs6) (LF (xB c i arg2 harg2 arg5 harg5 hc2 x0 xs5) ((yB i arg6 harg6 xs6) 6))) (LF (xB c i arg2 harg2 arg5 harg5 hc2 x0 xs5) ((yB i arg6 harg6 xs6) 7)) := rfl
theorem rB18 : runB.sl.r_18 c i arg2 harg2 arg5 harg5 arg6 harg6 hc2 x0 xs5 xs6 = minimumf (minimumf (runB.sl.r_16 c i arg2 harg2 arg5 harg5 arg6 harg6 hc2 x0 xs5 xs6) (LF (xB c i arg2 harg2 arg5 harg5 hc2 x0 xs5) ((yB i arg6 harg6 xs6) 8))) (LF (xB c i arg2 harg2 arg5 harg5 hc2 x0 xs5) ((yB i arg6 harg6 xs6) 9)) := rfl
theorem rB21 : runB.sl.r_21 c i arg2 harg2 arg5 harg5 arg6 harg6 hc2 x0 xs5 xs6 = minimumf (minimumf (runB.sl.r_18 c i arg2 harg2 arg5 harg5 arg6 harg6 hc2 x0 xs5 xs6) (LF (xB c i arg2 harg2 arg5 harg5 hc2 x0 xs5) ((yB i arg6 harg6 xs6) 10))) (LF (xB c i arg2 harg2 arg5 harg5 hc2 x0 xs5) ((yB i arg6 harg6 xs6) 11)) := rfl
theorem rB25 : runB.sl.r_25 c i arg2 harg2 arg5 harg5 arg6 harg6 hc2 x0 xs5 xs6 = minimumf (minimumf (runB.sl.r_21 c i arg2 harg2 arg5 harg5 arg6 harg6 hc2 x0 xs5 xs6) (LF (xB c i arg2 harg2 arg5 harg5 hc2 x0 xs5) ((yB i arg6 harg6 xs6) 12))) (LF (xB c i arg2 harg2 arg5 harg5 hc2 x0 xs5) ((yB i arg6 harg6 xs6) 13)) := rfl
theorem rB26 : runB.sl.r_26 c i arg2 harg2 arg5 harg5 arg6 harg6 hc2 x0 xs5 xs6 = minimumf (minimumf (runB.sl.r_25 c i arg2 harg2 arg5 harg5 arg6 harg6 hc2 x0 xs5 xs6) (LF (xB c i arg2 harg2 arg5 harg5 hc2 x0 xs5) ((yB i arg6 harg6 xs6) 14))) (LF (xB c i arg2 harg2 arg5 harg5 hc2 x0 xs5) ((yB i arg6 harg6 xs6) 15)) := rfl

/-- The last point's final lane partial is the left-nested minimum over the sixteen chunks. -/
theorem rowsB_fold : runB.sl.r_26 c i arg2 harg2 arg5 harg5 arg6 harg6 hc2 x0 xs5 xs6 = rowFold16 (xB c i arg2 harg2 arg5 harg5 hc2 x0 xs5) (yB i arg6 harg6 xs6) := by
  rw [rB26, rB25, rB21, rB18, rB16, rB13, rB9, rB6, rB2]; rfl
end fold

/-- The last point's final lane partial at (r, l). -/
theorem rowsB_apply (c : Dev nD) (i : grid0.Coords) (arg2 : Memref sig .tc .vmem S8192x128 .f32) (harg2 : arg2.IsWhole) (arg5 : Memref sig .tc .vmem S4096x256 .bf16) (harg5 : arg5.IsWhole) (arg6 : Memref sig .tc .vmem S8192x256 .bf16) (harg6 : arg6.IsWhole) (hc2 : cond2 i) (x0 : Vec Ideal S8192x128 .f32) (xs5 : Vec Ideal S4096x256 .bf16) (xs6 : Vec Ideal S8192x256 .bf16) (r : Fin 4096) (l : Fin 128) :
    runB.sl.r_26 (F := Ideal) c i arg2 harg2 arg5 harg5 arg6 harg6 hc2 x0 xs5 xs6 (ix2 r l)
      = fold16 fun g : Fin 16 => fold4 fun h : Fin 4 =>
          chunkDist (F := Ideal) (xB c i arg2 harg2 arg5 harg5 hc2 x0 xs5) ((yB i arg6 harg6 xs6) g) (ix2 r ⟨h.val * 128 + l.val, by omega⟩) := by
  rw [rowsB_fold]; exact rowFold16_apply _ _ r l

/-- The same with each distance written out as the sum over the 256 augmented columns. -/
theorem rowsB_apply' (c : Dev nD) (i : grid0.Coords) (arg2 : Memref sig .tc .vmem S8192x128 .f32) (harg2 : arg2.IsWhole) (arg5 : Memref sig .tc .vmem S4096x256 .bf16) (harg5 : arg5.IsWhole) (arg6 : Memref sig .tc .vmem S8192x256 .bf16) (harg6 : arg6.IsWhole) (hc2 : cond2 i) (x0 : Vec Ideal S8192x128 .f32) (xs5 : Vec Ideal S4096x256 .bf16) (xs6 : Vec Ideal S8192x256 .bf16) (r : Fin 4096) (l : Fin 128) :
    runB.sl.r_26 (F := Ideal) c i arg2 harg2 arg5 harg5 arg6 harg6 hc2 x0 xs5 xs6 (ix2 r l)
      = fold16 fun g : Fin 16 => fold4 fun h : Fin 4 =>
          ∑ k : Fin 256, (xB c i arg2 harg2 arg5 harg5 hc2 x0 xs5) (ix2 r k) * (yB i arg6 harg6 xs6) g (ix2 (⟨h.val * 128 + l.val, by omega⟩ : Fin 512) k) := by
  rw [rowsB_fold]; exact rowFold16_apply' _ _ r l

end Cert.KernelIdeal.Body

end
-- ==== Proof.IdealAcc.lean ====
/-
  The running total of the row side, read at its one index. At the first grid point the total is reset to 0 and
  then receives, over the 4096 rows of the block, the row's least distance — the infimum over the 128 lanes of the
  point's final lane partial — clamped at 0. At the last point it receives the same sum on top of what it held.
-/
import proofs.«176257_g9887014716187_cont_9to1c4b_714_27_alg».proof.Proof.IdealReads3
import proofs.«176257_g9887014716187_cont_9to1c4b_714_27_alg».proof.Proof.IdealRunA
import proofs.«176257_g9887014716187_cont_9to1c4b_714_27_alg».proof.Proof.IdealRunB

set_option maxRecDepth 16384

noncomputable section

namespace Cert.KernelIdeal.Body

open Idealize.ShloMosaic Idealize.SL.Sem Idealize.ShloMosaic.ValueIdx
open Cert.KernelIdeal Cert.KernelIdeal.Gen

variable {F : FTy → Type} [FloatOps F]

/-- The offsets [0, 0] are the zero offsets. -/
theorem off00 : (![0, 0] : Fin S1x1.rank → Nat) = fun _ => 0 := by
  funext a
  match a with
  | ⟨0, _⟩ => rfl
  | ⟨1, _⟩ => rfl

/-- The reset value of the running total is 0. -/
theorem pay12_apply (y : S1x1.Idx) : k0_pay12 (F := Ideal) y = 0 := by
  unfold k0_pay12
  rw [shapeCast_self, broadcast_apply]
  exact Ideal.ofBits_zero_f32

/-- At the first point the total loaded before the row sum is added is the reset value just stored. -/
theorem v397A_eq (c : Dev nD) (arg9 : Memref sig .tc .vmem S1x1 .f32) : runA.sl.v397 (F := F) c arg9 = k0_pay12 (F := F) := by
  unfold runA.sl.v397 runA.sl.H9_1
  exact View.readCov_unit_zero (Val := Elt F) arg9.view off00 inb_S1x1_S1x1_0_0 (k0_pay12 (F := F))

/-- The first point's running total: 0 plus, over the 4096 rows, the row's least distance clamped at 0. -/
theorem accA_apply (c : Dev nD) (i : grid0.Coords) (arg2 : Memref sig .tc .vmem S8192x128 .f32) (harg2 : arg2.IsWhole) (arg3 : Memref sig .tc .vmem S8192x128 .f32) (harg3 : arg3.IsWhole) (arg5 : Memref sig .tc .vmem S4096x256 .bf16) (arg6 : Memref sig .tc .vmem S8192x256 .bf16) (hc2 : cond2 i) (hc3 : cond3 i) (arg9 : Memref sig .tc .vmem S1x1 .f32) (x0 x1 : Vec Ideal S8192x128 .f32) (f : BufTy.Contents (Elt Ideal) arg9.view.ty) :
    arg9.view.read (Elt Ideal) (arg9.view.writes (Elt Ideal) f
        [⟨Rect.unit ![0, 0] S1x1.size inb_S1x1_S1x1_0_0, k0_pay2 (F := Ideal) (runA.sl.r_24 c i arg2 harg2 arg3 harg3 arg5 arg6 hc2 hc3 x0 x1) (runA.sl.v397 c arg9)⟩,
         ⟨Rect.unit ![0, 0] S1x1.size inb_S1x1_S1x1_0_0, k0_pay12 (F := Ideal)⟩]) (ix2 0 0)
      = 0 + ∑ r : Fin 4096, max (Finset.univ.inf fun l : Fin 128 => runA.sl.r_24 (F := Ideal) c i arg2 harg2 arg3 harg3 arg5 arg6 hc2 hc3 x0 x1 (ix2 r l)) 0 := by
  rw [View.read_writes_eq_canon _ _ _ (fun y => ⟨_, List.mem_cons_self, View.mem_set_unit_zero off00 inb_S1x1_S1x1_0_0 y⟩),
    View.canon_cons_unit_zero off00 inb_S1x1_S1x1_0_0, pay2_apply, v397A_eq, pay12_apply]

/-- The last point's running total as it is loaded for the final store: what the buffer held plus, over the 4096
    rows, the row's least distance clamped at 0. -/
theorem accB_apply (c : Dev nD) (i : grid0.Coords) (arg2 : Memref sig .tc .vmem S8192x128 .f32) (harg2 : arg2.IsWhole) (arg5 : Memref sig .tc .vmem S4096x256 .bf16) (harg5 : arg5.IsWhole) (arg6 : Memref sig .tc .vmem S8192x256 .bf16) (harg6 : arg6.IsWhole) (hc2 : cond2 i) (arg9 : Memref sig .tc .vmem S1x1 .f32) (harg9 : arg9.IsWhole) (x0 : Vec Ideal S8192x128 .f32) (xs5 : Vec Ideal S4096x256 .bf16) (xs6 : Vec Ideal S8192x256 .bf16) (xs9 : Vec Ideal S1x1 .f32) :
    runB.sl.v414 (F := Ideal) c i arg2 harg2 arg5 harg5 arg6 harg6 arg9 harg9 hc2 x0 xs5 xs6 xs9 (ix2 0 0)
      = xs9 (ix2 0 0) + ∑ r : Fin 4096, max (Finset.univ.inf fun l : Fin 128 => runB.sl.r_26 (F := Ideal) c i arg2 harg2 arg5 harg5 arg6 harg6 hc2 x0 xs5 xs6 (ix2 r l)) 0 := by
  unfold runB.sl.v414 runB.sl.H9_1
  rw [View.readCov_unit_zero arg9.view off00 inb_S1x1_S1x1_0_0, pay2_apply, View.readAt_eq_ld, harg9.read_unread,
    View.ld_unit_zero off00 inb_S1x1_S1x1_0_0]

end Cert.KernelIdeal.Body

end
-- ==== Proof.IdealRowsD.lean ====
/-
  The row side down to the augmented products. Given that the operands the two grid points load are the augmented
  operands x~ (rows of the point's block) and y~ (chunk g holding rows 512·g … 512·g + 511), a row's infimum over
  the 128 lanes of the point's final lane partial is the row's infimum over all 8192 columns of the augmented
  product D; so the running total after the first point is 0 plus the clamped row infima of the first block, and
  the last point adds those of the second block to what the total held.
-/
import proofs.«176257_g9887014716187_cont_9to1c4b_714_27_alg».proof.Proof.IdealRowsA
import proofs.«176257_g9887014716187_cont_9to1c4b_714_27_alg».proof.Proof.IdealRowsB
import proofs.«176257_g9887014716187_cont_9to1c4b_714_27_alg».proof.Proof.IdealAcc
import proofs.«176257_g9887014716187_cont_9to1c4b_714_27_alg».proof.Proof.Algebra3

set_option maxRecDepth 16384

noncomputable section

namespace Cert.KernelIdeal.Body

open Idealize.ShloMosaic Idealize.SL.Sem Idealize.ShloMosaic.ValueIdx
open Cert.KernelIdeal Cert.KernelIdeal.Gen Cert.Chamfer

/-- Column 512·g + (128·h + l), as chunk g's row 128·h + l, is column (g, h, l). -/
theorem chunkRow_col (g : Fin 16) (h : Fin 4) (l : Fin 128) :
    (⟨g.val * 512 + (⟨h.val * 128 + l.val, by omega⟩ : Fin 512).val, by omega⟩ : Fin 8192) = col g h l :=
  Fin.ext (by show g.val * 512 + (h.val * 128 + l.val) = g.val * 512 + h.val * 128 + l.val; omega)

/-- The first point: a row's least entry of the final lane partial is the row's infimum of D over all columns. -/
theorem rowsA_D (c : Dev nD) (i : grid0.Coords) (arg2 : Memref sig .tc .vmem S8192x128 .f32) (harg2 : arg2.IsWhole) (arg3 : Memref sig .tc .vmem S8192x128 .f32) (harg3 : arg3.IsWhole) (arg5 : Memref sig .tc .vmem S4096x256 .bf16) (arg6 : Memref sig .tc .vmem S8192x256 .bf16) (hc2 : cond2 i) (hc3 : cond3 i) (x0 x1 : Vec Ideal S8192x128 .f32) (X Y : Pts)
    (hXA : ∀ (r : Fin 4096) (k : Fin 256), xA c i arg2 harg2 arg5 hc2 x0 (ix2 r k) = xa X (lo r) k)
    (hYA : ∀ (g : Fin 16) (q : Fin 512) (k : Fin 256), yA c i arg3 harg3 arg6 hc3 x1 g (ix2 q k) = ya Y ⟨g.val * 512 + q.val, by omega⟩ k)
    (r : Fin 4096) :
    (Finset.univ.inf fun l : Fin 128 => runA.sl.r_24 (F := Ideal) c i arg2 harg2 arg3 harg3 arg5 arg6 hc2 hc3 x0 x1 (ix2 r l))
      = Finset.univ.inf fun j : Fin 8192 => D X Y (lo r) j := by
  rw [← row_inf_nested X Y (lo r)]
  refine Finset.inf_congr rfl fun l _ => ?_
  rw [rowsA_apply']
  refine congrArg fold16 (funext fun g => congrArg fold4 (funext fun h => ?_))
  rw [D_def]
  refine Finset.sum_congr rfl fun k _ => ?_
  rw [hXA, hYA, chunkRow_col]

/-- The last point: the same over the second block of rows. -/
theorem rowsB_D (c : Dev nD) (i : grid0.Coords) (arg2 : Memref sig .tc .vmem S8192x128 .f32) (harg2 : arg2.IsWhole) (arg5 : Memref sig .tc .vmem S4096x256 .bf16) (harg5 : arg5.IsWhole) (arg6 : Memref sig .tc .vmem S8192x256 .bf16) (harg6 : arg6.IsWhole) (hc2 : cond2 i) (x0 : Vec Ideal S8192x128 .f32) (xs5 : Vec Ideal S4096x256 .bf16) (xs6 : Vec Ideal S8192x256 .bf16) (X Y : Pts)
    (hXB : ∀ (r : Fin 4096) (k : Fin 256), xB c i arg2 harg2 arg5 harg5 hc2 x0 xs5 (ix2 r k) = xa X (hi r) k)
    (hYB : ∀ (g : Fin 16) (q : Fin 512) (k : Fin 256), yB i arg6 harg6 xs6 g (ix2 q k) = ya Y ⟨g.val * 512 + q.val, by omega⟩ k)
    (r : Fin 4096) :
    (Finset.univ.inf fun l : Fin 128 => runB.sl.r_26 (F := Ideal) c i arg2 harg2 arg5 harg5 arg6 harg6 hc2 x0 xs5 xs6 (ix2 r l))
      = Finset.univ.inf fun j : Fin 8192 => D X Y (hi r) j := by
  rw [← row_inf_nested X Y (hi r)]
  refine Finset.inf_congr rfl fun l _ => ?_
  rw [rowsB_apply']
  refine congrArg fold16 (funext fun g => congrArg fold4 (funext fun h => ?_))
  rw [D_def]
  refine Finset.sum_congr rfl fun k _ => ?_
  rw [hXB, hYB, chunkRow_col]

/-- The running total after the first point: 0 plus, over the first block's rows, the row's infimum of D clamped at 0. -/
theorem accA_D (c : Dev nD) (i : grid0.Coords) (arg2 : Memref sig .tc .vmem S8192x128 .f32) (harg2 : arg2.IsWhole) (arg3 : Memref sig .tc .vmem S8192x128 .f32) (harg3 : arg3.IsWhole) (arg5 : Memref sig .tc .vmem S4096x256 .bf16) (arg6 : Memref sig .tc .vmem S8192x256 .bf16) (hc2 : cond2 i) (hc3 : cond3 i) (arg9 : Memref sig .tc .vmem S1x1 .f32) (x0 x1 : Vec Ideal S8192x128 .f32) (f : BufTy.Contents (Elt Ideal) arg9.view.ty) (X Y : Pts)
    (hXA : ∀ (r : Fin 4096) (k : Fin 256), xA c i arg2 harg2 arg5 hc2 x0 (ix2 r k) = xa X (lo r) k)
    (hYA : ∀ (g : Fin 16) (q : Fin 512) (k : Fin 256), yA c i arg3 harg3 arg6 hc3 x1 g (ix2 q k) = ya Y ⟨g.val * 512 + q.val, by omega⟩ k) :
    arg9.view.read (Elt Ideal) (arg9.view.writes (Elt Ideal) f
        [⟨Rect.unit ![0, 0] S1x1.size inb_S1x1_S1x1_0_0, k0_pay2 (F := Ideal) (runA.sl.r_24 c i arg2 harg2 arg3 harg3 arg5 arg6 hc2 hc3 x0 x1) (runA.sl.v397 c arg9)⟩,
         ⟨Rect.unit ![0, 0] S1x1.size inb_S1x1_S1x1_0_0, k0_pay12 (F := Ideal)⟩]) (ix2 0 0)
      = 0 + ∑ r : Fin 4096, max (Finset.univ.inf fun j : Fin 8192 => D X Y (lo r) j) 0 := by
  rw [accA_apply]
  refine congrArg (0 + ·) (Finset.sum_congr rfl fun r _ => ?_)
  rw [rowsA_D c i arg2 harg2 arg3 harg3 arg5 arg6 hc2 hc3 x0 x1 X Y hXA hYA r]

/-- The running total the last point loads for the final store: what it held plus, over the second block's rows,
    the row's infimum of D clamped at 0. -/
theorem accB_D (c : Dev nD) (i : grid0.Coords) (arg2 : Memref sig .tc .vmem S8192x128 .f32) (harg2 : arg2.IsWhole) (arg5 : Memref sig .tc .vmem S4096x256 .bf16) (harg5 : arg5.IsWhole) (arg6 : Memref sig .tc .vmem S8192x256 .bf16) (harg6 : arg6.IsWhole) (hc2 : cond2 i) (arg9 : Memref sig .tc .vmem S1x1 .f32) (harg9 : arg9.IsWhole) (x0 : Vec Ideal S8192x128 .f32) (xs5 : Vec Ideal S4096x256 .bf16) (xs6 : Vec Ideal S8192x256 .bf16) (xs9 : Vec Ideal S1x1 .f32) (X Y : Pts)
    (hXB : ∀ (r : Fin 4096) (k : Fin 256), xB c i arg2 harg2 arg5 harg5 hc2 x0 xs5 (ix2 r k) = xa X (hi r) k)
    (hYB : ∀ (g : Fin 16) (q : Fin 512) (k : Fin 256), yB i arg6 harg6 xs6 g (ix2 q k) = ya Y ⟨g.val * 512 + q.val, by omega⟩ k) :
    runB.sl.v414 (F := Ideal) c i arg2 harg2 arg5 harg5 arg6 harg6 arg9 harg9 hc2 x0 xs5 xs6 xs9 (ix2 0 0)
      = xs9 (ix2 0 0) + ∑ r : Fin 4096, max (Finset.univ.inf fun j : Fin 8192 => D X Y (hi r) j) 0 := by
  rw [accB_apply]
  refine congrArg (xs9 (ix2 0 0) + ·) (Finset.sum_congr rfl fun r _ => ?_)
  rw [rowsB_D c i arg2 harg2 arg5 harg5 arg6 harg6 hc2 x0 xs5 xs6 X Y hXB hYB r]

end Cert.KernelIdeal.Body

end
-- ==== Proof.IdealReads4.lean ====
/-
  The builders of the two augmented operands read at an index. Row operand, for a row x of the block: columns
  0…127 are −2·x, column 128 is the squared norm ∑ₖ xₖ², column 129 is that norm minus itself (the low part of a
  two-piece split: a change of float format is the identity on extended reals), columns 130 and 131 are 1 and the
  remaining 124 columns are 0. Column operand, for a point y: columns 0…127 are y, columns 128 and 129 are 1,
  column 130 is the squared norm, column 131 is the norm minus itself, and the remaining 124 columns are 0.
-/
import proofs.«176257_g9887014716187_cont_9to1c4b_714_27_alg».proof.Proof.IdealReads2
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Idealize.ShloMosaic Idealize.SL.Sem Idealize.ShloMosaic.ValueIdx
open Cert.KernelIdeal Cert.KernelIdeal.Gen

/-- The f32 word 0xC0000000 is −2. -/
theorem ofBits_neg2_f32 : Ideal.ofBits .f32 0xC0000000#32 = -2 := by
  simp [Ideal.ofBits, Ideal.ieee, -EReal.coe_mul]; norm_num
  first | rfl | norm_cast | exact_mod_cast rfl

/-- The bf16 word 0x3F80 is 1. -/
theorem ofBits_one_bf16 : Ideal.ofBits .bf16 0x3F80#16 = 1 := by
  simp [Ideal.ofBits, Ideal.ieee, -EReal.coe_mul]; norm_num

/-- The bf16 zero word is 0. -/
theorem ofBits_zero_bf16 : Ideal.ofBits .bf16 0x0000#16 = 0 := by simp [Ideal.ofBits, Ideal.ieee]

/-! ## The row operand x~ = [−2x, x², x² − x², 1, 1, 0…] -/

/-- Columns 0…127: the coordinates times −2. -/
theorem pay16_apply (v : Vec Ideal S4096x128 .f32) (i : S4096x128.Idx) : k0_pay16 (F := Ideal) v i = v i * (-2) := by
  show shapeCast S4096x128 (truncf .bf16 (mulf (F := Ideal) v (broadcast S4096x128 (Scalar.ofBits .f32 0xC0000000#32))) bitsLt_bf16_f32) shapeCasts_S4096x128_S4096x128 i = _
  rw [shapeCast_self]
  show v i * Ideal.ofBits .f32 0xC0000000#32 = _
  rw [ofBits_neg2_f32]

/-- The squared norm of row r, as a [4096, 1] column. -/
theorem pay14_apply (v : Vec Ideal S4096x128 .f32) (r : Fin 4096) (u : Fin 1) :
    k0_pay14 (F := Ideal) v (ix2 r u) = ∑ k : Fin 128, v (ix2 r k) * v (ix2 r k) := by
  show shapeCast S4096x1 (multiReduction .add [1] S4096 (mulf (F := Ideal) v v) 0x00000000#32 reduces_S4096x128_S4096 (.inl rfl) rfl) shapeCasts_S4096_S4096x1 (ix2 r u) = _
  refine (shapeCast_a_a1_apply _ shapeCasts_S4096_S4096x1 r u).trans ?_
  refine (Ideal.multiReduction_add_single _ 0x00000000#32 reduces_S4096x128_S4096 (.inl rfl) rfl (ix1 r)).trans ?_
  show ∑ k : Fin 128, mulf (F := Ideal) v v (reduces_S4096x128_S4096.lift (ix1 r) k) = _
  exact Finset.sum_congr rfl fun k _ => by rw [rowLift, mulf_apply]

/-- Column 128: the squared norm (a change of float format is the identity on extended reals). -/
theorem pay17_apply (v : Vec Ideal S4096x128 .f32) (r : Fin 4096) (u : Fin 1) :
    k0_pay17 (F := Ideal) v (ix2 r u) = ∑ k : Fin 128, v (ix2 r k) * v (ix2 r k) := by
  show shapeCast S4096x1 (truncf .bf16 (k0_pay14 v) bitsLt_bf16_f32) shapeCasts_S4096x1_S4096x1 (ix2 r u) = _
  rw [shapeCast_self, truncf_apply, pay14_apply]

/-- Column 129: the squared norm minus itself. -/
theorem pay18_apply (v : Vec Ideal S4096x128 .f32) (r : Fin 4096) (u : Fin 1) :
    k0_pay18 (F := Ideal) v (ix2 r u)
      = (∑ k : Fin 128, v (ix2 r k) * v (ix2 r k)) - ∑ k : Fin 128, v (ix2 r k) * v (ix2 r k) := by
  show shapeCast S4096x1 (truncf .bf16 (subf (k0_pay14 v) (k0_pay14 v)) bitsLt_bf16_f32) shapeCasts_S4096x1_S4096x1 (ix2 r u) = _
  rw [shapeCast_self, truncf_apply, subf_apply, pay14_apply]

/-- Columns 130 and 131: 1. -/
theorem pay19_apply (i : S4096x1.Idx) : k0_pay19 (F := Ideal) i = 1 := by
  show shapeCast S4096x1 (broadcast S4096x1 (Scalar.ofBits (F := Ideal) .bf16 0x3F80#16)) shapeCasts_S4096x1_S4096x1 i = 1
  rw [shapeCast_self]; exact ofBits_one_bf16
theorem pay20_apply (i : S4096x1.Idx) : k0_pay20 (F := Ideal) i = 1 := pay19_apply i

/-- Columns 132…255: 0. -/
theorem pay13_apply (i : S4096x124.Idx) : k0_pay13 (F := Ideal) i = 0 := by
  show shapeCast S4096x124 (broadcast S4096x124 (Scalar.ofBits (F := Ideal) .bf16 0x0000#16)) shapeCasts_S4096x124_S4096x124 i = 0
  rw [shapeCast_self]; exact ofBits_zero_bf16

/-! ## The column operand y~ = [y, 1, 1, y², y² − y², 0…] -/

/-- The source index over row j of the column operand's points with coordinate k inserted. -/
theorem rowLift8 (j : Fin 8192) (k : Fin 128) :
    reduces_S8192x128_S8192.lift (ix1 j) k = ix2 j k :=
  funext fun c => Fin.ext (by match c with | ⟨0, _⟩ => rfl | ⟨1, _⟩ => rfl)

/-- Columns 0…127: the coordinates. -/
theorem pay6_apply (v : Vec Ideal S8192x128 .f32) (i : S8192x128.Idx) : k0_pay6 (F := Ideal) v i = v i := by
  show shapeCast S8192x128 (truncf (F := Ideal) .bf16 v bitsLt_bf16_f32) shapeCasts_S8192x128_S8192x128 i = _
  rw [shapeCast_self, truncf_apply]

/-- Columns 128 and 129: 1. -/
theorem pay7_apply (i : S8192x1.Idx) : k0_pay7 (F := Ideal) i = 1 := by
  show shapeCast S8192x1 (broadcast S8192x1 (Scalar.ofBits (F := Ideal) .bf16 0x3F80#16)) shapeCasts_S8192x1_S8192x1 i = 1
  rw [shapeCast_self]; exact ofBits_one_bf16
theorem pay8_apply (i : S8192x1.Idx) : k0_pay8 (F := Ideal) i = 1 := pay7_apply i

/-- The squared norm of point j, as an [8192, 1] column. -/
theorem pay4_apply (v : Vec Ideal S8192x128 .f32) (j : Fin 8192) (u : Fin 1) :
    k0_pay4 (F := Ideal) v (ix2 j u) = ∑ k : Fin 128, v (ix2 j k) * v (ix2 j k) := by
  show shapeCast S8192x1 (multiReduction .add [1] S8192 (mulf (F := Ideal) v v) 0x00000000#32 reduces_S8192x128_S8192 (.inl rfl) rfl) shapeCasts_S8192_S8192x1 (ix2 j u) = _
  refine (shapeCast_a_a1_apply _ shapeCasts_S8192_S8192x1 j u).trans ?_
  refine (Ideal.multiReduction_add_single _ 0x00000000#32 reduces_S8192x128_S8192 (.inl rfl) rfl (ix1 j)).trans ?_
  show ∑ k : Fin 128, mulf (F := Ideal) v v (reduces_S8192x128_S8192.lift (ix1 j) k) = _
  exact Finset.sum_congr rfl fun k _ => by rw [rowLift8, mulf_apply]

/-- Column 130: the squared norm. -/
theorem pay9_apply (v : Vec Ideal S8192x128 .f32) (j : Fin 8192) (u : Fin 1) :
    k0_pay9 (F := Ideal) v (ix2 j u) = ∑ k : Fin 128, v (ix2 j k) * v (ix2 j k) := by
  show shapeCast S8192x1 (truncf .bf16 (k0_pay4 v) bitsLt_bf16_f32) shapeCasts_S8192x1_S8192x1 (ix2 j u) = _
  rw [shapeCast_self, truncf_apply, pay4_apply]

/-- Column 131: the squared norm minus itself. -/
theorem pay10_apply (v : Vec Ideal S8192x128 .f32) (j : Fin 8192) (u : Fin 1) :
    k0_pay10 (F := Ideal) v (ix2 j u)
      = (∑ k : Fin 128, v (ix2 j k) * v (ix2 j k)) - ∑ k : Fin 128, v (ix2 j k) * v (ix2 j k) := by
  show shapeCast S8192x1 (truncf .bf16 (subf (k0_pay4 v) (k0_pay4 v)) bitsLt_bf16_f32) shapeCasts_S8192x1_S8192x1 (ix2 j u) = _
  rw [shapeCast_self, truncf_apply, subf_apply, pay4_apply]

/-- Columns 132…255: 0. -/
theorem pay21_pay11_apply (i : S8192x124.Idx) : k0_pay21 (F := Ideal) k0_pay11 i = 0 := by
  show shapeCast S8192x124 (broadcast S8192x124 (Scalar.ofBits (F := Ideal) .bf16 0x0000#16)) shapeCasts_S8192x124_S8192x124 i = 0
  rw [shapeCast_self]; exact ofBits_zero_bf16

end Cert.KernelIdeal.Body

end
-- ==== Proof.IdealPts.lean ====
/-
  The point set an argument array of the kernel holds: point i's coordinate k is the array's entry (i, k).
-/
import proofs.«176257_g9887014716187_cont_9to1c4b_714_27_alg».proof.Proof.Spec
import proofs.«176257_g9887014716187_cont_9to1c4b_714_27_alg».proof.KernelIdeal
import Idealize.ShloMosaic.Lib.ValueIdx

noncomputable section

namespace Cert.KernelIdeal.Body

open Idealize.ShloMosaic Idealize.ShloMosaic.ValueIdx
open Cert.KernelIdeal

/-- The point set of an [8192, 128] array over the extended reals. -/
def pts' (x : Vec Ideal S8192x128 .f32) : Cert.Chamfer.Pts := fun i k => x (ix2 i k)

theorem pts'_apply (x : Vec Ideal S8192x128 .f32) (i : Fin 8192) (k : Fin 128) : pts' x i k = x (ix2 i k) := rfl

end Cert.KernelIdeal.Body

end
-- ==== Proof.IdealOperands.lean ====
/-
  The augmented row operand, store by store. At a grid point the body loads the 4096 rows 4096·i₀ … 4096·i₀ + 4095 of
  x and stores, into the [4096, 256] scratch buffer, five column blocks built from them — columns 0…127 (−2·x), 128
  (the squared norm), 129 (the norm minus itself), 130 and 131 (ones) — and, at the first point only, zeros into
  columns 132…255. Here: the stores as a list of pieces, the loaded rows as rows of x, and the fact that every piece
  writes the values of ONE function of the buffer's index, the augmented row operand xa of the point the buffer's row
  holds.
-/
import proofs.«176257_g9887014716187_cont_9to1c4b_714_27_alg».proof.Proof.IdealRunA
import proofs.«176257_g9887014716187_cont_9to1c4b_714_27_alg».proof.Proof.IdealRunB
import proofs.«176257_g9887014716187_cont_9to1c4b_714_27_alg».proof.Proof.IdealReads4
import proofs.«176257_g9887014716187_cont_9to1c4b_714_27_alg».proof.Proof.IdealPts
import proofs.«176257_g9887014716187_cont_9to1c4b_714_27_alg».proof.Proof.Algebra1
import proofs.«176257_g9887014716187_cont_9to1c4b_714_27_alg».proof.Proof.Algebra2
import Idealize.ShloMosaic.Lib.WritesUnit
import Idealize.ShloMosaic.Lib.WholeRead

noncomputable section

namespace Cert.KernelIdeal.Body

open Idealize.ShloMosaic Idealize.SL.Sem Idealize.ShloMosaic.ValueIdx
open Cert.KernelIdeal Cert.KernelIdeal.Gen

/-- Membership in a unit-stride rectangle of a rank-2 shape, axis by axis. -/
theorem mem_unit2 {d off size : Fin 2 → ℕ} (inb : ∀ a, off a + size a ≤ (⟨2, d⟩ : Shape).size a) (y : (⟨2, d⟩ : Shape).Idx) :
    y ∈ (Rect.unit off size inb).set
      ↔ (off 0 ≤ (y 0).val ∧ (y 0).val < off 0 + size 0) ∧ (off 1 ≤ (y 1).val ∧ (y 1).val < off 1 + size 1) :=
  Rect.mem_set_unit.trans Fin.forall_fin_two

section Pieces
variable {F : FTy → Type} [FloatOps F]

/-- The 4096 rows of x the body loads at a grid point: rows 4096·i₀ … 4096·i₀ + 4095. -/
def xRows (i : grid0.Coords) (arg2 : Memref sig .tc .vmem S8192x128 .f32) (harg2 : arg2.IsWhole) (hc2 : cond2 i)
    (x0 : Vec F S8192x128 .f32) : Vec F S4096x128 .f32 :=
  View.readAt (Elt F) arg2.view (Rect.unit (s := S8192x128) (k0_off1 i) S4096x128.size (k0_off1_inb i hc2)).toLoadRect (harg2.unread x0)

/-- The five stores that rebuild columns 0…131 of the augmented row operand from the loaded rows, last first. -/
def xPieces (v : Vec F S4096x128 .f32) : List (View.Piece (Elt F) S4096x256 .bf16) :=
  [⟨Rect.unit ![0, 131] S4096x1.size inb_S4096x256_S4096x1_0_131, k0_pay20⟩,
   ⟨Rect.unit ![0, 130] S4096x1.size inb_S4096x256_S4096x1_0_130, k0_pay19⟩,
   ⟨Rect.unit ![0, 129] S4096x1.size inb_S4096x256_S4096x1_0_129, k0_pay18 v⟩,
   ⟨Rect.unit ![0, 128] S4096x1.size inb_S4096x256_S4096x1_0_128, k0_pay17 v⟩,
   ⟨Rect.unit ![0, 0] S4096x128.size inb_S4096x256_S4096x128_0_0, k0_pay16 v⟩]

/-- The store of the zero padding into columns 132…255, made once at the first point. -/
def xPad : View.Piece (Elt F) S4096x256 .bf16 :=
  ⟨Rect.unit ![0, 132] S4096x124.size inb_S4096x256_S4096x124_0_132, k0_pay13⟩

theorem H5_6_eq (c : Dev nD) (i : grid0.Coords) (arg2 : Memref sig .tc .vmem S8192x128 .f32) (harg2 : arg2.IsWhole) (hc2 : cond2 i)
    (x0 : Vec F S8192x128 .f32) :
    runA.sl.H5_6 c i arg2 harg2 hc2 x0 = xPieces (xRows i arg2 harg2 hc2 x0) ++ [xPad] := rfl

theorem H5_5_eq (c : Dev nD) (i : grid0.Coords) (arg2 : Memref sig .tc .vmem S8192x128 .f32) (harg2 : arg2.IsWhole) (hc2 : cond2 i)
    (x0 : Vec F S8192x128 .f32) :
    runB.sl.H5_5 c i arg2 harg2 hc2 x0 = xPieces (xRows i arg2 harg2 hc2 x0) := rfl

end Pieces

/-- The loaded rows are rows 4096·i₀ + r of x. -/
theorem xRows_apply (i : grid0.Coords) (arg2 : Memref sig .tc .vmem S8192x128 .f32) (harg2 : arg2.IsWhole) (hc2 : cond2 i)
    (x0 : Vec Ideal S8192x128 .f32) (r : Fin 4096) (k : Fin 128) (row : Fin 8192) (hrow : row.val = 4096 * (i 0).val + r.val) :
    xRows i arg2 harg2 hc2 x0 (ix2 r k) = x0 (ix2 row k) := by
  unfold xRows
  refine (harg2.readAt_unread x0 (Rect.unit (s := S8192x128) (k0_off1 i) S4096x128.size (k0_off1_inb i hc2)).toLoadRect (ix2 r k)).trans (congrArg x0 (funext fun a => Fin.ext ?_))
  match a with
  | ⟨0, _⟩ =>
    show k0_off1 i 0 + 1 * r.val = row.val
    rw [k0_off1_eq]; show 4096 * (i 0).val + 1 * r.val = row.val; omega
  | ⟨1, _⟩ =>
    show k0_off1 i 1 + 1 * k.val = k.val
    rw [k0_off1_eq]; show 0 + 1 * k.val = k.val; omega

/-- The augmented row operand as a function of the scratch buffer's index, the buffer's row r holding point rowOf r. -/
def xaG (x0 : Vec Ideal S8192x128 .f32) (rowOf : Fin 4096 → Fin 8192) : S4096x256.Idx → Elt Ideal .bf16 :=
  fun y => Cert.Chamfer.xa (pts' x0) (rowOf ⟨(y 0).val, idx2_lt0 y⟩) ⟨(y 1).val, idx2_lt1 y⟩

theorem xaG_at (x0 : Vec Ideal S8192x128 .f32) (rowOf : Fin 4096 → Fin 8192) (y : S4096x256.Idx) (r : Fin 4096) (k : Fin 256)
    (h0 : (y 0).val = r.val) (h1 : (y 1).val = k.val) : xaG x0 rowOf y = Cert.Chamfer.xa (pts' x0) (rowOf r) k := by
  unfold xaG
  rw [show (⟨(y 0).val, idx2_lt0 y⟩ : Fin 4096) = r from Fin.ext h0, show (⟨(y 1).val, idx2_lt1 y⟩ : Fin 256) = k from Fin.ext h1]

/-- The squared norm of a point of x from the loaded rows. -/
theorem sq_rows (x0 : Vec Ideal S8192x128 .f32) (rowOf : Fin 4096 → Fin 8192) (v : Vec Ideal S4096x128 .f32)
    (hv : ∀ r k, v (ix2 r k) = x0 (ix2 (rowOf r) k)) (r : Fin 4096) :
    (∑ k : Fin 128, v (ix2 r k) * v (ix2 r k)) = Cert.Chamfer.sq (pts' x0) (rowOf r) := by
  unfold Cert.Chamfer.sq pts'
  exact Finset.sum_congr rfl fun k _ => by rw [hv]

/-- Each of the five stores writes the augmented row operand's values on its columns. -/
theorem xPieces_agree (x0 : Vec Ideal S8192x128 .f32) (rowOf : Fin 4096 → Fin 8192) (v : Vec Ideal S4096x128 .f32)
    (hv : ∀ r k, v (ix2 r k) = x0 (ix2 (rowOf r) k)) :
    ∀ p ∈ xPieces (F := Ideal) v, ∀ x : p.1.shape.Idx, p.2 x = xaG x0 rowOf (p.1.emb x) := by
  intro p hp
  simp only [xPieces, List.mem_cons, List.not_mem_nil, or_false] at hp
  rcases hp with rfl | rfl | rfl | rfl | rfl
  · intro x
    obtain ⟨r, u, rfl⟩ : ∃ (r : Fin 4096) (u : Fin 1), x = ix2 r u := ⟨x 0, x 1, eq_ix2 x⟩
    show k0_pay20 (F := Ideal) (ix2 r u) = xaG x0 rowOf _
    rw [pay20_apply]
    refine ((xaG_at x0 rowOf _ r ⟨131, by omega⟩ (by show 0 + 1 * r.val = r.val; omega) (by show 131 + 1 * u.val = 131; omega)).trans ?_).symm
    exact Cert.Chamfer.xa_131 _ _ _ rfl
  · intro x
    obtain ⟨r, u, rfl⟩ : ∃ (r : Fin 4096) (u : Fin 1), x = ix2 r u := ⟨x 0, x 1, eq_ix2 x⟩
    show k0_pay19 (F := Ideal) (ix2 r u) = xaG x0 rowOf _
    rw [pay19_apply]
    refine ((xaG_at x0 rowOf _ r ⟨130, by omega⟩ (by show 0 + 1 * r.val = r.val; omega) (by show 130 + 1 * u.val = 130; omega)).trans ?_).symm
    exact Cert.Chamfer.xa_130 _ _ _ rfl
  · intro x
    obtain ⟨r, u, rfl⟩ : ∃ (r : Fin 4096) (u : Fin 1), x = ix2 r u := ⟨x 0, x 1, eq_ix2 x⟩
    show k0_pay18 (F := Ideal) v (ix2 r u) = xaG x0 rowOf _
    rw [pay18_apply]
    refine ((xaG_at x0 rowOf _ r ⟨129, by omega⟩ (by show 0 + 1 * r.val = r.val; omega) (by show 129 + 1 * u.val = 129; omega)).trans ?_).symm
    rw [Cert.Chamfer.xa_129 _ _ _ rfl, sq_rows x0 rowOf v hv r]
  · intro x
    obtain ⟨r, u, rfl⟩ : ∃ (r : Fin 4096) (u : Fin 1), x = ix2 r u := ⟨x 0, x 1, eq_ix2 x⟩
    show k0_pay17 (F := Ideal) v (ix2 r u) = xaG x0 rowOf _
    rw [pay17_apply]
    refine ((xaG_at x0 rowOf _ r ⟨128, by omega⟩ (by show 0 + 1 * r.val = r.val; omega) (by show 128 + 1 * u.val = 128; omega)).trans ?_).symm
    rw [Cert.Chamfer.xa_128 _ _ _ rfl, sq_rows x0 rowOf v hv r]
  · intro x
    obtain ⟨r, k, rfl⟩ : ∃ (r : Fin 4096) (k : Fin 128), x = ix2 r k := ⟨x 0, x 1, eq_ix2 x⟩
    show k0_pay16 (F := Ideal) v (ix2 r k) = xaG x0 rowOf _
    rw [pay16_apply]
    refine ((xaG_at x0 rowOf _ r ⟨k.val, by omega⟩ (by show 0 + 1 * r.val = r.val; omega) (by show 0 + 1 * k.val = k.val; omega)).trans ?_).symm
    rw [Cert.Chamfer.xa_lt _ _ _ k.isLt, hv]
    rfl

/-- The padding store writes the augmented row operand's zeros on columns 132…255. -/
theorem xPad_agree (x0 : Vec Ideal S8192x128 .f32) (rowOf : Fin 4096 → Fin 8192) (x : (xPad (F := Ideal)).1.shape.Idx) :
    (xPad (F := Ideal)).2 x = xaG x0 rowOf ((xPad (F := Ideal)).1.emb x) := by
  obtain ⟨r, k, rfl⟩ : ∃ (r : Fin 4096) (k : Fin 124), x = ix2 r k := ⟨x 0, x 1, eq_ix2 x⟩
  show k0_pay13 (F := Ideal) (ix2 r k) = xaG x0 rowOf _
  rw [pay13_apply]
  refine ((xaG_at x0 rowOf _ r ⟨132 + k.val, by omega⟩ (by show 0 + 1 * r.val = r.val; omega) (by show 132 + 1 * k.val = 132 + k.val; omega)).trans ?_).symm
  exact Cert.Chamfer.xa_ge _ _ _ (by show 132 ≤ 132 + k.val; omega)

end Cert.KernelIdeal.Body

end
-- ==== Proof.IdealOperands2.lean ====
/-
  The augmented row operand read back. The five stores cover columns 0…131 and touch no other column; the padding
  store covers columns 132…255. So after the first point the buffer holds xa of the first 4096 points of x at every
  index, whatever it held before; and at the last point, where only the five stores are made, it holds xa of the last
  4096 points provided columns 132…255 held zeros.
-/
import proofs.«176257_g9887014716187_cont_9to1c4b_714_27_alg».proof.Proof.IdealOperands

noncomputable section

namespace Cert.KernelIdeal.Body

open Idealize.ShloMosaic Idealize.SL.Sem Idealize.ShloMosaic.ValueIdx
open Cert.KernelIdeal Cert.KernelIdeal.Gen

/-- Columns 0…131 are covered by the five stores. -/
theorem xPieces_cover (v : Vec Ideal S4096x128 .f32) (y : S4096x256.Idx) (hy : (y 1).val < 132) :
    ∃ p ∈ xPieces (F := Ideal) v, y ∈ p.1.set := by
  have h0 : (y 0).val < 4096 := idx2_lt0 y
  by_cases h128 : (y 1).val < 128
  · exact ⟨⟨Rect.unit ![0, 0] S4096x128.size inb_S4096x256_S4096x128_0_0, k0_pay16 v⟩, List.mem_cons_of_mem _ (List.mem_cons_of_mem _ (List.mem_cons_of_mem _ (List.mem_cons_of_mem _ (List.mem_cons_self)))),
      (mem_unit2 inb_S4096x256_S4096x128_0_0 y).mpr ⟨⟨Nat.zero_le _, by show (y 0).val < 0 + 4096; omega⟩, ⟨Nat.zero_le _, by show (y 1).val < 0 + 128; omega⟩⟩⟩
  by_cases h129 : (y 1).val < 129
  · exact ⟨⟨Rect.unit ![0, 128] S4096x1.size inb_S4096x256_S4096x1_0_128, k0_pay17 v⟩, List.mem_cons_of_mem _ (List.mem_cons_of_mem _ (List.mem_cons_of_mem _ (List.mem_cons_self))),
      (mem_unit2 inb_S4096x256_S4096x1_0_128 y).mpr ⟨⟨Nat.zero_le _, by show (y 0).val < 0 + 4096; omega⟩, ⟨by show 128 ≤ (y 1).val; omega, by show (y 1).val < 128 + 1; omega⟩⟩⟩
  by_cases h130 : (y 1).val < 130
  · exact ⟨⟨Rect.unit ![0, 129] S4096x1.size inb_S4096x256_S4096x1_0_129, k0_pay18 v⟩, List.mem_cons_of_mem _ (List.mem_cons_of_mem _ (List.mem_cons_self)),
      (mem_unit2 inb_S4096x256_S4096x1_0_129 y).mpr ⟨⟨Nat.zero_le _, by show (y 0).val < 0 + 4096; omega⟩, ⟨by show 129 ≤ (y 1).val; omega, by show (y 1).val < 129 + 1; omega⟩⟩⟩
  by_cases h131 : (y 1).val < 131
  · exact ⟨⟨Rect.unit ![0, 130] S4096x1.size inb_S4096x256_S4096x1_0_130, k0_pay19 (F := Ideal)⟩, List.mem_cons_of_mem _ (List.mem_cons_self),
      (mem_unit2 inb_S4096x256_S4096x1_0_130 y).mpr ⟨⟨Nat.zero_le _, by show (y 0).val < 0 + 4096; omega⟩, ⟨by show 130 ≤ (y 1).val; omega, by show (y 1).val < 130 + 1; omega⟩⟩⟩
  · exact ⟨⟨Rect.unit ![0, 131] S4096x1.size inb_S4096x256_S4096x1_0_131, k0_pay20 (F := Ideal)⟩, List.mem_cons_self,
      (mem_unit2 inb_S4096x256_S4096x1_0_131 y).mpr ⟨⟨Nat.zero_le _, by show (y 0).val < 0 + 4096; omega⟩, ⟨by show 131 ≤ (y 1).val; omega, by show (y 1).val < 131 + 1; omega⟩⟩⟩

/-- Columns 132…255 are touched by none of the five. -/
theorem xPieces_miss (v : Vec Ideal S4096x128 .f32) (y : S4096x256.Idx) (hy : 132 ≤ (y 1).val) :
    ∀ p ∈ xPieces (F := Ideal) v, y ∉ p.1.set := by
  intro p hp hmem
  simp only [xPieces, List.mem_cons, List.not_mem_nil, or_false] at hp
  rcases hp with rfl | rfl | rfl | rfl | rfl
  · have h : (y 1).val < 131 + 1 := ((mem_unit2 inb_S4096x256_S4096x1_0_131 y).mp hmem).2.2; omega
  · have h : (y 1).val < 130 + 1 := ((mem_unit2 inb_S4096x256_S4096x1_0_130 y).mp hmem).2.2; omega
  · have h : (y 1).val < 129 + 1 := ((mem_unit2 inb_S4096x256_S4096x1_0_129 y).mp hmem).2.2; omega
  · have h : (y 1).val < 128 + 1 := ((mem_unit2 inb_S4096x256_S4096x1_0_128 y).mp hmem).2.2; omega
  · have h : (y 1).val < 0 + 128 := ((mem_unit2 inb_S4096x256_S4096x128_0_0 y).mp hmem).2.2; omega

/-- Columns 132…255 are covered by the padding store. -/
theorem xPad_cover (y : S4096x256.Idx) (hy : 132 ≤ (y 1).val) : y ∈ (xPad (F := Ideal)).1.set := by
  have h0 : (y 0).val < 4096 := idx2_lt0 y
  have h1 : (y 1).val < 256 := idx2_lt1 y
  exact (mem_unit2 inb_S4096x256_S4096x124_0_132 y).mpr ⟨⟨Nat.zero_le _, by show (y 0).val < 0 + 4096; omega⟩, ⟨by show 132 ≤ (y 1).val; omega, by show (y 1).val < 132 + 124; omega⟩⟩

/-- The whole-buffer load's index at (r, k) is (r, k). -/
theorem xWhole_idx (r : Fin 4096) (k : Fin 256) :
    (Rect.unit (s := S4096x256) ![0, 0] S4096x256.size inb_S4096x256_S4096x256_0_0).toLoadRect.idx (ix2 r k) = ix2 r k :=
  funext fun a => Fin.ext (by
    match a with
    | ⟨0, _⟩ => show 0 + 1 * r.val = r.val; omega
    | ⟨1, _⟩ => show 0 + 1 * k.val = k.val; omega)

/-- After the first point the scratch buffer holds the augmented row operand of the first 4096 points of x, whatever it
    held before: columns 132…255 are 0 in particular. -/
theorem xbuf_first (c : Dev nD) (i : grid0.Coords) (arg2 : Memref sig .tc .vmem S8192x128 .f32) (harg2 : arg2.IsWhole)
    (arg5 : Memref sig .tc .vmem S4096x256 .bf16) (hc2 : cond2 i) (x0 : Vec Ideal S8192x128 .f32)
    (f : arg5.view.ty.Contents (Elt Ideal)) (hi0 : (i 0).val = 0) (r : Fin 4096) (k : Fin 256) :
    arg5.view.read (Elt Ideal) (arg5.view.writes (Elt Ideal) f (runA.sl.H5_6 c i arg2 harg2 hc2 x0)) (ix2 r k)
      = Cert.Chamfer.xa (pts' x0) (Cert.Chamfer.lo r) k := by
  rw [H5_6_eq]
  have hv : ∀ r k, xRows i arg2 harg2 hc2 x0 (ix2 r k) = x0 (ix2 (Cert.Chamfer.lo r) k) := fun r k =>
    xRows_apply i arg2 harg2 hc2 x0 r k _ (by show r.val = 4096 * (i 0).val + r.val; omega)
  refine (View.read_writes_apply_of_pieces arg5.view f (xaG x0 Cert.Chamfer.lo) _ ?_ (ix2 r k) ?_).trans
    (xaG_at x0 _ _ r k rfl rfl)
  · intro p hp
    rcases List.mem_append.mp hp with hp | hp
    · exact xPieces_agree x0 _ _ hv p hp
    · obtain rfl := List.mem_singleton.mp hp
      exact xPad_agree x0 _
  · by_cases hk : k.val < 132
    · obtain ⟨p, hp, hy⟩ := xPieces_cover (xRows i arg2 harg2 hc2 x0) (ix2 r k) hk
      exact ⟨p, List.mem_append_left _ hp, hy⟩
    · exact ⟨xPad, List.mem_append_right _ (List.mem_singleton_self _), xPad_cover (ix2 r k) (by show 132 ≤ k.val; omega)⟩

/-- The augmented row operand the first point multiplies with. -/
theorem xA_apply (c : Dev nD) (i : grid0.Coords) (arg2 : Memref sig .tc .vmem S8192x128 .f32) (harg2 : arg2.IsWhole)
    (arg5 : Memref sig .tc .vmem S4096x256 .bf16) (hc2 : cond2 i) (x0 : Vec Ideal S8192x128 .f32)
    (hi0 : (i 0).val = 0) (r : Fin 4096) (k : Fin 256) :
    runA.sl.v11 c i arg2 harg2 arg5 hc2 x0 (ix2 r k) = Cert.Chamfer.xa (pts' x0) (Cert.Chamfer.lo r) k := by
  unfold runA.sl.v11 View.readCov
  rw [View.readAt_apply, xWhole_idx]
  exact xbuf_first c i arg2 harg2 arg5 hc2 x0 _ hi0 r k

/-- The augmented row operand the last point multiplies with: rebuilt in columns 0…131 over the zero padding the
    first point left. -/
theorem xB_apply (c : Dev nD) (i : grid0.Coords) (arg2 : Memref sig .tc .vmem S8192x128 .f32) (harg2 : arg2.IsWhole)
    (arg5 : Memref sig .tc .vmem S4096x256 .bf16) (harg5 : arg5.IsWhole) (hc2 : cond2 i) (x0 : Vec Ideal S8192x128 .f32)
    (xs5 : Vec Ideal S4096x256 .bf16) (hi0 : (i 0).val = 1)
    (hxs : ∀ (r : Fin 4096) (k : Fin 256), 132 ≤ k.val → xs5 (ix2 r k) = 0) (r : Fin 4096) (k : Fin 256) :
    runB.sl.r c i arg2 harg2 arg5 harg5 hc2 x0 xs5 (ix2 r k) = Cert.Chamfer.xa (pts' x0) (Cert.Chamfer.hi r) k := by
  unfold runB.sl.r
  rw [View.readAt_apply, xWhole_idx, H5_5_eq]
  have hv : ∀ r k, xRows i arg2 harg2 hc2 x0 (ix2 r k) = x0 (ix2 (Cert.Chamfer.hi r) k) := fun r k =>
    xRows_apply i arg2 harg2 hc2 x0 r k _ (by show 4096 + r.val = 4096 * (i 0).val + r.val; omega)
  by_cases hk : k.val < 132
  · exact (View.read_writes_apply_of_pieces arg5.view _ (xaG x0 Cert.Chamfer.hi) _ (xPieces_agree x0 _ _ hv) (ix2 r k)
      (xPieces_cover _ (ix2 r k) hk)).trans (xaG_at x0 _ _ r k rfl rfl)
  · rw [View.read_writes_apply_of_forall_not_mem _ _ _ _ (xPieces_miss _ (ix2 r k) (by show 132 ≤ k.val; omega)),
      harg5.read_unread, hxs r k (by omega), Cert.Chamfer.xa_ge _ _ _ (by omega)]

end Cert.KernelIdeal.Body

end
-- ==== Proof.IdealValue.lean ====
/-
  The value of the chamfer kernel on finite inputs. The block the last point stores is the last payload of the
  accumulator and the running column minima. With the two augmented operands read back as the columns xa, ya of
  the algebra, a chunk's product is D, the distance before the clamp; the lane folds over the sixteen chunks are
  the row minima, the running column minima after the two row blocks are the column minima, the accumulator is
  the sum of the clamped row minima of both blocks; and the algebra's total gives the chamfer total.
-/
import proofs.«176257_g9887014716187_cont_9to1c4b_714_27_alg».proof.Proof.IdealBlocks
import proofs.«176257_g9887014716187_cont_9to1c4b_714_27_alg».proof.Proof.IdealValueTop
import proofs.«176257_g9887014716187_cont_9to1c4b_714_27_alg».proof.Proof.IdealColsD
import proofs.«176257_g9887014716187_cont_9to1c4b_714_27_alg».proof.Proof.IdealRowsD
import proofs.«176257_g9887014716187_cont_9to1c4b_714_27_alg».proof.Proof.IdealOperands2
import proofs.«176257_g9887014716187_cont_9to1c4b_714_27_alg».proof.Proof.Algebra3

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx
open Cert.Chamfer (Pts D xa ya lo hi total)

variable (m : (ℓ : Loc nD τ sig) → Buf (Elt Ideal) ℓ)

theorem row0_first : ((grid0.coords t0_0) 0).val = 0 := by decide
theorem row0_last : ((grid0.coords t0_1) 0).val = 1 := by decide

/-- x~ as the first point loads it: the columns xa of row block 0. -/
theorem opXA (c : Dev nD) (r : Fin 4096) (k : Fin 256) :
    xA c (grid0.coords t0_0) (ms0 t0_0) (hs0 t0_0) scX (hcond2 t0_0) (iblk m c 0 t0_0) (ix2 r k) = xa (pts' (V m c main_arg0)) (lo r) k := by
  rw [iblk0_eq m c t0_0]
  exact xA_apply c (grid0.coords t0_0) (ms0 t0_0) (hs0 t0_0) scX (hcond2 t0_0) (V m c main_arg0) row0_first r k

/-- What the first point leaves in the x~ buffer: in particular zero in the padding columns. -/
theorem padXA (c : Dev nD) (r : Fin 4096) (k : Fin 256) (hk : 132 ≤ k.val) : sXA m c (ix2 r k) = 0 := by
  have h := xbuf_first c (grid0.coords t0_0) (ms0 t0_0) (hs0 t0_0) scX (hcond2 t0_0) (iblk m c 0 t0_0) VX.junk row0_first r k
  rw [Cert.Chamfer.xa_ge _ _ _ hk] at h
  exact h

/-- x~ as the last point loads it: the columns xa of row block 1. -/
theorem opXB (c : Dev nD) (r : Fin 4096) (k : Fin 256) :
    xB c (grid0.coords t0_1) (ms0 t0_1) (hs0 t0_1) scX (Memref.isWhole_whole _) (hcond2 t0_1) (iblk m c 0 t0_1) (sXA m c) (ix2 r k) = xa (pts' (V m c main_arg0)) (hi r) k := by
  rw [iblk0_eq m c t0_1]
  exact xB_apply c (grid0.coords t0_1) (ms0 t0_1) (hs0 t0_1) scX (Memref.isWhole_whole _) (hcond2 t0_1) (V m c main_arg0) (sXA m c) row0_last (padXA m c) r k

/-- The accumulator as the last point loads it: the clamped row minima of both row blocks, summed. -/
theorem acc_value (c : Dev nD)
    (hYA : ∀ (g : Fin 16) (q : Fin 512) (k : Fin 256),
      yA c (grid0.coords t0_0) (ms1 t0_0) (hs1 t0_0) scY ((hcond3 t0_0).mpr rfl) (iblk m c 1 t0_0) g (ix2 q k) = ya (pts' (V m c main_arg1)) (⟨g.val * 512 + q.val, by omega⟩ : Fin 8192) k)
    (hYB : ∀ (g : Fin 16) (q : Fin 512) (k : Fin 256),
      yB (grid0.coords t0_1) scY (Memref.isWhole_whole _) (sYA m c) g (ix2 q k) = ya (pts' (V m c main_arg1)) (⟨g.val * 512 + q.val, by omega⟩ : Fin 8192) k) :
    accLast m c (ix2 0 0)
      = (0 + ∑ r : Fin 4096, max (Finset.univ.inf fun j : Fin 8192 => D (pts' (V m c main_arg0)) (pts' (V m c main_arg1)) (lo r) j) 0)
        + ∑ r : Fin 4096, max (Finset.univ.inf fun j : Fin 8192 => D (pts' (V m c main_arg0)) (pts' (V m c main_arg1)) (hi r) j) 0 := by
  unfold accLast
  rw [accB_D c (grid0.coords t0_1) (ms0 t0_1) (hs0 t0_1) scX (Memref.isWhole_whole _) scY (Memref.isWhole_whole _) (hcond2 t0_1) scA (Memref.isWhole_whole _) (iblk m c 0 t0_1) (sXA m c) (sYA m c) (sAA m c)
    (pts' (V m c main_arg0)) (pts' (V m c main_arg1)) (opXB m c) hYB]
  congr 1
  exact accA_D c (grid0.coords t0_0) (ms0 t0_0) (hs0 t0_0) (ms1 t0_0) (hs1 t0_0) scX scY (hcond2 t0_0) ((hcond3 t0_0).mpr rfl) scA (iblk m c 0 t0_0) (iblk m c 1 t0_0) VA.junk
    (pts' (V m c main_arg0)) (pts' (V m c main_arg1)) (opXA m c) hYA

set_option maxHeartbeats 1600000 in
/-- The running column minima after the first point: over row block 0. -/
theorem colA_value (c : Dev nD)
    (hYA : ∀ (g : Fin 16) (q : Fin 512) (k : Fin 256),
      yA c (grid0.coords t0_0) (ms1 t0_0) (hs1 t0_0) scY ((hcond3 t0_0).mpr rfl) (iblk m c 1 t0_0) g (ix2 q k) = ya (pts' (V m c main_arg1)) (⟨g.val * 512 + q.val, by omega⟩ : Fin 8192) k)
    (hYB : ∀ (g : Fin 16) (q : Fin 512) (k : Fin 256),
      yB (grid0.coords t0_1) scY (Memref.isWhole_whole _) (sYA m c) g (ix2 q k) = ya (pts' (V m c main_arg1)) (⟨g.val * 512 + q.val, by omega⟩ : Fin 8192) k) (g : Fin 16) (q : Fin 512) :
    sCA m c (colIdx g q) = Finset.univ.inf fun r : Fin 4096 => D (pts' (V m c main_arg0)) (pts' (V m c main_arg1)) (lo r) (⟨g.val * 512 + q.val, by omega⟩ : Fin 8192) := by
  unfold sCA pA
  exact colsA_D c (grid0.coords t0_0) (ms0 t0_0) (hs0 t0_0) (ms1 t0_0) (hs1 t0_0) (ms2 t0_0) (hs2 t0_0) scX (Memref.isWhole_whole _) scY (Memref.isWhole_whole _) scR (Memref.isWhole_whole _) scC (Memref.isWhole_whole _) scA (Memref.isWhole_whole _)
    ((hcond1 t0_0).mpr rfl) (hcond2 t0_0) ((hcond3 t0_0).mpr rfl) (fun h => absurd ((hcond4 t0_0).mp h) (by decide))
    (iblk m c 0 t0_0) (iblk m c 1 t0_0) (VX.read (Elt Ideal) VX.junk) (VY.read (Elt Ideal) VY.junk) (VC.read (Elt Ideal) VC.junk) (VA.read (Elt Ideal) VA.junk)
    VC.junk (pts' (V m c main_arg0)) (pts' (V m c main_arg1)) (opXA m c) hYA g q

set_option maxHeartbeats 1600000 in
/-- The running column minima as the last point loads them for the mean: over both row blocks. -/
theorem col_value (c : Dev nD)
    (hYA : ∀ (g : Fin 16) (q : Fin 512) (k : Fin 256),
      yA c (grid0.coords t0_0) (ms1 t0_0) (hs1 t0_0) scY ((hcond3 t0_0).mpr rfl) (iblk m c 1 t0_0) g (ix2 q k) = ya (pts' (V m c main_arg1)) (⟨g.val * 512 + q.val, by omega⟩ : Fin 8192) k)
    (hYB : ∀ (g : Fin 16) (q : Fin 512) (k : Fin 256),
      yB (grid0.coords t0_1) scY (Memref.isWhole_whole _) (sYA m c) g (ix2 q k) = ya (pts' (V m c main_arg1)) (⟨g.val * 512 + q.val, by omega⟩ : Fin 8192) k) (j : Fin 8192) :
    colLast m c (ix2 (0 : Fin 1) j)
      = min (Finset.univ.inf fun r : Fin 4096 => D (pts' (V m c main_arg0)) (pts' (V m c main_arg1)) (lo r) j) (Finset.univ.inf fun r : Fin 4096 => D (pts' (V m c main_arg0)) (pts' (V m c main_arg1)) (hi r) j) := by
  refine cols_reindex (colLast m c) (fun j => min (Finset.univ.inf fun r : Fin 4096 => D (pts' (V m c main_arg0)) (pts' (V m c main_arg1)) (lo r) j)
        (Finset.univ.inf fun r : Fin 4096 => D (pts' (V m c main_arg0)) (pts' (V m c main_arg1)) (hi r) j)) (fun g q => ?_) j
  unfold colLast
  rw [colsB_D c (grid0.coords t0_1) (ms0 t0_1) (hs0 t0_1) scX (Memref.isWhole_whole _) scY (Memref.isWhole_whole _) scC (Memref.isWhole_whole _) (hcond2 t0_1) (iblk m c 0 t0_1) (sXA m c) (sYA m c) (sCA m c)
    ((hcond4 t0_1).mpr rfl) (pts' (V m c main_arg0)) (pts' (V m c main_arg1)) (opXB m c) hYB g q]
  rw [colA_value m c hYA hYB g q]

set_option maxHeartbeats 1600000 in
/-- The stored result, given the y~ chunks read back as the columns ya. -/
theorem stored_value (c : Dev nD)
    (hx : ∀ i k, ∃ r : ℝ, pts' (V m c main_arg0) i k = (r : EReal)) (hy : ∀ i k, ∃ r : ℝ, pts' (V m c main_arg1) i k = (r : EReal))
    (hYA : ∀ (g : Fin 16) (q : Fin 512) (k : Fin 256),
      yA c (grid0.coords t0_0) (ms1 t0_0) (hs1 t0_0) scY ((hcond3 t0_0).mpr rfl) (iblk m c 1 t0_0) g (ix2 q k) = ya (pts' (V m c main_arg1)) (⟨g.val * 512 + q.val, by omega⟩ : Fin 8192) k)
    (hYB : ∀ (g : Fin 16) (q : Fin 512) (k : Fin 256),
      yB (grid0.coords t0_1) scY (Memref.isWhole_whole _) (sYA m c) g (ix2 q k) = ya (pts' (V m c main_arg1)) (⟨g.val * 512 + q.val, by omega⟩ : Fin 8192) k) :
    outv m c (ix2 0 0) = Ideal.div (total (pts' (V m c main_arg0)) (pts' (V m c main_arg1))) (Ideal.ofBits .f32 0x46800000#32) := by
  unfold outv
  rw [stored_eq, pay3_apply, acc_value m c hYA hYB]
  simp only [col_value m c hYA hYB]
  rw [Cert.Chamfer.total_eq _ _ hx hy]

end Cert.KernelIdeal.Body

end
-- ==== Proof.IdealOperands3.lean ====
/-
  The augmented column operand, store by store and read back. At the first point the body loads all 8192 rows of y and
  stores six column blocks into the [8192, 256] scratch buffer — columns 0…127 (y), 128 and 129 (ones), 130 (the
  squared norm), 131 (the norm minus itself) and zeros into 132…255. Every piece writes the values of ONE function of
  the buffer's index, the augmented column operand ya, and the six pieces cover the buffer: so it holds ya at every
  index, whatever it held before, and a 512-row chunk loaded from it is rows 512·g … 512·g + 511 of ya.
-/
import proofs.«176257_g9887014716187_cont_9to1c4b_714_27_alg».proof.Proof.IdealOperands

noncomputable section

namespace Cert.KernelIdeal.Body

open Idealize.ShloMosaic Idealize.SL.Sem Idealize.ShloMosaic.ValueIdx
open Cert.KernelIdeal Cert.KernelIdeal.Gen

section PiecesY
variable {F : FTy → Type} [FloatOps F]

/-- The rows of y the body loads at the first point: all 8192 of them. -/
def yRows (i : grid0.Coords) (arg3 : Memref sig .tc .vmem S8192x128 .f32) (harg3 : arg3.IsWhole) (hc3 : cond3 i)
    (x1 : Vec F S8192x128 .f32) : Vec F S8192x128 .f32 :=
  View.readAt (Elt F) arg3.view (Rect.unit (s := S8192x128) (k0_off2 i) S8192x128.size (k0_off2_inb i hc3)).toLoadRect (harg3.unread x1)

/-- The six stores that build the augmented column operand, last first: the zero padding, then columns 131, 130,
    129, 128 and 0…127. -/
def yPieces (i : grid0.Coords) (hc3 : cond3 i) (w : Vec F S8192x128 .f32) : List (View.Piece (Elt F) S8192x256 .bf16) :=
  [⟨Rect.unit (k0_off8 i) S8192x124.size (k0_off8_inb i hc3), k0_pay21 k0_pay11⟩,
   ⟨Rect.unit (k0_off7 i) S8192x1.size (k0_off7_inb i hc3), k0_pay10 w⟩,
   ⟨Rect.unit (k0_off6 i) S8192x1.size (k0_off6_inb i hc3), k0_pay9 w⟩,
   ⟨Rect.unit (k0_off5 i) S8192x1.size (k0_off5_inb i hc3), k0_pay8⟩,
   ⟨Rect.unit (k0_off4 i) S8192x1.size (k0_off4_inb i hc3), k0_pay7⟩,
   ⟨Rect.unit (k0_off3 i) S8192x128.size (k0_off3_inb i hc3), k0_pay6 w⟩]

theorem H6_6_eq (c : Dev nD) (i : grid0.Coords) (arg3 : Memref sig .tc .vmem S8192x128 .f32) (harg3 : arg3.IsWhole) (hc3 : cond3 i)
    (x1 : Vec F S8192x128 .f32) :
    runA.sl.H6_6 c i arg3 harg3 hc3 x1 = yPieces i hc3 (yRows i arg3 harg3 hc3 x1) := rfl

end PiecesY

/-- The grid has one column block: the second coordinate of a grid point is 0. -/
theorem grid_i1 (i : grid0.Coords) : (i 1).val = 0 := by
  have h : (i 1).val < 1 := (i 1).isLt
  omega

/-- The loaded rows are the rows of y. -/
theorem yRows_apply (i : grid0.Coords) (arg3 : Memref sig .tc .vmem S8192x128 .f32) (harg3 : arg3.IsWhole) (hc3 : cond3 i)
    (x1 : Vec Ideal S8192x128 .f32) (j : Fin 8192) (k : Fin 128) :
    yRows i arg3 harg3 hc3 x1 (ix2 j k) = x1 (ix2 j k) := by
  have hi1 := grid_i1 i
  unfold yRows
  refine (harg3.readAt_unread x1 (Rect.unit (s := S8192x128) (k0_off2 i) S8192x128.size (k0_off2_inb i hc3)).toLoadRect (ix2 j k)).trans
    (congrArg x1 (funext fun a => Fin.ext ?_))
  match a with
  | ⟨0, _⟩ =>
    show k0_off2 i 0 + 1 * j.val = j.val
    rw [k0_off2_eq]; show 8192 * (i 1).val + 1 * j.val = j.val; omega
  | ⟨1, _⟩ =>
    show k0_off2 i 1 + 1 * k.val = k.val
    rw [k0_off2_eq]; show 0 + 1 * k.val = k.val; omega

/-- The augmented column operand as a function of the scratch buffer's index. -/
def yaG (x1 : Vec Ideal S8192x128 .f32) : S8192x256.Idx → Elt Ideal .bf16 :=
  fun y => Cert.Chamfer.ya (pts' x1) ⟨(y 0).val, idx2_lt0 y⟩ ⟨(y 1).val, idx2_lt1 y⟩

theorem yaG_at (x1 : Vec Ideal S8192x128 .f32) (y : S8192x256.Idx) (j : Fin 8192) (k : Fin 256)
    (h0 : (y 0).val = j.val) (h1 : (y 1).val = k.val) : yaG x1 y = Cert.Chamfer.ya (pts' x1) j k := by
  unfold yaG
  rw [show (⟨(y 0).val, idx2_lt0 y⟩ : Fin 8192) = j from Fin.ext h0, show (⟨(y 1).val, idx2_lt1 y⟩ : Fin 256) = k from Fin.ext h1]

/-- The squared norm of a point of y from the loaded rows. -/
theorem sq_yrows (x1 : Vec Ideal S8192x128 .f32) (w : Vec Ideal S8192x128 .f32)
    (hw : ∀ j k, w (ix2 j k) = x1 (ix2 j k)) (j : Fin 8192) :
    (∑ k : Fin 128, w (ix2 j k) * w (ix2 j k)) = Cert.Chamfer.sq (pts' x1) j := by
  unfold Cert.Chamfer.sq pts'
  exact Finset.sum_congr rfl fun k _ => by rw [hw]

/-- Each of the six stores writes the augmented column operand's values on its columns. -/
theorem yPieces_agree (i : grid0.Coords) (hc3 : cond3 i) (x1 : Vec Ideal S8192x128 .f32) (w : Vec Ideal S8192x128 .f32)
    (hw : ∀ j k, w (ix2 j k) = x1 (ix2 j k)) :
    ∀ p ∈ yPieces (F := Ideal) i hc3 w, ∀ x : p.1.shape.Idx, p.2 x = yaG x1 (p.1.emb x) := by
  have hi1 := grid_i1 i
  intro p hp
  simp only [yPieces, List.mem_cons, List.not_mem_nil, or_false] at hp
  rcases hp with rfl | rfl | rfl | rfl | rfl | rfl
  · intro x
    obtain ⟨j, k, rfl⟩ : ∃ (j : Fin 8192) (k : Fin 124), x = ix2 j k := ⟨x 0, x 1, eq_ix2 x⟩
    show k0_pay21 (F := Ideal) k0_pay11 (ix2 j k) = yaG x1 _
    rw [pay21_pay11_apply]
    refine ((yaG_at x1 _ j ⟨132 + k.val, by omega⟩ (by show k0_off8 i 0 + 1 * j.val = j.val; rw [k0_off8_eq]; show 8192 * (i 1).val + 1 * j.val = j.val; omega) (by show k0_off8 i 1 + 1 * k.val = 132 + k.val; rw [k0_off8_eq]; show 132 + 1 * k.val = 132 + k.val; omega)).trans ?_).symm
    exact Cert.Chamfer.ya_ge _ _ _ (by show 132 ≤ 132 + k.val; omega)
  · intro x
    obtain ⟨j, u, rfl⟩ : ∃ (j : Fin 8192) (u : Fin 1), x = ix2 j u := ⟨x 0, x 1, eq_ix2 x⟩
    show k0_pay10 (F := Ideal) w (ix2 j u) = yaG x1 _
    rw [pay10_apply]
    refine ((yaG_at x1 _ j ⟨131, by omega⟩ (by show k0_off7 i 0 + 1 * j.val = j.val; rw [k0_off7_eq]; show 8192 * (i 1).val + 1 * j.val = j.val; omega) (by show k0_off7 i 1 + 1 * u.val = 131; rw [k0_off7_eq]; show 131 + 1 * u.val = 131; omega)).trans ?_).symm
    rw [Cert.Chamfer.ya_131 _ _ _ rfl, sq_yrows x1 w hw j]
  · intro x
    obtain ⟨j, u, rfl⟩ : ∃ (j : Fin 8192) (u : Fin 1), x = ix2 j u := ⟨x 0, x 1, eq_ix2 x⟩
    show k0_pay9 (F := Ideal) w (ix2 j u) = yaG x1 _
    rw [pay9_apply]
    refine ((yaG_at x1 _ j ⟨130, by omega⟩ (by show k0_off6 i 0 + 1 * j.val = j.val; rw [k0_off6_eq]; show 8192 * (i 1).val + 1 * j.val = j.val; omega) (by show k0_off6 i 1 + 1 * u.val = 130; rw [k0_off6_eq]; show 130 + 1 * u.val = 130; omega)).trans ?_).symm
    rw [Cert.Chamfer.ya_130 _ _ _ rfl, sq_yrows x1 w hw j]
  · intro x
    obtain ⟨j, u, rfl⟩ : ∃ (j : Fin 8192) (u : Fin 1), x = ix2 j u := ⟨x 0, x 1, eq_ix2 x⟩
    show k0_pay8 (F := Ideal) (ix2 j u) = yaG x1 _
    rw [pay8_apply]
    refine ((yaG_at x1 _ j ⟨129, by omega⟩ (by show k0_off5 i 0 + 1 * j.val = j.val; rw [k0_off5_eq]; show 8192 * (i 1).val + 1 * j.val = j.val; omega) (by show k0_off5 i 1 + 1 * u.val = 129; rw [k0_off5_eq]; show 129 + 1 * u.val = 129; omega)).trans ?_).symm
    exact Cert.Chamfer.ya_129 _ _ _ rfl
  · intro x
    obtain ⟨j, u, rfl⟩ : ∃ (j : Fin 8192) (u : Fin 1), x = ix2 j u := ⟨x 0, x 1, eq_ix2 x⟩
    show k0_pay7 (F := Ideal) (ix2 j u) = yaG x1 _
    rw [pay7_apply]
    refine ((yaG_at x1 _ j ⟨128, by omega⟩ (by show k0_off4 i 0 + 1 * j.val = j.val; rw [k0_off4_eq]; show 8192 * (i 1).val + 1 * j.val = j.val; omega) (by show k0_off4 i 1 + 1 * u.val = 128; rw [k0_off4_eq]; show 128 + 1 * u.val = 128; omega)).trans ?_).symm
    exact Cert.Chamfer.ya_128 _ _ _ rfl
  · intro x
    obtain ⟨j, k, rfl⟩ : ∃ (j : Fin 8192) (k : Fin 128), x = ix2 j k := ⟨x 0, x 1, eq_ix2 x⟩
    show k0_pay6 (F := Ideal) w (ix2 j k) = yaG x1 _
    rw [pay6_apply]
    refine ((yaG_at x1 _ j ⟨k.val, by omega⟩ (by show k0_off3 i 0 + 1 * j.val = j.val; rw [k0_off3_eq]; show 8192 * (i 1).val + 1 * j.val = j.val; omega) (by show k0_off3 i 1 + 1 * k.val = k.val; rw [k0_off3_eq]; show 0 + 1 * k.val = k.val; omega)).trans ?_).symm
    rw [Cert.Chamfer.ya_lt _ _ _ k.isLt, hw]
    rfl

/-- Every index of the buffer is under one of the six stores. -/
theorem yPieces_cover (i : grid0.Coords) (hc3 : cond3 i) (w : Vec Ideal S8192x128 .f32) (y : S8192x256.Idx) :
    ∃ p ∈ yPieces (F := Ideal) i hc3 w, y ∈ p.1.set := by
  have hi1 := grid_i1 i
  have h0 : (y 0).val < 8192 := idx2_lt0 y
  have h1 : (y 1).val < 256 := idx2_lt1 y
  by_cases h128 : (y 1).val < 128
  · exact ⟨⟨Rect.unit (k0_off3 i) S8192x128.size (k0_off3_inb i hc3), k0_pay6 (F := Ideal) w⟩, List.mem_cons_of_mem _ (List.mem_cons_of_mem _ (List.mem_cons_of_mem _ (List.mem_cons_of_mem _ (List.mem_cons_of_mem _ (List.mem_cons_self))))),
      (mem_unit2 (k0_off3_inb i hc3) y).mpr ⟨⟨by show k0_off3 i 0 ≤ (y 0).val; rw [k0_off3_eq]; show 8192 * (i 1).val ≤ (y 0).val; omega, by show (y 0).val < k0_off3 i 0 + 8192; rw [k0_off3_eq]; show (y 0).val < 8192 * (i 1).val + 8192; omega⟩, ⟨by show k0_off3 i 1 ≤ (y 1).val; rw [k0_off3_eq]; show 0 ≤ (y 1).val; omega, by show (y 1).val < k0_off3 i 1 + 128; rw [k0_off3_eq]; show (y 1).val < 0 + 128; omega⟩⟩⟩
  by_cases h129 : (y 1).val < 129
  · exact ⟨⟨Rect.unit (k0_off4 i) S8192x1.size (k0_off4_inb i hc3), k0_pay7 (F := Ideal)⟩, List.mem_cons_of_mem _ (List.mem_cons_of_mem _ (List.mem_cons_of_mem _ (List.mem_cons_of_mem _ (List.mem_cons_self)))),
      (mem_unit2 (k0_off4_inb i hc3) y).mpr ⟨⟨by show k0_off4 i 0 ≤ (y 0).val; rw [k0_off4_eq]; show 8192 * (i 1).val ≤ (y 0).val; omega, by show (y 0).val < k0_off4 i 0 + 8192; rw [k0_off4_eq]; show (y 0).val < 8192 * (i 1).val + 8192; omega⟩, ⟨by show k0_off4 i 1 ≤ (y 1).val; rw [k0_off4_eq]; show 128 ≤ (y 1).val; omega, by show (y 1).val < k0_off4 i 1 + 1; rw [k0_off4_eq]; show (y 1).val < 128 + 1; omega⟩⟩⟩
  by_cases h130 : (y 1).val < 130
  · exact ⟨⟨Rect.unit (k0_off5 i) S8192x1.size (k0_off5_inb i hc3), k0_pay8 (F := Ideal)⟩, List.mem_cons_of_mem _ (List.mem_cons_of_mem _ (List.mem_cons_of_mem _ (List.mem_cons_self))),
      (mem_unit2 (k0_off5_inb i hc3) y).mpr ⟨⟨by show k0_off5 i 0 ≤ (y 0).val; rw [k0_off5_eq]; show 8192 * (i 1).val ≤ (y 0).val; omega, by show (y 0).val < k0_off5 i 0 + 8192; rw [k0_off5_eq]; show (y 0).val < 8192 * (i 1).val + 8192; omega⟩, ⟨by show k0_off5 i 1 ≤ (y 1).val; rw [k0_off5_eq]; show 129 ≤ (y 1).val; omega, by show (y 1).val < k0_off5 i 1 + 1; rw [k0_off5_eq]; show (y 1).val < 129 + 1; omega⟩⟩⟩
  by_cases h131 : (y 1).val < 131
  · exact ⟨⟨Rect.unit (k0_off6 i) S8192x1.size (k0_off6_inb i hc3), k0_pay9 (F := Ideal) w⟩, List.mem_cons_of_mem _ (List.mem_cons_of_mem _ (List.mem_cons_self)),
      (mem_unit2 (k0_off6_inb i hc3) y).mpr ⟨⟨by show k0_off6 i 0 ≤ (y 0).val; rw [k0_off6_eq]; show 8192 * (i 1).val ≤ (y 0).val; omega, by show (y 0).val < k0_off6 i 0 + 8192; rw [k0_off6_eq]; show (y 0).val < 8192 * (i 1).val + 8192; omega⟩, ⟨by show k0_off6 i 1 ≤ (y 1).val; rw [k0_off6_eq]; show 130 ≤ (y 1).val; omega, by show (y 1).val < k0_off6 i 1 + 1; rw [k0_off6_eq]; show (y 1).val < 130 + 1; omega⟩⟩⟩
  by_cases h132 : (y 1).val < 132
  · exact ⟨⟨Rect.unit (k0_off7 i) S8192x1.size (k0_off7_inb i hc3), k0_pay10 (F := Ideal) w⟩, List.mem_cons_of_mem _ (List.mem_cons_self),
      (mem_unit2 (k0_off7_inb i hc3) y).mpr ⟨⟨by show k0_off7 i 0 ≤ (y 0).val; rw [k0_off7_eq]; show 8192 * (i 1).val ≤ (y 0).val; omega, by show (y 0).val < k0_off7 i 0 + 8192; rw [k0_off7_eq]; show (y 0).val < 8192 * (i 1).val + 8192; omega⟩, ⟨by show k0_off7 i 1 ≤ (y 1).val; rw [k0_off7_eq]; show 131 ≤ (y 1).val; omega, by show (y 1).val < k0_off7 i 1 + 1; rw [k0_off7_eq]; show (y 1).val < 131 + 1; omega⟩⟩⟩
  · exact ⟨⟨Rect.unit (k0_off8 i) S8192x124.size (k0_off8_inb i hc3), k0_pay21 (F := Ideal) k0_pay11⟩, List.mem_cons_self,
      (mem_unit2 (k0_off8_inb i hc3) y).mpr ⟨⟨by show k0_off8 i 0 ≤ (y 0).val; rw [k0_off8_eq]; show 8192 * (i 1).val ≤ (y 0).val; omega, by show (y 0).val < k0_off8 i 0 + 8192; rw [k0_off8_eq]; show (y 0).val < 8192 * (i 1).val + 8192; omega⟩, ⟨by show k0_off8 i 1 ≤ (y 1).val; rw [k0_off8_eq]; show 132 ≤ (y 1).val; omega, by show (y 1).val < k0_off8 i 1 + 124; rw [k0_off8_eq]; show (y 1).val < 132 + 124; omega⟩⟩⟩

/-- After the first point the scratch buffer holds the augmented column operand of y at every index, whatever it held
    before. -/
theorem ybuf_first (c : Dev nD) (i : grid0.Coords) (arg3 : Memref sig .tc .vmem S8192x128 .f32) (harg3 : arg3.IsWhole)
    (arg6 : Memref sig .tc .vmem S8192x256 .bf16) (hc3 : cond3 i) (x1 : Vec Ideal S8192x128 .f32)
    (f : arg6.view.ty.Contents (Elt Ideal)) (j : Fin 8192) (k : Fin 256) :
    arg6.view.read (Elt Ideal) (arg6.view.writes (Elt Ideal) f (runA.sl.H6_6 c i arg3 harg3 hc3 x1)) (ix2 j k)
      = Cert.Chamfer.ya (pts' x1) j k := by
  rw [H6_6_eq]
  exact (View.read_writes_apply_of_pieces arg6.view f (yaG x1) _
    (yPieces_agree i hc3 x1 _ (yRows_apply i arg3 harg3 hc3 x1)) (ix2 j k) (yPieces_cover i hc3 _ (ix2 j k))).trans
    (yaG_at x1 _ j k rfl rfl)

/-- The index, in the buffer, of entry (q, k) of chunk g: row 512·g + q. -/
theorem yChunk_idx (i : grid0.Coords) (g : Fin 16) (q : Fin 512) (k : Fin 256) :
    (Rect.unit (s := S8192x256) (k0_off9 i (BitVec.ofNat 32 (512 * g.val))) S512x256.size (k0_off9_inb i g)).toLoadRect.idx (ix2 q k)
      = ix2 (⟨g.val * 512 + q.val, by omega⟩ : Fin 8192) k := by
  have hi1 := grid_i1 i
  refine funext fun a => Fin.ext ?_
  match a with
  | ⟨0, _⟩ =>
    show k0_off9 i (BitVec.ofNat 32 (512 * g.val)) 0 + 1 * q.val = g.val * 512 + q.val
    rw [k0_off9_eq]; show 8192 * (i 1).val + 512 * g.val + 1 * q.val = g.val * 512 + q.val; omega
  | ⟨1, _⟩ =>
    show k0_off9 i (BitVec.ofNat 32 (512 * g.val)) 1 + 1 * k.val = k.val
    rw [k0_off9_eq]; show 0 + 1 * k.val = k.val; omega

/-- Chunk g of the augmented column operand as the first point loads it. -/
theorem yA_apply (c : Dev nD) (i : grid0.Coords) (arg3 : Memref sig .tc .vmem S8192x128 .f32) (harg3 : arg3.IsWhole)
    (arg6 : Memref sig .tc .vmem S8192x256 .bf16) (hc3 : cond3 i) (x1 : Vec Ideal S8192x128 .f32)
    (g : Fin 16) (q : Fin 512) (k : Fin 256) :
    arg6.view.readCov (runA.sl.H6_6 c i arg3 harg3 hc3 x1)
        (Rect.unit (s := S8192x256) (k0_off9 i (BitVec.ofNat 32 (512 * g.val))) S512x256.size (k0_off9_inb i g)).toLoadRect (ix2 q k)
      = Cert.Chamfer.ya (pts' x1) ⟨g.val * 512 + q.val, by omega⟩ k := by
  unfold View.readCov
  rw [View.readAt_apply, yChunk_idx]
  exact ybuf_first c i arg3 harg3 arg6 hc3 x1 _ _ k

/-- Chunk g of the buffer as the last point loads it: rows 512·g … 512·g + 511 of what the buffer holds. -/
theorem yB_apply (i : grid0.Coords) (arg6 : Memref sig .tc .vmem S8192x256 .bf16) (harg6 : arg6.IsWhole)
    (xs6 : Vec Ideal S8192x256 .bf16) (g : Fin 16) (q : Fin 512) (k : Fin 256) :
    View.readAt (Elt Ideal) arg6.view
        (Rect.unit (s := S8192x256) (k0_off9 i (BitVec.ofNat 32 (512 * g.val))) S512x256.size (k0_off9_inb i g)).toLoadRect
        (harg6.unread xs6) (ix2 q k)
      = xs6 (ix2 (⟨g.val * 512 + q.val, by omega⟩ : Fin 8192) k) := by
  refine (harg6.readAt_unread xs6 (Rect.unit (s := S8192x256) (k0_off9 i (BitVec.ofNat 32 (512 * g.val))) S512x256.size (k0_off9_inb i g)).toLoadRect (ix2 q k)).trans ?_
  rw [yChunk_idx]

end Cert.KernelIdeal.Body

end
-- ==== Proof.IdealValue2.lean ====
/-
  The augmented column operand read back at both grid points: the first point's sixteen chunk loads read its own
  stores, the last point's read the buffer the first point left; either way chunk g, row q is the column ya of
  point 512 g + q of y. With that the kernel's stored result on finite inputs is the chamfer total over 16384.
-/
import proofs.«176257_g9887014716187_cont_9to1c4b_714_27_alg».proof.Proof.IdealValue
import proofs.«176257_g9887014716187_cont_9to1c4b_714_27_alg».proof.Proof.IdealOperands3

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

open Idealize.ShloMosaic.ValueIdx
open Cert.Chamfer (Pts D xa ya lo hi total)

variable (m : (ℓ : Loc nD τ sig) → Buf (Elt Ideal) ℓ)

theorem opYA (c : Dev nD) (g : Fin 16) (q : Fin 512) (k : Fin 256) :
    yA c (grid0.coords t0_0) (ms1 t0_0) (hs1 t0_0) scY ((hcond3 t0_0).mpr rfl) (iblk m c 1 t0_0) g (ix2 q k)
      = ya (pts' (V m c main_arg1)) (⟨g.val * 512 + q.val, by omega⟩ : Fin 8192) k := by
  rw [iblk1_eq m c t0_0]
  unfold yA
  exact yA_apply c (grid0.coords t0_0) (ms1 t0_0) (hs1 t0_0) scY ((hcond3 t0_0).mpr rfl) (V m c main_arg1) g q k

set_option maxHeartbeats 1600000 in
/-- What the first point leaves in the y~ buffer. -/
theorem bufYA (c : Dev nD) (j : Fin 8192) (k : Fin 256) : sYA m c (ix2 j k) = ya (pts' (V m c main_arg1)) j k := by
  have h := ybuf_first c (grid0.coords t0_0) (ms1 t0_0) (hs1 t0_0) scY ((hcond3 t0_0).mpr rfl) (iblk m c 1 t0_0) VY.junk j k
  rw [← iblk1_eq m c t0_0]
  unfold sYA pA runA
  dsimp only
  exact h

theorem opYB (c : Dev nD) (g : Fin 16) (q : Fin 512) (k : Fin 256) :
    yB (grid0.coords t0_1) scY (Memref.isWhole_whole _) (sYA m c) g (ix2 q k)
      = ya (pts' (V m c main_arg1)) (⟨g.val * 512 + q.val, by omega⟩ : Fin 8192) k := by
  unfold yB
  rw [yB_apply (grid0.coords t0_1) scY (Memref.isWhole_whole _) (sYA m c) g q k]
  exact bufYA m c _ k

/-- THE KERNEL'S VALUE: on real-valued inputs the block the last point stores is the chamfer total over 16384. -/
theorem kernel_value (c : Dev nD)
    (hx : ∀ i k, ∃ r : ℝ, pts' (V m c main_arg0) i k = (r : EReal)) (hy : ∀ i k, ∃ r : ℝ, pts' (V m c main_arg1) i k = (r : EReal)) :
    outv m c (ix2 0 0) = Ideal.div (total (pts' (V m c main_arg0)) (pts' (V m c main_arg1))) (Ideal.ofBits .f32 0x46800000#32) :=
  stored_value m c hx hy (opYA m c) (opYB m c)

end Cert.KernelIdeal.Body

end
-- ==== Proof.LibRealEntries.lean ====
/-
  Real entries of arrays over the extended reals, and how a finiteness precondition gives them.

  `IsReal x` says the extended real `x` is a real number.  Real numbers are closed under sums, products, maxima and
  finite sums.  A precondition of the usual form — for an input array `x`, the `and`-reduction over all axes, from
  `true`, of the entrywise test `|x| < +∞` came out `true` — makes every entry of `x` real: the reduction met `true`
  at every entry, and an extended real whose absolute value `max x (-x)` is below `+∞` is neither infinity.
-/
import Idealize.ShloMosaic.Lib.ReduceAll
import Idealize.ShloMosaic.Lib.Pipeline.Value
import Idealize.ShloMosaic.Lib.ValueIdx
import Idealize.ShloMosaic.PureOps.Ideal.Laws

noncomputable section

open scoped BigOperators

namespace Cert.RealEntries

open Idealize.ShloMosaic

/-- An extended real that is a real number. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  obtain ⟨a, rfl⟩ := hx; obtain ⟨b, rfl⟩ := hy
  exact ⟨Max.max a b, (EReal.coe_strictMono.monotone.map_max).symm⟩

/-- A finite sum of real numbers is real. -/
theorem IsReal.sum {ι : Type} (s : Finset ι) (f : ι → EReal) (h : ∀ i ∈ s, IsReal (f i)) : IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- The single-precision word of 0.0 denotes a real number. -/
theorem isReal_zero_word : IsReal (Ideal.ofBits .f32 0x00000000#32) := ⟨0, by rw [Ideal.ofBits_zero_f32]; rfl⟩

/-- The single-precision word `0x7F800000` denotes `+∞`. -/
theorem ofBits_inf : Ideal.ofBits .f32 0x7F800000#32 = (⊤ : EReal) := by
  simp [Ideal.ofBits, Ideal.ieee]

/-- An extended real with `|x| < +∞`, as the ordered comparison of `max x (-x)` with the word of `+∞` reads it, is a
    real number. -/
theorem isReal_of_abs_lt (x : EReal)
    (h : Ideal.cmp .olt (Max.max x (-x)) (Ideal.ofBits .f32 0x7F800000#32) = 1#1) : IsReal x := by
  rw [ofBits_inf] at h
  have hlt : Max.max x (-x) < (⊤ : EReal) := by
    by_contra hc
    have h0 : Ideal.cmp .olt (Max.max x (-x)) (⊤ : EReal) = 0#1 := by
      show BitVec.ofBool (decide (Max.max x (-x) < (⊤ : EReal))) = 0#1
      rw [decide_eq_false hc]; rfl
    rw [h0] at h
    exact absurd h (by decide)
  induction x using EReal.rec with
  | bot => exact absurd hlt (by simp)
  | coe r => exact ⟨r, rfl⟩
  | top => exact absurd hlt (by simp)

instance : Subsingleton (⟨0, ![]⟩ : Shape).Idx := ⟨fun a b => funext fun d => d.elim0⟩

/-- ONE INPUT'S SHARE OF A FINITENESS PRECONDITION: when the `and`-reduction of `|x| < +∞` over the whole array `x`,
    started from `true`, came out `true`, every entry of `x` is real.  Any shape, any list of reduced axes. -/
theorem entries_real {s : Shape} {axes : List (Fin s.rank)} (x : FVec Ideal s .f32)
    (hb : (⟨0, ![]⟩ : Shape).BroadcastsInDim s (![] : Fin 0 → Fin s.rank)) (hr : s.ReducesTo axes ⟨0, ![]⟩)
    (hu : 0 < (⟨0, ![]⟩ : Shape).numel)
    (e : Host.reduce IntOp.andi
      (cmpf .olt (Host.absf x) (broadcastInDim s ![] hb (constant (F := Ideal) ⟨0, ![]⟩ .f32 0x7F800000#32)))
      (constantI ⟨0, ![]⟩ 1 1#1) hr hu ValueIdx.ix0 = 1#1) (i : s.Idx) : IsReal (x i) := by
  have h := Host.reduce_andi_all _ _ hr hu ValueIdx.ix0 e i
  refine isReal_of_abs_lt (x i) ?_
  have hb' : broadcastInDim s ![] hb (constant (F := Ideal) ⟨0, ![]⟩ .f32 0x7F800000#32) i = Ideal.ofBits .f32 0x7F800000#32 :=
    broadcastInDim_apply _ hb _ i (fun a => a.elim0) (fun a => a.elim0)
  rw [← hb']
  exact h

end Cert.RealEntries

end
-- ==== Proof.IdealFinite.lean ====
/-
  The finiteness precondition makes every coordinate of every point of both inputs a real number: the predicate
  is the conjunction, over the two arrays, of the and-reduction from true of the entrywise test |x| < +∞, and an
  extended real whose absolute value is below +∞ is a real.
-/
import proofs.«176257_g9887014716187_cont_9to1c4b_714_27_alg».proof.Defs
import proofs.«176257_g9887014716187_cont_9to1c4b_714_27_alg».proof.Proof.Gen.Pre_finite_inputs
import proofs.«176257_g9887014716187_cont_9to1c4b_714_27_alg».proof.Proof.LibRealEntries
import proofs.«176257_g9887014716187_cont_9to1c4b_714_27_alg».proof.Proof.IdealPts

noncomputable section

namespace Cert.KernelIdeal.Body

open Idealize.ShloMosaic Idealize.ShloMosaic.TcCoe Idealize.ShloMosaic.ValueIdx Idealize.SL.Sem
open Cert.KernelIdeal

/-- When the predicate holds of two arrays, every entry of both is a real number. -/
theorem real_of_fn [hP : Cert.Pre_finite_inputs.Facts] (x y : FVec Ideal Cert.Pre_finite_inputs.S8192x128 .f32)
    (h : Cert.Pre_finite_inputs.fn (F := Ideal) x y = fun _ => 1#1) :
    (∀ j, Cert.RealEntries.IsReal (x j)) ∧ (∀ j, Cert.RealEntries.IsReal (y j)) := by
  have h0 := congrFun h ValueIdx.ix0
  dsimp only [Cert.Pre_finite_inputs.fn] at h0
  obtain ⟨hx, hy⟩ := IntOp.andi_eq_one.mp h0
  exact ⟨fun j => Cert.RealEntries.entries_real x _ _ _ hx j, fun j => Cert.RealEntries.entries_real y _ _ _ hy j⟩

/-- Under the certificate's precondition every coordinate of every point of both inputs is a real number. -/
theorem real_of_pre [hP : Cert.Pre_finite_inputs.Facts] (m : (ℓ : Loc nD τ sig) → Buf (Elt Ideal) ℓ) (h : Cert.Pre_KernelIdeal m)
    (c : Dev nD) :
    (∀ i k, ∃ r : ℝ, pts' (m ((c.tc : Thread nD τ).loc main_arg0)) i k = (r : EReal))
      ∧ (∀ i k, ∃ r : ℝ, pts' (m ((c.tc : Thread nD τ).loc main_arg1)) i k = (r : EReal)) := by
  obtain ⟨hx, hy⟩ := real_of_fn _ _ (h c)
  exact ⟨fun i k => hx (ix2 i k), fun i k => hy (ix2 i k)⟩

end Cert.KernelIdeal.Body

end
-- ==== Proof.lean ====
/-
  The chamfer distance of two point sets, computed by one fused kernel (both sets resident, the distance matrix
  never materialised: an augmented bf16 product gives −2 x·y + ‖x‖² + ‖y‖² directly, row and column minima are
  folded chunk by chunk, the clamp at 0 is applied after the minima, and the mean is emitted at the last grid
  point) against the plain expansion ‖x‖² + ‖y‖² − 2 x·y clamped, minimised and averaged on the host.
  The three programs run, fault nowhere and keep their arguments; the idealised kernel differs from the printed
  one by two round trips f32 → bf16 → f32, the identity on the extended reals; and on finite inputs both
  idealised programs return ( ∑ᵢ minⱼ dist i j + ∑ⱼ minᵢ dist i j ) / 16384.
-/
import proofs.«176257_g9887014716187_cont_9to1c4b_714_27_alg».proof.Defs
import proofs.«176257_g9887014716187_cont_9to1c4b_714_27_alg».proof.Proof.Gen.Kernel
import proofs.«176257_g9887014716187_cont_9to1c4b_714_27_alg».proof.Proof.Gen.KernelIdeal
import proofs.«176257_g9887014716187_cont_9to1c4b_714_27_alg».proof.Proof.Gen.ReferenceIdeal
import proofs.«176257_g9887014716187_cont_9to1c4b_714_27_alg».proof.Proof.Gen.Pre_finite_inputs
import proofs.«176257_g9887014716187_cont_9to1c4b_714_27_alg».proof.Proof.BitsFrame2
import proofs.«176257_g9887014716187_cont_9to1c4b_714_27_alg».proof.Proof.IdealFrame2
import proofs.«176257_g9887014716187_cont_9to1c4b_714_27_alg».proof.Proof.RefTotal
import proofs.«176257_g9887014716187_cont_9to1c4b_714_27_alg».proof.Proof.IdealValue2
import proofs.«176257_g9887014716187_cont_9to1c4b_714_27_alg».proof.Proof.IdealFinite

noncomputable section

namespace Cert.Proof

open Idealize.ShloMosaic Idealize.ShloMosaic.TcCoe Idealize.SL.Sem
open Idealize.ShloMosaic.ValueIdx

/-- The printed kernel runs, faults nowhere and keeps its arguments. -/
theorem frame_k : Cert.frame_Kernel := fun m ρ _ => Cert.Kernel.Body.frame (F := Bits) m ρ

/-- So does its idealisation. -/
theorem frame_ki : Cert.frame_KernelIdeal := fun m ρ _ => Cert.KernelIdeal.Body.frame (F := Ideal) m ρ

/-- So does the reference: its run with the result dropped. -/
theorem frame_ri : Cert.frame_ReferenceIdeal := fun m ρ _ =>
  (θ_run Cert.ReferenceIdeal.defs _ _).mono (fun _ h c => (h c).2) (Cert.ReferenceIdeal.RefValue.ref_run m ρ)

/-- The two rewrites of the idealisation: a round trip f32 → bf16 → f32 of the squared norms, on the extended
    reals the identity. -/
theorem preserves : Cert.preserves_Kernel_KernelIdeal :=
  ⟨IdealRules.truncf_extf.statement Cert.KernelIdeal.S4096x1 .f32 .bf16, IdealRules.truncf_extf.statement Cert.KernelIdeal.S8192x1 .f32 .bf16⟩

/-- On finite inputs both idealised programs end at the chamfer total of the two point sets over 16384: the kernel by
    its value (the augmented product is the expanded squared distance because the inputs are real; the clamp commutes
    with the minima), the reference by its run read one operation at a time. -/
theorem algebraic : Cert.algebraic_KernelIdeal_ReferenceIdeal := by
  intro m ρ m' ρ' hpre hagree
  refine ⟨fun c => fun _ => Ideal.div (Cert.Chamfer.total
      (Cert.KernelIdeal.Body.pts' (m ((c.tc : Thread Cert.KernelIdeal.nD Cert.KernelIdeal.τ).loc Cert.KernelIdeal.main_arg0)))
      (Cert.KernelIdeal.Body.pts' (m ((c.tc : Thread Cert.KernelIdeal.nD Cert.KernelIdeal.τ).loc Cert.KernelIdeal.main_arg1))))
      (Ideal.ofBits .f32 0x46800000#32), ?_, ?_⟩
  · refine (θ_run Cert.KernelIdeal.defs _ _).mono (fun r h c => ⟨(h c).1.trans ?_, (h c).2⟩)
      (Cert.KernelIdeal.Body.kernel_run (F := Ideal) m ρ)
    obtain ⟨hx, hy⟩ := Cert.KernelIdeal.Body.real_of_pre m hpre c
    funext _
    exact Cert.KernelIdeal.Body.kernel_value m c hx hy
  · refine (θ_run Cert.ReferenceIdeal.defs _ _).mono (fun r h c => ⟨(h c).1.trans ?_, (h c).2⟩)
      (Cert.ReferenceIdeal.RefValue.ref_run m' ρ')
    rw [(hagree c).1, (hagree c).2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
